-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v82)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v82) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v138) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x13 : Shape := ⟨2, ![50000, 13]⟩
abbrev S2x800000 : Shape := ⟨2, ![2, 800000]⟩
abbrev S13x64 : Shape := ⟨2, ![13, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S_ : Shape := ⟨0, ![]⟩

class Facts : Prop where
  bcast_S_S50000x13 : S_.BroadcastsInDim S50000x13 (![] : Fin 0 → Fin S50000x13.rank)
  reducesTo_S50000x13_S_d0_1 : S50000x13.ReducesTo [0, 1] S_
  h_S_ : 0 < S_.numel
  bcast_S_S13x64 : S_.BroadcastsInDim S13x64 (![] : Fin 0 → Fin S13x64.rank)
  reducesTo_S13x64_S_d0_1 : S13x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part4 {F : FTy → Type} [FloatOps F] (main_arg15 : FVec F S1 .f32) (main_arg16 : FVec F S64x1 .f32) (main_v63 : IVec S_ 1) (main_v67 : IVec S_ 1) : IVec S_ 1 :=
  let main_v68 : IVec S_ 1 := andi main_v63 main_v67
  let main_v69 : FVec F S1 .f32 := Host.absf main_arg15
  let main_cst_26 : FVec F S_ .f32 := constant S_ .f32 0x7F800000#32
  let main_v70 : FVec F S1 .f32 := broadcastInDim S1 ![] bcast_S_S1 main_cst_26
  let main_v71 : IVec S1 1 := cmpf .olt main_v69 main_v70
  let main_c_27 : IVec S_ 1 := constantI S_ 1 1#1
  let main_v72 : IVec S_ 1 := (fun x v => Host.reduce IntOp.andi x v reducesTo_S1_S_d0 h_S_) main_v71 main_c_27
  let main_v73 : IVec S_ 1 := andi main_v68 main_v72
  let main_v74 : FVec F S64x1 .f32 := Host.absf main_arg16
  let main_cst_28 : FVec F S_ .f32 := constant S_ .f32 0x7F800000#32
  let main_v75 : FVec F S64x1 .f32 := broadcastInDim S64x1 ![] bcast_S_S64x1 main_cst_28
  let main_v76 : IVec S64x1 1 := cmpf .olt main_v74 main_v75
  let main_c_29 : IVec S_ 1 := constantI S_ 1 1#1
  let main_v77 : IVec S_ 1 := (fun x v => Host.reduce IntOp.andi x v reducesTo_S64x1_S_d0_1 h_S_) main_v76 main_c_29
  let main_v78 : IVec S_ 1 := andi main_v73 main_v77
  main_v78

def fn_part3 {F : FTy → Type} [FloatOps F] (main_arg12 : FVec F S64 .f32) (main_arg13 : FVec F S64x64 .f32) (main_arg14 : FVec F S64x1 .f32) (main_arg15 : FVec F S1 .f32) (main_arg16 : FVec F S64x1 .f32) (main_v48 : IVec S_ 1) (main_v49 : FVec F S64x64 .f32) (main_v50 : FVec F S64x64 .f32) : IVec S_ 1 :=
  let main_v51 : IVec S64x64 1 := cmpf .olt main_v49 main_v50
  let main_c_19 : IVec S_ 1 := constantI S_ 1 1#1
  let main_v52 : IVec S_ 1 := (fun x v => Host.reduce IntOp.andi x v reducesTo_S64x64_S_d0_1 h_S_) main_v51 main_c_19
  let main_v53 : IVec S_ 1 := andi main_v48 main_v52
  let main_v54 : FVec F S64 .f32 := Host.absf main_arg12
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S64x64 .f32 := Host.absf main_arg13
  let main_cst_22 : FVec F S_ .f32 := constant S_ .f32 0x7F800000#32
  let main_v60 : FVec F S64x64 .f32 := broadcastInDim S64x64 ![] bcast_S_S64x64 main_cst_22
  let main_v61 : IVec S64x64 1 := cmpf .olt main_v59 main_v60
  let main_c_23 : IVec S_ 1 := constantI S_ 1 1#1
  let main_v62 : IVec S_ 1 := (fun x v => Host.reduce IntOp.andi x v reducesTo_S64x64_S_d0_1 h_S_) main_v61 main_c_23
  let main_v63 : IVec S_ 1 := andi main_v58 main_v62
  let main_v64 : FVec F S64x1 .f32 := Host.absf main_arg14
  let main_cst_24 : FVec F S_ .f32 := constant S_ .f32 0x7F800000#32
  let main_v65 : FVec F S64x1 .f32 := broadcastInDim S64x1 ![] bcast_S_S64x1 main_cst_24
  let main_v66 : IVec S64x1 1 := cmpf .olt main_v64 main_v65
  let main_c_25 : IVec S_ 1 := constantI S_ 1 1#1
  let main_v67 : IVec S_ 1 := (fun x v => Host.reduce IntOp.andi x v reducesTo_S64x1_S_d0_1 h_S_) main_v66 main_c_25
  fn_part4 (F := F) main_arg15 main_arg16 main_v63 main_v67

def fn_part2 {F : FTy → Type} [FloatOps F] (main_arg8 : FVec F S64x64 .f32) (main_arg9 : FVec F S64 .f32) (main_arg10 : FVec F S64x64 .f32) (main_arg11 : FVec F S64x64 .f32) (main_arg12 : FVec F S64 .f32) (main_arg13 : FVec F S64x64 .f32) (main_arg14 : FVec F S64x1 .f32) (main_arg15 : FVec F S1 .f32) (main_arg16 : FVec F S64x1 .f32) (main_v33 : IVec S_ 1) : IVec S_ 1 :=
  let main_v34 : FVec F S64x64 .f32 := Host.absf main_arg8
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64 .f32 := Host.absf main_arg9
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64x64 .f32 := Host.absf main_arg10
  let main_cst_16 : FVec F S_ .f32 := constant S_ .f32 0x7F800000#32
  let main_v45 : FVec F S64x64 .f32 := broadcastInDim S64x64 ![] bcast_S_S64x64 main_cst_16
  let main_v46 : IVec S64x64 1 := cmpf .olt main_v44 main_v45
  let main_c_17 : IVec S_ 1 := constantI S_ 1 1#1
  let main_v47 : IVec S_ 1 := (fun x v => Host.reduce IntOp.andi x v reducesTo_S64x64_S_d0_1 h_S_) main_v46 main_c_17
  let main_v48 : IVec S_ 1 := andi main_v43 main_v47
  let main_v49 : FVec F S64x64 .f32 := Host.absf main_arg11
  let main_cst_18 : FVec F S_ .f32 := constant S_ .f32 0x7F800000#32
  let main_v50 : FVec F S64x64 .f32 := broadcastInDim S64x64 ![] bcast_S_S64x64 main_cst_18
  fn_part3 (F := F) main_arg12 main_arg13 main_arg14 main_arg15 main_arg16 main_v48 main_v49 main_v50

def fn_part1 {F : FTy → Type} [FloatOps F] (main_arg5 : FVec F S64x64 .f32) (main_arg6 : FVec F S64 .f32) (main_arg7 : FVec F S64x64 .f32) (main_arg8 : FVec F S64x64 .f32) (main_arg9 : FVec F S64 .f32) (main_arg10 : FVec F S64x64 .f32) (main_arg11 : FVec F S64x64 .f32) (main_arg12 : FVec F S64 .f32) (main_arg13 : FVec F S64x64 .f32) (main_arg14 : FVec F S64x1 .f32) (main_arg15 : FVec F S1 .f32) (main_arg16 : FVec F S64x1 .f32) (main_v13 : IVec S_ 1) (main_v16 : IVec S13x64 1) : IVec S_ 1 :=
  let main_c_5 : IVec S_ 1 := constantI S_ 1 1#1
  let main_v17 : IVec S_ 1 := (fun x v => Host.reduce IntOp.andi x v reducesTo_S13x64_S_d0_1 h_S_) main_v16 main_c_5
  let main_v18 : IVec S_ 1 := andi main_v13 main_v17
  let main_v19 : FVec F S64x64 .f32 := Host.absf main_arg5
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg7
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg8 main_arg9 main_arg10 main_arg11 main_arg12 main_arg13 main_arg14 main_arg15 main_arg16 main_v33

def fn {F : FTy → Type} [FloatOps F] (main_arg0 : FVec F S50000x13 .f32) (main_arg1 : IVec S2x800000 32) (main_arg2 : FVec F S13x64 .f32) (main_arg3 : FVec F S64 .f32) (main_arg4 : FVec F S13x64 .f32) (main_arg5 : FVec F S64x64 .f32) (main_arg6 : FVec F S64 .f32) (main_arg7 : FVec F S64x64 .f32) (main_arg8 : FVec F S64x64 .f32) (main_arg9 : FVec F S64 .f32) (main_arg10 : FVec F S64x64 .f32) (main_arg11 : FVec F S64x64 .f32) (main_arg12 : FVec F S64 .f32) (main_arg13 : FVec F S64x64 .f32) (main_arg14 : FVec F S64x1 .f32) (main_arg15 : FVec F S1 .f32) (main_arg16 : FVec F S64x1 .f32) : IVec S_ 1 :=
  let main_v0 : FVec F S50000x13 .f32 := Host.absf main_arg0
  let main_cst : FVec F S_ .f32 := constant S_ .f32 0x7F800000#32
  let main_v1 : FVec F S50000x13 .f32 := broadcastInDim S50000x13 ![] bcast_S_S50000x13 main_cst
  let main_v2 : IVec S50000x13 1 := cmpf .olt main_v0 main_v1
  let main_c : IVec S_ 1 := constantI S_ 1 1#1
  let main_v3 : IVec S_ 1 := (fun x v => Host.reduce IntOp.andi x v reducesTo_S50000x13_S_d0_1 h_S_) main_v2 main_c
  let main_v4 : FVec F S13x64 .f32 := Host.absf main_arg2
  let main_cst_0 : FVec F S_ .f32 := constant S_ .f32 0x7F800000#32
  let main_v5 : FVec F S13x64 .f32 := broadcastInDim S13x64 ![] bcast_S_S13x64 main_cst_0
  let main_v6 : IVec S13x64 1 := cmpf .olt main_v4 main_v5
  let main_c_1 : IVec S_ 1 := constantI S_ 1 1#1
  let main_v7 : IVec S_ 1 := (fun x v => Host.reduce IntOp.andi x v reducesTo_S13x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S13x64 .f32 := Host.absf main_arg4
  let main_cst_4 : FVec F S_ .f32 := constant S_ .f32 0x7F800000#32
  let main_v15 : FVec F S13x64 .f32 := broadcastInDim S13x64 ![] bcast_S_S13x64 main_cst_4
  let main_v16 : IVec S13x64 1 := cmpf .olt main_v14 main_v15
  fn_part1 (F := F) main_arg5 main_arg6 main_arg7 main_arg8 main_arg9 main_arg10 main_arg11 main_arg12 main_arg13 main_arg14 main_arg15 main_arg16 main_v13 main_v16
-- ==== Kernel.lean ====
abbrev S50000x13 : Shape := ⟨2, ![50000, 13]⟩
abbrev S2x800000 : Shape := ⟨2, ![2, 800000]⟩
abbrev S13x64 : Shape := ⟨2, ![13, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x13 : Shape := ⟨2, ![800000, 13]⟩
abbrev S1x64 : Shape := ⟨2, ![1, 64]⟩
abbrev S50000x64 : Shape := ⟨2, ![50000, 64]⟩
abbrev S5000x13 : Shape := ⟨2, ![5000, 13]⟩
abbrev S5000x64 : Shape := ⟨2, ![5000, 64]⟩
abbrev S800000x64 : Shape := ⟨2, ![800000, 64]⟩
abbrev S1x1 : Shape := ⟨2, ![1, 1]⟩
abbrev S5000x1 : Shape := ⟨2, ![5000, 1]⟩

abbrev nBuf : Space → Nat
  | .hbm => 119
  | .vmem => 45
  | .smem => 0
  | _ => 0

abbrev bufTy : (tb : Table) → Fin (tcTables nBuf tb) → BufTy
  | .hbm, ⟨0, _⟩ => ⟨S50000x13, .f32⟩
  | .hbm, ⟨1, _⟩ => ⟨S2x800000, .i32⟩
  | .hbm, ⟨2, _⟩ => ⟨S13x64, .f32⟩
  | .hbm, ⟨3, _⟩ => ⟨S64, .f32⟩
  | .hbm, ⟨4, _⟩ => ⟨S13x64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S64x64, .f32⟩
  | .hbm, ⟨9, _⟩ => ⟨S64, .f32⟩
  | .hbm, ⟨10, _⟩ => ⟨S64x64, .f32⟩
  | .hbm, ⟨11, _⟩ => ⟨S64x64, .f32⟩
  | .hbm, ⟨12, _⟩ => ⟨S64, .f32⟩
  | .hbm, ⟨13, _⟩ => ⟨S64x64, .f32⟩
  | .hbm, ⟨14, _⟩ => ⟨S64x1, .f32⟩
  | .hbm, ⟨15, _⟩ => ⟨S1, .f32⟩
  | .hbm, ⟨16, _⟩ => ⟨S64x1, .f32⟩
  | .hbm, ⟨17, _⟩ => ⟨S1x800000, .i32⟩
  | .hbm, ⟨18, _⟩ => ⟨S800000, .i32⟩
  | .hbm, ⟨19, _⟩ => ⟨S1x800000, .i32⟩
  | .hbm, ⟨20, _⟩ => ⟨S800000, .i32⟩
  | .hbm, ⟨21, _⟩ => ⟨S_, .f32⟩
  | .hbm, ⟨22, _⟩ => ⟨S800000, .f32⟩
  | .hbm, ⟨23, _⟩ => ⟨S_, .f32⟩
  | .hbm, ⟨24, _⟩ => ⟨S50000, .f32⟩
  | .hbm, ⟨25, _⟩ => ⟨S800000x1, .i32⟩
  | .hbm, ⟨26, _⟩ => ⟨S50000, .f32⟩
  | .hbm, ⟨27, _⟩ => ⟨S_, .f32⟩
  | .hbm, ⟨28, _⟩ => ⟨S50000, .f32⟩
  | .hbm, ⟨29, _⟩ => ⟨S50000, .f32⟩
  | .hbm, ⟨30, _⟩ => ⟨S_, .f32⟩
  | .hbm, ⟨31, _⟩ => ⟨S50000, .f32⟩
  | .hbm, ⟨32, _⟩ => ⟨S50000, .f32⟩
  | .hbm, ⟨33, _⟩ => ⟨S50000x1, .f32⟩
  | .hbm, ⟨34, _⟩ => ⟨S_, .i32⟩
  | .hbm, ⟨35, _⟩ => ⟨S800000, .i32⟩
  | .hbm, ⟨36, _⟩ => ⟨S800000, .i1⟩
  | .hbm, ⟨37, _⟩ => ⟨S_, .i32⟩
  | .hbm, ⟨38, _⟩ => ⟨S800000, .i32⟩
  | .hbm, ⟨39, _⟩ => ⟨S800000, .i32⟩
  | .hbm, ⟨40, _⟩ => ⟨S800000, .i32⟩
  | .hbm, ⟨41, _⟩ => ⟨S800000x1, .i32⟩
  | .hbm, ⟨42, _⟩ => ⟨S800000x13, .f32⟩
  | .hbm, ⟨43, _⟩ => ⟨S_, .f32⟩
  | .hbm, ⟨44, _⟩ => ⟨S50000x13, .f32⟩
  | .hbm, ⟨45, _⟩ => ⟨S800000x1, .i32⟩
  | .hbm, ⟨46, _⟩ => ⟨S50000x13, .f32⟩
  | .hbm, ⟨47, _⟩ => ⟨S50000x13, .f32⟩
  | .hbm, ⟨48, _⟩ => ⟨S50000x13, .f32⟩
  | .hbm, ⟨49, _⟩ => ⟨S1x64, .f32⟩
  | .hbm, ⟨50, _⟩ => ⟨S50000x64, .f32⟩
  | .hbm, ⟨51, _⟩ => ⟨S_, .i32⟩
  | .hbm, ⟨52, _⟩ => ⟨S800000, .i32⟩
  | .hbm, ⟨53, _⟩ => ⟨S800000, .i1⟩
  | .hbm, ⟨54, _⟩ => ⟨S_, .i32⟩
  | .hbm, ⟨55, _⟩ => ⟨S800000, .i32⟩
  | .hbm, ⟨56, _⟩ => ⟨S800000, .i32⟩
  | .hbm, ⟨57, _⟩ => ⟨S800000, .i32⟩
  | .hbm, ⟨58, _⟩ => ⟨S800000x1, .i32⟩
  | .hbm, ⟨59, _⟩ => ⟨S800000x64, .f32⟩
  | .hbm, ⟨60, _⟩ => ⟨S_, .f32⟩
  | .hbm, ⟨61, _⟩ => ⟨S50000x64, .f32⟩
  | .hbm, ⟨62, _⟩ => ⟨S800000x1, .i32⟩
  | .hbm, ⟨63, _⟩ => ⟨S50000x64, .f32⟩
  | .hbm, ⟨64, _⟩ => ⟨S50000x64, .f32⟩
  | .hbm, ⟨65, _⟩ => ⟨S50000x64, .f32⟩
  | .hbm, ⟨66, _⟩ => ⟨S1x64, .f32⟩
  | .hbm, ⟨67, _⟩ => ⟨S50000x64, .f32⟩
  | .hbm, ⟨68, _⟩ => ⟨S_, .i32⟩
  | .hbm, ⟨69, _⟩ => ⟨S800000, .i32⟩
  | .hbm, ⟨70, _⟩ => ⟨S800000, .i1⟩
  | .hbm, ⟨71, _⟩ => ⟨S_, .i32⟩
  | .hbm, ⟨72, _⟩ => ⟨S800000, .i32⟩
  | .hbm, ⟨73, _⟩ => ⟨S800000, .i32⟩
  | .hbm, ⟨74, _⟩ => ⟨S800000, .i32⟩
  | .hbm, ⟨75, _⟩ => ⟨S800000x1, .i32⟩
  | .hbm, ⟨76, _⟩ => ⟨S800000x64, .f32⟩
  | .hbm, ⟨77, _⟩ => ⟨S_, .f32⟩
  | .hbm, ⟨78, _⟩ => ⟨S50000x64, .f32⟩
  | .hbm, ⟨79, _⟩ => ⟨S800000x1, .i32⟩
  | .hbm, ⟨80, _⟩ => ⟨S50000x64, .f32⟩
  | .hbm, ⟨81, _⟩ => ⟨S50000x64, .f32⟩
  | .hbm, ⟨82, _⟩ => ⟨S50000x64, .f32⟩
  | .hbm, ⟨83, _⟩ => ⟨S1x64, .f32⟩
  | .hbm, ⟨84, _⟩ => ⟨S50000x64, .f32⟩
  | .hbm, ⟨85, _⟩ => ⟨S_, .i32⟩
  | .hbm, ⟨86, _⟩ => ⟨S800000, .i32⟩
  | .hbm, ⟨87, _⟩ => ⟨S800000, .i1⟩
  | .hbm, ⟨88, _⟩ => ⟨S_, .i32⟩
  | .hbm, ⟨89, _⟩ => ⟨S800000, .i32⟩
  | .hbm, ⟨90, _⟩ => ⟨S800000, .i32⟩
  | .hbm, ⟨91, _⟩ => ⟨S800000, .i32⟩
  | .hbm, ⟨92, _⟩ => ⟨S800000x1, .i32⟩
  | .hbm, ⟨93, _⟩ => ⟨S800000x64, .f32⟩
  | .hbm, ⟨94, _⟩ => ⟨S_, .f32⟩
  | .hbm, ⟨95, _⟩ => ⟨S50000x64, .f32⟩
  | .hbm, ⟨96, _⟩ => ⟨S800000x1, .i32⟩
  | .hbm, ⟨97, _⟩ => ⟨S50000x64, .f32⟩
  | .hbm, ⟨98, _⟩ => ⟨S50000x64, .f32⟩
  | .hbm, ⟨99, _⟩ => ⟨S50000x64, .f32⟩
  | .hbm, ⟨100, _⟩ => ⟨S1x64, .f32⟩
  | .hbm, ⟨101, _⟩ => ⟨S50000x64, .f32⟩
  | .hbm, ⟨102, _⟩ => ⟨S_, .i32⟩
  | .hbm, ⟨103, _⟩ => ⟨S800000, .i32⟩
  | .hbm, ⟨104, _⟩ => ⟨S800000, .i1⟩
  | .hbm, ⟨105, _⟩ => ⟨S_, .i32⟩
  | .hbm, ⟨106, _⟩ => ⟨S800000, .i32⟩
  | .hbm, ⟨107, _⟩ => ⟨S800000, .i32⟩
  | .hbm, ⟨108, _⟩ => ⟨S800000, .i32⟩
  | .hbm, ⟨109, _⟩ => ⟨S800000x1, .i32⟩
  | .hbm, ⟨110, _⟩ => ⟨S800000x64, .f32⟩
  | .hbm, ⟨111, _⟩ => ⟨S_, .f32⟩
  | .hbm, ⟨112, _⟩ => ⟨S50000x64, .f32⟩
  | .hbm, ⟨113, _⟩ => ⟨S800000x1, .i32⟩
  | .hbm, ⟨114, _⟩ => ⟨S50000x64, .f32⟩
  | .hbm, ⟨115, _⟩ => ⟨S50000x64, .f32⟩
  | .hbm, ⟨116, _⟩ => ⟨S50000x64, .f32⟩
  | .hbm, ⟨117, _⟩ => ⟨S1x1, .f32⟩
  | .hbm, ⟨118, _⟩ => ⟨S50000x1, .f32⟩
  | .local _ .vmem, ⟨0, _⟩ => ⟨S5000x13, .f32⟩
  | .local _ .vmem, ⟨1, _⟩ => ⟨S5000x13, .f32⟩
  | .local _ .vmem, ⟨2, _⟩ => ⟨S5000x13, .f32⟩
  | .local _ .vmem, ⟨3, _⟩ => ⟨S5000x13, .f32⟩
  | .local _ .vmem, ⟨4, _⟩ => ⟨S13x64, .f32⟩
  | .local _ .vmem, ⟨5, _⟩ => ⟨S13x64, .f32⟩
  | .local _ .vmem, ⟨6, _⟩ => ⟨S1x64, .f32⟩
  | .local _ .vmem, ⟨7, _⟩ => ⟨S5000x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S64x64, .f32⟩
  | .local _ .vmem, ⟨14, _⟩ => ⟨S64x64, .f32⟩
  | .local _ .vmem, ⟨15, _⟩ => ⟨S1x64, .f32⟩
  | .local _ .vmem, ⟨16, _⟩ => ⟨S5000x64, .f32⟩
  | .local _ .vmem, ⟨17, _⟩ => ⟨S5000x64, .f32⟩
  | .local _ .vmem, ⟨18, _⟩ => ⟨S5000x64, .f32⟩
  | .local _ .vmem, ⟨19, _⟩ => ⟨S5000x64, .f32⟩
  | .local _ .vmem, ⟨20, _⟩ => ⟨S5000x64, .f32⟩
  | .local _ .vmem, ⟨21, _⟩ => ⟨S5000x64, .f32⟩
  | .local _ .vmem, ⟨22, _⟩ => ⟨S64x64, .f32⟩
  | .local _ .vmem, ⟨23, _⟩ => ⟨S64x64, .f32⟩
  | .local _ .vmem, ⟨24, _⟩ => ⟨S1x64, .f32⟩
  | .local _ .vmem, ⟨25, _⟩ => ⟨S5000x64, .f32⟩
  | .local _ .vmem, ⟨26, _⟩ => ⟨S5000x64, .f32⟩
  | .local _ .vmem, ⟨27, _⟩ => ⟨S5000x64, .f32⟩
  | .local _ .vmem, ⟨28, _⟩ => ⟨S5000x64, .f32⟩
  | .local _ .vmem, ⟨29, _⟩ => ⟨S5000x64, .f32⟩
  | .local _ .vmem, ⟨30, _⟩ => ⟨S5000x64, .f32⟩
  | .local _ .vmem, ⟨31, _⟩ => ⟨S64x64, .f32⟩
  | .local _ .vmem, ⟨32, _⟩ => ⟨S64x64, .f32⟩
  | .local _ .vmem, ⟨33, _⟩ => ⟨S1x64, .f32⟩
  | .local _ .vmem, ⟨34, _⟩ => ⟨S5000x64, .f32⟩
  | .local _ .vmem, ⟨35, _⟩ => ⟨S5000x64, .f32⟩
  | .local _ .vmem, ⟨36, _⟩ => ⟨S5000x64, .f32⟩
  | .local _ .vmem, ⟨37, _⟩ => ⟨S5000x64, .f32⟩
  | .local _ .vmem, ⟨38, _⟩ => ⟨S5000x64, .f32⟩
  | .local _ .vmem, ⟨39, _⟩ => ⟨S5000x64, .f32⟩
  | .local _ .vmem, ⟨40, _⟩ => ⟨S64x1, .f32⟩
  | .local _ .vmem, ⟨41, _⟩ => ⟨S64x1, .f32⟩
  | .local _ .vmem, ⟨42, _⟩ => ⟨S1x1, .f32⟩
  | .local _ .vmem, ⟨43, _⟩ => ⟨S5000x1, .f32⟩
  | .local _ .vmem, ⟨44, _⟩ => ⟨S5000x1, .f32⟩
  | _, _ => ⟨S50000x13, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | _, _ => false

abbrev semScoped : Fin 0 → Bool
  | ⟨_, h⟩ => absurd h (Nat.not_lt_zero _)

abbrev dmaSemScoped : Fin 45 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | _ => false

abbrev sig : RefSig :=
  ofTc nBuf bufTy 0 45 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_cst : Ref sig .tc := ⟨.hbm, 21, rfl⟩
abbrev main_v4 : Ref sig .tc := ⟨.hbm, 22, rfl⟩
abbrev main_cst_0 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_cst_1 : Ref sig .tc := ⟨.hbm, 27, rfl⟩
abbrev main_v8 : Ref sig .tc := ⟨.hbm, 28, rfl⟩
abbrev main_v9 : Ref sig .tc := ⟨.hbm, 29, rfl⟩
abbrev main_cst_2 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_c : Ref sig .tc := ⟨.hbm, 34, rfl⟩
abbrev main_v13 : Ref sig .tc := ⟨.hbm, 35, rfl⟩
abbrev main_v14 : Ref sig .tc := ⟨.hbm, 36, rfl⟩
abbrev main_c_3 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_cst_4 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_c_5 : Ref sig .tc := ⟨.hbm, 51, rfl⟩
abbrev main_v27 : Ref sig .tc := ⟨.hbm, 52, rfl⟩
abbrev main_v28 : Ref sig .tc := ⟨.hbm, 53, rfl⟩
abbrev main_c_6 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_cst_7 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_c_8 : Ref sig .tc := ⟨.hbm, 68, rfl⟩
abbrev main_v41 : Ref sig .tc := ⟨.hbm, 69, rfl⟩
abbrev main_v42 : Ref sig .tc := ⟨.hbm, 70, rfl⟩
abbrev main_c_9 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_cst_10 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_c_11 : Ref sig .tc := ⟨.hbm, 85, rfl⟩
abbrev main_v55 : Ref sig .tc := ⟨.hbm, 86, rfl⟩
abbrev main_v56 : Ref sig .tc := ⟨.hbm, 87, rfl⟩
abbrev main_c_12 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_cst_13 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_c_14 : Ref sig .tc := ⟨.hbm, 102, rfl⟩
abbrev main_v69 : Ref sig .tc := ⟨.hbm, 103, rfl⟩
abbrev main_v70 : Ref sig .tc := ⟨.hbm, 104, rfl⟩
abbrev main_c_15 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_cst_16 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc3_stg0_0 : Ref sig .tc := ⟨.vmem, 27, rfl⟩
abbrev cc3_stg0_1 : Ref sig .tc := ⟨.vmem, 28, rfl⟩
abbrev cc3_stg1_0 : Ref sig .tc := ⟨.vmem, 29, rfl⟩
abbrev cc3_stg1_1 : Ref sig .tc := ⟨.vmem, 30, rfl⟩
abbrev cc3_stg2_0 : Ref sig .tc := ⟨.vmem, 31, rfl⟩
abbrev cc3_stg3_0 : Ref sig .tc := ⟨.vmem, 32, rfl⟩
abbrev cc3_stg4_0 : Ref sig .tc := ⟨.vmem, 33, rfl⟩
abbrev cc3_stg5_0 : Ref sig .tc := ⟨.vmem, 34, rfl⟩
abbrev cc3_stg5_1 : Ref sig .tc := ⟨.vmem, 35, rfl⟩
abbrev cc4_stg0_0 : Ref sig .tc := ⟨.vmem, 36, rfl⟩
abbrev cc4_stg0_1 : Ref sig .tc := ⟨.vmem, 37, rfl⟩
abbrev cc4_stg1_0 : Ref sig .tc := ⟨.vmem, 38, rfl⟩
abbrev cc4_stg1_1 : Ref sig .tc := ⟨.vmem, 39, rfl⟩
abbrev cc4_stg2_0 : Ref sig .tc := ⟨.vmem, 40, rfl⟩
abbrev cc4_stg3_0 : Ref sig .tc := ⟨.vmem, 41, rfl⟩
abbrev cc4_stg4_0 : Ref sig .tc := ⟨.vmem, 42, rfl⟩
abbrev cc4_stg5_0 : Ref sig .tc := ⟨.vmem, 43, rfl⟩
abbrev cc4_stg5_1 : Ref sig .tc := ⟨.vmem, 44, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26
abbrev cc3_sem0_0 : DmaSem sig := 27
abbrev cc3_sem0_1 : DmaSem sig := 28
abbrev cc3_sem1_0 : DmaSem sig := 29
abbrev cc3_sem1_1 : DmaSem sig := 30
abbrev cc3_sem2_0 : DmaSem sig := 31
abbrev cc3_sem3_0 : DmaSem sig := 32
abbrev cc3_sem4_0 : DmaSem sig := 33
abbrev cc3_sem5_0 : DmaSem sig := 34
abbrev cc3_sem5_1 : DmaSem sig := 35
abbrev cc4_sem0_0 : DmaSem sig := 36
abbrev cc4_sem0_1 : DmaSem sig := 37
abbrev cc4_sem1_0 : DmaSem sig := 38
abbrev cc4_sem1_1 : DmaSem sig := 39
abbrev cc4_sem2_0 : DmaSem sig := 40
abbrev cc4_sem3_0 : DmaSem sig := 41
abbrev cc4_sem4_0 : DmaSem sig := 42
abbrev cc4_sem5_0 : DmaSem sig := 43
abbrev cc4_sem5_1 : DmaSem sig := 44

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x13 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x13 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S13x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S13x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S64x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S64x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S64x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S5000x64 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x64 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S64x1 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S64x1 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x1 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S5000x1 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S_S50000x13 : S_.BroadcastsInDim S50000x13 (![] : Fin 0 → Fin S50000x13.rank)
  bcast_S50000x1_S50000x13_0_1 : S50000x1.BroadcastsInDim S50000x13 (![0, 1] : Fin 2 → Fin S50000x13.rank)
  shapeCasts_S64_S1x64 : S64.ShapeCasts S1x64
  inb_S5000x13_S5000x13_0_0 : ∀ a, (![0, 0] : Fin 2 → Nat) a + S5000x13.size a ≤ S5000x13.size a
  h_S5000x13 : 0 < S5000x13.numel
  shapeCasts_S5000x13_S5000x13 : S5000x13.ShapeCasts S5000x13
  bitsLt_bf16_f32 : FTy.bits .bf16 < FTy.bits .f32
  inb_S13x64_S13x64_0_0 : ∀ a, (![0, 0] : Fin 2 → Nat) a + S13x64.size a ≤ S13x64.size a
  h_S13x64 : 0 < S13x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  bcast_S_S50000x64 : S_.BroadcastsInDim S50000x64 (![] : Fin 0 → Fin S50000x64.rank)
  bcast_S50000x1_S50000x64_0_1 : S50000x1.BroadcastsInDim S50000x64 (![0, 1] : Fin 2 → Fin S50000x64.rank)
  shapeCasts_S5000x64_S5000x64 : S5000x64.ShapeCasts S5000x64
  inb_S64x64_S64x64_0_0 : ∀ a, (![0, 0] : Fin 2 → Nat) a + S64x64.size a ≤ S64x64.size a
  h_S64x64 : 0 < S64x64.numel
  shapeCasts_S1_S1x1 : S1.ShapeCasts S1x1
  inb_S64x1_S64x1_0_0 : ∀ a, (![0, 0] : Fin 2 → Nat) a + S64x1.size a ≤ S64x1.size a
  h_S64x1 : 0 < S64x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S5000x1 : S1x1.Broadcasts S5000x1
  inb_S5000x1_S5000x1_0_0 : ∀ a, (![0, 0] : Fin 2 → Nat) a + S5000x1.size a ≤ S5000x1.size a
  h_S5000x1 : 0 < S5000x1.numel
  scatter_S50000_S800000x1_S800000_n_0_0_1_wf : ScatterDims.WF S50000 S800000x1 S800000 [] [0] [0] 1
  gather_S50000x13_S800000x1_S800000x13_1_0_n_n_0_1_113_wf : GatherDims.WF S50000x13 S800000x1 S800000x13 [1] [0] [] [0] [] 1 ![1, 13]
  scatter_S50000x13_S800000x1_S800000x13_1_0_0_1_wf : ScatterDims.WF S50000x13 S800000x1 S800000x13 [1] [0] [0] 1
  dot_S5000x13_S13x64_S5000x64_1_0_0_1_n_n_wf : DotDims.WF S5000x13 S13x64 S5000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S5000x64_S64x64_S5000x64_1_0_0_1_n_n_wf : DotDims.WF S5000x64 S64x64 S5000x64 [1] [0] [0] [1] [] []
  dot_S5000x64_S64x1_S5000x1_1_0_0_1_n_n_wf : DotDims.WF S5000x64 S64x1 S5000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x13.size a ≤ S50000x13.size a
  hwx0_0 : ∀ i : grid0.Coords, EltTy.bits .f32 = 32 ∨ (Rect.block (s := S50000x13) S5000x13.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x13.size a ≤ S50000x13.size a
  hwx0_1 : ∀ i : grid0.Coords, EltTy.bits .f32 = 32 ∨ (Rect.block (s := S50000x13) S5000x13.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S13x64.size a ≤ S13x64.size a
  hwx0_2 : ∀ i : grid0.Coords, EltTy.bits .f32 = 32 ∨ (Rect.block (s := S13x64) S13x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S13x64.size a ≤ S13x64.size a
  hwx0_3 : ∀ i : grid0.Coords, EltTy.bits .f32 = 32 ∨ (Rect.block (s := S13x64) S13x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x64.size a ≤ S50000x64.size a
  hwx0_5 : ∀ i : grid0.Coords, EltTy.bits .f32 = 32 ∨ (Rect.block (s := S50000x64) S5000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S50000x64.size a
  hwx1_1 : ∀ i : grid1.Coords, EltTy.bits .f32 = 32 ∨ (Rect.block (s := S50000x64) S5000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x64.size a ≤ S50000x64.size a
  hwx1_5 : ∀ i : grid1.Coords, EltTy.bits .f32 = 32 ∨ (Rect.block (s := S50000x64) S5000x64.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S50000x64.size a
  hwx2_0 : ∀ i : grid2.Coords, EltTy.bits .f32 = 32 ∨ (Rect.block (s := S50000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x64.size a ≤ S50000x64.size a
  hwx2_1 : ∀ i : grid2.Coords, EltTy.bits .f32 = 32 ∨ (Rect.block (s := S50000x64) S5000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .f32 = 32 ∨ (Rect.block (s := S64x64) S64x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x64.size a ≤ S64x64.size a
  hwx2_3 : ∀ i : grid2.Coords, EltTy.bits .f32 = 32 ∨ (Rect.block (s := S64x64) S64x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x64.size a ≤ S50000x64.size a
  hwx2_5 : ∀ i : grid2.Coords, EltTy.bits .f32 = 32 ∨ (Rect.block (s := S50000x64) S5000x64.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S50000x64.size a
  hwx3_0 : ∀ i : grid3.Coords, EltTy.bits .f32 = 32 ∨ (Rect.block (s := S50000x64) S5000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x64.size a ≤ S50000x64.size a
  hwx3_1 : ∀ i : grid3.Coords, EltTy.bits .f32 = 32 ∨ (Rect.block (s := S50000x64) S5000x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S64x64.size a ≤ S64x64.size a
  hwx3_2 : ∀ i : grid3.Coords, EltTy.bits .f32 = 32 ∨ (Rect.block (s := S64x64) S64x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S64x64.size a ≤ S64x64.size a
  hwx3_3 : ∀ i : grid3.Coords, EltTy.bits .f32 = 32 ∨ (Rect.block (s := S64x64) S64x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x64.size a ≤ S1x64.size a
  hwx3_4 : ∀ i : grid3.Coords, EltTy.bits .f32 = 32 ∨ (Rect.block (s := S1x64) S1x64.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x64.size a ≤ S50000x64.size a
  hwx3_5 : ∀ i : grid3.Coords, EltTy.bits .f32 = 32 ∨ (Rect.block (s := S50000x64) S5000x64.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x64.size a ≤ S50000x64.size a
  hwx4_0 : ∀ i : grid4.Coords, EltTy.bits .f32 = 32 ∨ (Rect.block (s := S50000x64) S5000x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x64.size a ≤ S50000x64.size a
  hwx4_1 : ∀ i : grid4.Coords, EltTy.bits .f32 = 32 ∨ (Rect.block (s := S50000x64) S5000x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S64x1.size a ≤ S64x1.size a
  hwx4_2 : ∀ i : grid4.Coords, EltTy.bits .f32 = 32 ∨ (Rect.block (s := S64x1) S64x1.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S64x1.size a ≤ S64x1.size a
  hwx4_3 : ∀ i : grid4.Coords, EltTy.bits .f32 = 32 ∨ (Rect.block (s := S64x1) S64x1.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x1.size a ≤ S1x1.size a
  hwx4_4 : ∀ i : grid4.Coords, EltTy.bits .f32 = 32 ∨ (Rect.block (s := S1x1) S1x1.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S5000x1.size a ≤ S50000x1.size a
  hwx4_5 : ∀ i : grid4.Coords, EltTy.bits .f32 = 32 ∨ (Rect.block (s := S50000x1) S5000x1.size (cc4_transform_5 i) (hinb4_5 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x13_S800000x1_S800000x13_1_0_n_n_0_1_113 : GatherDims S50000x13 S800000x1 S800000x13 where
  offsetDims := [1]
  collapsedSliceDims := [0]
  operandBatchingDims := []
  startIndicesBatchingDims := []
  startIndexMap := [0]
  indexVectorDim := 1
  sliceSizes := ![1, 13]
  wf := gather_S50000x13_S800000x1_S800000x13_1_0_n_n_0_1_113_wf
def scatter_S50000x13_S800000x1_S800000x13_1_0_0_1 : ScatterDims S50000x13 S800000x1 S800000x13 where
  updateWindowDims := [1]
  insertedWindowDims := [0]
  scatterDimsToOperandDims := [0]
  indexVectorDim := 1
  wf := scatter_S50000x13_S800000x1_S800000x13_1_0_0_1_wf
def dot_S5000x13_S13x64_S5000x64_1_0_0_1_n_n : DotDims S5000x13 S13x64 S5000x64 where
  lhsContracting := [1]
  rhsContracting := [0]
  lhsNonContracting := [0]
  rhsNonContracting := [1]
  lhsBatch := []
  rhsBatch := []
  wf := dot_S5000x13_S13x64_S5000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def dot_S5000x64_S64x1_S5000x1_1_0_0_1_n_n : DotDims S5000x64 S64x1 S5000x1 where
  lhsContracting := [1]
  rhsContracting := [0]
  lhsNonContracting := [0]
  rhsNonContracting := [1]
  lhsBatch := []
  rhsBatch := []
  wf := dot_S5000x64_S64x1_S5000x1_1_0_0_1_n_n_wf

abbrev win0_0 : Pipeline.Window sig grid0 :=
  Pipeline.Window.ofSpec (Memref.whole main_v24) S5000x13.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x13.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S13x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S13x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v25) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v26) S5000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v38) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v39) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v40) S5000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v52) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v40) S5000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg8) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg10) S64x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v53) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v54) S5000x64.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v66) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v54) S5000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg11) S64x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg13) S64x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v67) S1x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v68) S5000x64.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v80) S5000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v68) S5000x64.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_arg14) S64x1.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_arg16) S64x1.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v81) S1x1.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v82) S5000x1.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

class Facts : Prop extends Facts₀ where

variable [Facts]
-- ==== ReferenceIdeal.lean ====
abbrev S50000x13 : Shape := ⟨2, ![50000, 13]⟩
abbrev S2x800000 : Shape := ⟨2, ![2, 800000]⟩
abbrev S13x64 : Shape := ⟨2, ![13, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x13 : Shape := ⟨2, ![800000, 13]⟩
abbrev S50000 : Shape := ⟨1, ![50000]⟩
abbrev S50000x1 : Shape := ⟨2, ![50000, 1]⟩
abbrev S50000x64 : Shape := ⟨2, ![50000, 64]⟩
abbrev S1x64 : Shape := ⟨2, ![1, 64]⟩
abbrev S800000x64 : Shape := ⟨2, ![800000, 64]⟩
abbrev S1x1 : Shape := ⟨2, ![1, 1]⟩

abbrev nBuf : Space → Nat
  | .hbm => 196
  | .vmem => 0
  | .smem => 0
  | _ => 0

abbrev hbmTy0_0 (i : Nat) : BufTy := match i % 128 with
  | 0 => ⟨S50000x13, .f32⟩
  | 1 => ⟨S2x800000, .i32⟩
  | 2 => ⟨S13x64, .f32⟩
  | 3 => ⟨S64, .f32⟩
  | 4 => ⟨S13x64, .f32⟩
  | 5 => ⟨S64x64, .f32⟩
  | 6 => ⟨S64, .f32⟩
  | 7 => ⟨S64x64, .f32⟩
  | 8 => ⟨S64x64, .f32⟩
  | 9 => ⟨S64, .f32⟩
  | 10 => ⟨S64x64, .f32⟩
  | 11 => ⟨S64x64, .f32⟩
  | 12 => ⟨S64, .f32⟩
  | 13 => ⟨S64x64, .f32⟩
  | 14 => ⟨S64x1, .f32⟩
  | 15 => ⟨S1, .f32⟩
  | 16 => ⟨S64x1, .f32⟩
  | 17 => ⟨S1x800000, .i32⟩
  | 18 => ⟨S800000, .i32⟩
  | 19 => ⟨S1x800000, .i32⟩
  | 20 => ⟨S800000, .i32⟩
  | 21 => ⟨S_, .i32⟩
  | 22 => ⟨S800000, .i32⟩
  | 23 => ⟨S800000, .i1⟩
  | 24 => ⟨S_, .i32⟩
  | 25 => ⟨S800000, .i32⟩
  | 26 => ⟨S800000, .i32⟩
  | 27 => ⟨S800000, .i32⟩
  | 28 => ⟨S800000x1, .i32⟩
  | 29 => ⟨S800000x13, .f32⟩
  | 30 => ⟨S_, .f32⟩
  | 31 => ⟨S50000x13, .f32⟩
  | 32 => ⟨S800000x1, .i32⟩
  | 33 => ⟨S50000x13, .f32⟩
  | 34 => ⟨S_, .f32⟩
  | 35 => ⟨S800000, .f32⟩
  | 36 => ⟨S_, .f32⟩
  | 37 => ⟨S50000, .f32⟩
  | 38 => ⟨S800000x1, .i32⟩
  | 39 => ⟨S50000, .f32⟩
  | 40 => ⟨S_, .f32⟩
  | 41 => ⟨S50000, .f32⟩
  | 42 => ⟨S50000, .f32⟩
  | 43 => ⟨S50000x1, .f32⟩
  | 44 => ⟨S50000x13, .f32⟩
  | 45 => ⟨S50000x13, .f32⟩
  | 46 => ⟨S50000x64, .f32⟩
  | 47 => ⟨S1x64, .f32⟩
  | 48 => ⟨S50000x64, .f32⟩
  | 49 => ⟨S50000x64, .f32⟩
  | 50 => ⟨S50000x64, .f32⟩
  | 51 => ⟨S50000x64, .f32⟩
  | 52 => ⟨S_, .f32⟩
  | 53 => ⟨S50000x64, .f32⟩
  | 54 => ⟨S50000x64, .f32⟩
  | 55 => ⟨S_, .i32⟩
  | 56 => ⟨S800000, .i32⟩
  | 57 => ⟨S800000, .i1⟩
  | 58 => ⟨S_, .i32⟩
  | 59 => ⟨S800000, .i32⟩
  | 60 => ⟨S800000, .i32⟩
  | 61 => ⟨S800000, .i32⟩
  | 62 => ⟨S800000x1, .i32⟩
  | 63 => ⟨S800000x64, .f32⟩
  | 64 => ⟨S_, .f32⟩
  | 65 => ⟨S50000x64, .f32⟩
  | 66 => ⟨S800000x1, .i32⟩
  | 67 => ⟨S50000x64, .f32⟩
  | 68 => ⟨S_, .f32⟩
  | 69 => ⟨S800000, .f32⟩
  | 70 => ⟨S_, .f32⟩
  | 71 => ⟨S50000, .f32⟩
  | 72 => ⟨S800000x1, .i32⟩
  | 73 => ⟨S50000, .f32⟩
  | 74 => ⟨S_, .f32⟩
  | 75 => ⟨S50000, .f32⟩
  | 76 => ⟨S50000, .f32⟩
  | 77 => ⟨S50000x1, .f32⟩
  | 78 => ⟨S50000x64, .f32⟩
  | 79 => ⟨S50000x64, .f32⟩
  | 80 => ⟨S50000x64, .f32⟩
  | 81 => ⟨S1x64, .f32⟩
  | 82 => ⟨S50000x64, .f32⟩
  | 83 => ⟨S50000x64, .f32⟩
  | 84 => ⟨S50000x64, .f32⟩
  | 85 => ⟨S50000x64, .f32⟩
  | 86 => ⟨S_, .f32⟩
  | 87 => ⟨S50000x64, .f32⟩
  | 88 => ⟨S50000x64, .f32⟩
  | 89 => ⟨S_, .i32⟩
  | 90 => ⟨S800000, .i32⟩
  | 91 => ⟨S800000, .i1⟩
  | 92 => ⟨S_, .i32⟩
  | 93 => ⟨S800000, .i32⟩
  | 94 => ⟨S800000, .i32⟩
  | 95 => ⟨S800000, .i32⟩
  | 96 => ⟨S800000x1, .i32⟩
  | 97 => ⟨S800000x64, .f32⟩
  | 98 => ⟨S_, .f32⟩
  | 99 => ⟨S50000x64, .f32⟩
  | 100 => ⟨S800000x1, .i32⟩
  | 101 => ⟨S50000x64, .f32⟩
  | 102 => ⟨S_, .f32⟩
  | 103 => ⟨S800000, .f32⟩
  | 104 => ⟨S_, .f32⟩
  | 105 => ⟨S50000, .f32⟩
  | 106 => ⟨S800000x1, .i32⟩
  | 107 => ⟨S50000, .f32⟩
  | 108 => ⟨S_, .f32⟩
  | 109 => ⟨S50000, .f32⟩
  | 110 => ⟨S50000, .f32⟩
  | 111 => ⟨S50000x1, .f32⟩
  | 112 => ⟨S50000x64, .f32⟩
  | 113 => ⟨S50000x64, .f32⟩
  | 114 => ⟨S50000x64, .f32⟩
  | 115 => ⟨S1x64, .f32⟩
  | 116 => ⟨S50000x64, .f32⟩
  | 117 => ⟨S50000x64, .f32⟩
  | 118 => ⟨S50000x64, .f32⟩
  | 119 => ⟨S50000x64, .f32⟩
  | 120 => ⟨S_, .f32⟩
  | 121 => ⟨S50000x64, .f32⟩
  | 122 => ⟨S50000x64, .f32⟩
  | 123 => ⟨S_, .i32⟩
  | 124 => ⟨S800000, .i32⟩
  | 125 => ⟨S800000, .i1⟩
  | 126 => ⟨S_, .i32⟩
  | 127 => ⟨S800000, .i32⟩
  | _ => ⟨S50000x13, .f32⟩

abbrev hbmTy0_1 (i : Nat) : BufTy := match i % 128 with
  | 0 => ⟨S800000, .i32⟩
  | 1 => ⟨S800000, .i32⟩
  | 2 => ⟨S800000x1, .i32⟩
  | 3 => ⟨S800000x64, .f32⟩
  | 4 => ⟨S_, .f32⟩
  | 5 => ⟨S50000x64, .f32⟩
  | 6 => ⟨S800000x1, .i32⟩
  | 7 => ⟨S50000x64, .f32⟩
  | 8 => ⟨S_, .f32⟩
  | 9 => ⟨S800000, .f32⟩
  | 10 => ⟨S_, .f32⟩
  | 11 => ⟨S50000, .f32⟩
  | 12 => ⟨S800000x1, .i32⟩
  | 13 => ⟨S50000, .f32⟩
  | 14 => ⟨S_, .f32⟩
  | 15 => ⟨S50000, .f32⟩
  | 16 => ⟨S50000, .f32⟩
  | 17 => ⟨S50000x1, .f32⟩
  | 18 => ⟨S50000x64, .f32⟩
  | 19 => ⟨S50000x64, .f32⟩
  | 20 => ⟨S50000x64, .f32⟩
  | 21 => ⟨S1x64, .f32⟩
  | 22 => ⟨S50000x64, .f32⟩
  | 23 => ⟨S50000x64, .f32⟩
  | 24 => ⟨S50000x64, .f32⟩
  | 25 => ⟨S50000x64, .f32⟩
  | 26 => ⟨S_, .f32⟩
  | 27 => ⟨S50000x64, .f32⟩
  | 28 => ⟨S50000x64, .f32⟩
  | 29 => ⟨S_, .i32⟩
  | 30 => ⟨S800000, .i32⟩
  | 31 => ⟨S800000, .i1⟩
  | 32 => ⟨S_, .i32⟩
  | 33 => ⟨S800000, .i32⟩
  | 34 => ⟨S800000, .i32⟩
  | 35 => ⟨S800000, .i32⟩
  | 36 => ⟨S800000x1, .i32⟩
  | 37 => ⟨S800000x64, .f32⟩
  | 38 => ⟨S_, .f32⟩
  | 39 => ⟨S50000x64, .f32⟩
  | 40 => ⟨S800000x1, .i32⟩
  | 41 => ⟨S50000x64, .f32⟩
  | 42 => ⟨S_, .f32⟩
  | 43 => ⟨S800000, .f32⟩
  | 44 => ⟨S_, .f32⟩
  | 45 => ⟨S50000, .f32⟩
  | 46 => ⟨S800000x1, .i32⟩
  | 47 => ⟨S50000, .f32⟩
  | 48 => ⟨S_, .f32⟩
  | 49 => ⟨S50000, .f32⟩
  | 50 => ⟨S50000, .f32⟩
  | 51 => ⟨S50000x1, .f32⟩
  | 52 => ⟨S50000x64, .f32⟩
  | 53 => ⟨S50000x64, .f32⟩
  | 54 => ⟨S50000x1, .f32⟩
  | 55 => ⟨S1x1, .f32⟩
  | 56 => ⟨S50000x1, .f32⟩
  | 57 => ⟨S50000x1, .f32⟩
  | 58 => ⟨S50000x1, .f32⟩
  | 59 => ⟨S50000x1, .f32⟩
  | 60 => ⟨S50000x1, .f32⟩
  | 61 => ⟨S50000x1, .f32⟩
  | 62 => ⟨S_, .f32⟩
  | 63 => ⟨S50000x1, .f32⟩
  | 64 => ⟨S50000x1, .f32⟩
  | 65 => ⟨S_, .f32⟩
  | 66 => ⟨S50000x1, .f32⟩
  | 67 => ⟨S50000x1, .f32⟩
  | _ => ⟨S50000x13, .f32⟩

abbrev hbmTy (i : Nat) : BufTy := match i / 128 with
  | 0 => hbmTy0_0 i
  | 1 => hbmTy0_1 i
  | _ => ⟨S50000x13, .f32⟩

abbrev bufTy : (tb : Table) → Fin (tcTables nBuf tb) → BufTy
  | .hbm, ⟨i, _⟩ => hbmTy i
  | _, _ => ⟨S50000x13, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_c : Ref sig .tc := ⟨.hbm, 21, rfl⟩
abbrev main_v4 : Ref sig .tc := ⟨.hbm, 22, rfl⟩
abbrev main_v5 : Ref sig .tc := ⟨.hbm, 23, rfl⟩
abbrev main_c_0 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_cst : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_cst_1 : Ref sig .tc := ⟨.hbm, 34, rfl⟩
abbrev main_v14 : Ref sig .tc := ⟨.hbm, 35, rfl⟩
abbrev main_cst_2 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_cst_3 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_call0_cst : Ref sig .tc := ⟨.hbm, 52, rfl⟩
abbrev main_call0_v0 : Ref sig .tc := ⟨.hbm, 53, rfl⟩
abbrev main_v29 : Ref sig .tc := ⟨.hbm, 54, rfl⟩
abbrev main_c_4 : Ref sig .tc := ⟨.hbm, 55, rfl⟩
abbrev main_v30 : Ref sig .tc := ⟨.hbm, 56, rfl⟩
abbrev main_v31 : Ref sig .tc := ⟨.hbm, 57, rfl⟩
abbrev main_c_5 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_cst_6 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_cst_7 : Ref sig .tc := ⟨.hbm, 68, rfl⟩
abbrev main_v40 : Ref sig .tc := ⟨.hbm, 69, rfl⟩
abbrev main_cst_8 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_cst_9 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_call1_cst : Ref sig .tc := ⟨.hbm, 86, rfl⟩
abbrev main_call1_v0 : Ref sig .tc := ⟨.hbm, 87, rfl⟩
abbrev main_v55 : Ref sig .tc := ⟨.hbm, 88, rfl⟩
abbrev main_c_10 : Ref sig .tc := ⟨.hbm, 89, rfl⟩
abbrev main_v56 : Ref sig .tc := ⟨.hbm, 90, rfl⟩
abbrev main_v57 : Ref sig .tc := ⟨.hbm, 91, rfl⟩
abbrev main_c_11 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_cst_12 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_cst_13 : Ref sig .tc := ⟨.hbm, 102, rfl⟩
abbrev main_v66 : Ref sig .tc := ⟨.hbm, 103, rfl⟩
abbrev main_cst_14 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_cst_15 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_call2_cst : Ref sig .tc := ⟨.hbm, 120, rfl⟩
abbrev main_call2_v0 : Ref sig .tc := ⟨.hbm, 121, rfl⟩
abbrev main_v81 : Ref sig .tc := ⟨.hbm, 122, rfl⟩
abbrev main_c_16 : Ref sig .tc := ⟨.hbm, 123, rfl⟩
abbrev main_v82 : Ref sig .tc := ⟨.hbm, 124, rfl⟩
abbrev main_v83 : Ref sig .tc := ⟨.hbm, 125, rfl⟩
abbrev main_c_17 : Ref sig .tc := ⟨.hbm, 126, rfl⟩
abbrev main_v84 : Ref sig .tc := ⟨.hbm, 127, rfl⟩
abbrev main_v85 : Ref sig .tc := ⟨.hbm, 128, rfl⟩
abbrev main_v86 : Ref sig .tc := ⟨.hbm, 129, rfl⟩
abbrev main_v87 : Ref sig .tc := ⟨.hbm, 130, rfl⟩
abbrev main_v88 : Ref sig .tc := ⟨.hbm, 131, rfl⟩
abbrev main_cst_18 : Ref sig .tc := ⟨.hbm, 132, rfl⟩
abbrev main_v89 : Ref sig .tc := ⟨.hbm, 133, rfl⟩
abbrev main_v90 : Ref sig .tc := ⟨.hbm, 134, rfl⟩
abbrev main_v91 : Ref sig .tc := ⟨.hbm, 135, rfl⟩
abbrev main_cst_19 : Ref sig .tc := ⟨.hbm, 136, rfl⟩
abbrev main_v92 : Ref sig .tc := ⟨.hbm, 137, rfl⟩
abbrev main_cst_20 : Ref sig .tc := ⟨.hbm, 138, rfl⟩
abbrev main_v93 : Ref sig .tc := ⟨.hbm, 139, rfl⟩
abbrev main_v94 : Ref sig .tc := ⟨.hbm, 140, rfl⟩
abbrev main_v95 : Ref sig .tc := ⟨.hbm, 141, rfl⟩
abbrev main_cst_21 : Ref sig .tc := ⟨.hbm, 142, rfl⟩
abbrev main_v96 : Ref sig .tc := ⟨.hbm, 143, rfl⟩
abbrev main_v97 : Ref sig .tc := ⟨.hbm, 144, rfl⟩
abbrev main_v98 : Ref sig .tc := ⟨.hbm, 145, rfl⟩
abbrev main_v99 : Ref sig .tc := ⟨.hbm, 146, rfl⟩
abbrev main_v100 : Ref sig .tc := ⟨.hbm, 147, rfl⟩
abbrev main_v101 : Ref sig .tc := ⟨.hbm, 148, rfl⟩
abbrev main_v102 : Ref sig .tc := ⟨.hbm, 149, rfl⟩
abbrev main_v103 : Ref sig .tc := ⟨.hbm, 150, rfl⟩
abbrev main_v104 : Ref sig .tc := ⟨.hbm, 151, rfl⟩
abbrev main_v105 : Ref sig .tc := ⟨.hbm, 152, rfl⟩
abbrev main_v106 : Ref sig .tc := ⟨.hbm, 153, rfl⟩
abbrev main_call3_cst : Ref sig .tc := ⟨.hbm, 154, rfl⟩
abbrev main_call3_v0 : Ref sig .tc := ⟨.hbm, 155, rfl⟩
abbrev main_v107 : Ref sig .tc := ⟨.hbm, 156, rfl⟩
abbrev main_c_22 : Ref sig .tc := ⟨.hbm, 157, rfl⟩
abbrev main_v108 : Ref sig .tc := ⟨.hbm, 158, rfl⟩
abbrev main_v109 : Ref sig .tc := ⟨.hbm, 159, rfl⟩
abbrev main_c_23 : Ref sig .tc := ⟨.hbm, 160, rfl⟩
abbrev main_v110 : Ref sig .tc := ⟨.hbm, 161, rfl⟩
abbrev main_v111 : Ref sig .tc := ⟨.hbm, 162, rfl⟩
abbrev main_v112 : Ref sig .tc := ⟨.hbm, 163, rfl⟩
abbrev main_v113 : Ref sig .tc := ⟨.hbm, 164, rfl⟩
abbrev main_v114 : Ref sig .tc := ⟨.hbm, 165, rfl⟩
abbrev main_cst_24 : Ref sig .tc := ⟨.hbm, 166, rfl⟩
abbrev main_v115 : Ref sig .tc := ⟨.hbm, 167, rfl⟩
abbrev main_v116 : Ref sig .tc := ⟨.hbm, 168, rfl⟩
abbrev main_v117 : Ref sig .tc := ⟨.hbm, 169, rfl⟩
abbrev main_cst_25 : Ref sig .tc := ⟨.hbm, 170, rfl⟩
abbrev main_v118 : Ref sig .tc := ⟨.hbm, 171, rfl⟩
abbrev main_cst_26 : Ref sig .tc := ⟨.hbm, 172, rfl⟩
abbrev main_v119 : Ref sig .tc := ⟨.hbm, 173, rfl⟩
abbrev main_v120 : Ref sig .tc := ⟨.hbm, 174, rfl⟩
abbrev main_v121 : Ref sig .tc := ⟨.hbm, 175, rfl⟩
abbrev main_cst_27 : Ref sig .tc := ⟨.hbm, 176, rfl⟩
abbrev main_v122 : Ref sig .tc := ⟨.hbm, 177, rfl⟩
abbrev main_v123 : Ref sig .tc := ⟨.hbm, 178, rfl⟩
abbrev main_v124 : Ref sig .tc := ⟨.hbm, 179, rfl⟩
abbrev main_v125 : Ref sig .tc := ⟨.hbm, 180, rfl⟩
abbrev main_v126 : Ref sig .tc := ⟨.hbm, 181, rfl⟩
abbrev main_v127 : Ref sig .tc := ⟨.hbm, 182, rfl⟩
abbrev main_v128 : Ref sig .tc := ⟨.hbm, 183, rfl⟩
abbrev main_v129 : Ref sig .tc := ⟨.hbm, 184, rfl⟩
abbrev main_v130 : Ref sig .tc := ⟨.hbm, 185, rfl⟩
abbrev main_v131 : Ref sig .tc := ⟨.hbm, 186, rfl⟩
abbrev main_v132 : Ref sig .tc := ⟨.hbm, 187, rfl⟩
abbrev main_v133 : Ref sig .tc := ⟨.hbm, 188, rfl⟩
abbrev main_v134 : Ref sig .tc := ⟨.hbm, 189, rfl⟩
abbrev main_cst_28 : Ref sig .tc := ⟨.hbm, 190, rfl⟩
abbrev main_v135 : Ref sig .tc := ⟨.hbm, 191, rfl⟩
abbrev main_v136 : Ref sig .tc := ⟨.hbm, 192, rfl⟩
abbrev main_cst_29 : Ref sig .tc := ⟨.hbm, 193, rfl⟩
abbrev main_v137 : Ref sig .tc := ⟨.hbm, 194, rfl⟩
abbrev main_v138 : Ref sig .tc := ⟨.hbm, 195, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x13 : S_.BroadcastsInDim S50000x13 (![] : Fin 0 → Fin S50000x13.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x13_0_1 : S50000x1.BroadcastsInDim S50000x13 (![0, 1] : Fin 2 → Fin S50000x13.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S50000x64 : S_.BroadcastsInDim S50000x64 (![] : Fin 0 → Fin S50000x64.rank)
  bcast_S50000x1_S50000x64_0_1 : S50000x1.BroadcastsInDim S50000x64 (![0, 1] : Fin 2 → Fin S50000x64.rank)
  bcast_S1_S1x1_1 : S1.BroadcastsInDim S1x1 (![1] : Fin 1 → Fin S1x1.rank)
  bcast_S1x1_S50000x1_0_1 : S1x1.BroadcastsInDim S50000x1 (![0, 1] : Fin 2 → Fin S50000x1.rank)
  bcast_S_S50000x1 : S_.BroadcastsInDim S50000x1 (![] : Fin 0 → Fin S50000x1.rank)
  gather_S50000x13_S800000x1_S800000x13_1_0_n_n_0_1_113_wf : GatherDims.WF S50000x13 S800000x1 S800000x13 [1] [0] [] [0] [] 1 ![1, 13]
  scatter_S50000x13_S800000x1_S800000x13_1_0_0_1_wf : ScatterDims.WF S50000x13 S800000x1 S800000x13 [1] [0] [0] 1
  scatter_S50000_S800000x1_S800000_n_0_0_1_wf : ScatterDims.WF S50000 S800000x1 S800000 [] [0] [0] 1
  dot_S50000x13_S13x64_S50000x64_1_0_0_1_n_n_wf : DotDims.WF S50000x13 S13x64 S50000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S50000x64_S64x64_S50000x64_1_0_0_1_n_n_wf : DotDims.WF S50000x64 S64x64 S50000x64 [1] [0] [0] [1] [] []
  dot_S50000x64_S64x1_S50000x1_1_0_0_1_n_n_wf : DotDims.WF S50000x64 S64x1 S50000x1 [1] [0] [0] [1] [] []

variable [Facts₀]

def gather_S50000x13_S800000x1_S800000x13_1_0_n_n_0_1_113 : GatherDims S50000x13 S800000x1 S800000x13 where
  offsetDims := [1]
  collapsedSliceDims := [0]
  operandBatchingDims := []
  startIndicesBatchingDims := []
  startIndexMap := [0]
  indexVectorDim := 1
  sliceSizes := ![1, 13]
  wf := gather_S50000x13_S800000x1_S800000x13_1_0_n_n_0_1_113_wf
def scatter_S50000x13_S800000x1_S800000x13_1_0_0_1 : ScatterDims S50000x13 S800000x1 S800000x13 where
  updateWindowDims := [1]
  insertedWindowDims := [0]
  scatterDimsToOperandDims := [0]
  indexVectorDim := 1
  wf := scatter_S50000x13_S800000x1_S800000x13_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x13_S13x64_S50000x64_1_0_0_1_n_n : DotDims S50000x13 S13x64 S50000x64 where
  lhsContracting := [1]
  rhsContracting := [0]
  lhsNonContracting := [0]
  rhsNonContracting := [1]
  lhsBatch := []
  rhsBatch := []
  wf := dot_S50000x13_S13x64_S50000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def dot_S50000x64_S64x1_S50000x1_1_0_0_1_n_n : DotDims S50000x64 S64x1 S50000x1 where
  lhsContracting := [1]
  rhsContracting := [0]
  lhsNonContracting := [0]
  rhsNonContracting := [1]
  lhsBatch := []
  rhsBatch := []
  wf := dot_S50000x64_S64x1_S50000x1_1_0_0_1_n_n_wf

class Facts : Prop extends Facts₀ where

variable [Facts]
-- ==== Proof.LibRunBoth.lean ====
/-
  Two facts about every weakly fair execution of one program from one state hold together.

  `θ_run defs p s Q` says: every weakly fair execution of `p` from the memory `s` is finite, never stuck, and ends in a
  final state satisfying `Q`. Termination and freedom from deadlock do not mention `Q`, and a final state reached
  satisfies each postcondition that every final state reached satisfies. So from the same program and the same state,
  `Q` and `Q'` may be concluded together (`θ_run_both`). This lets a value statement about a program be proved with
  only the NEW conjunct in its postcondition, and joined afterwards to a frame statement already in hand.
-/
import Idealize.ShloMosaic.Machine.Run

namespace Idealize.ShloMosaic

open Idealize.SL.Sem

variable {nD : Nat} {τ : Topo} {sig : RefSig} {Val : EltTy → Type} {Λ : Labels}

/-- Every weakly fair execution from `s₀` ends satisfying `Q`, and every one ends satisfying `Q'`: every one ends
    satisfying both. -/
theorem MeshRun.both {defs : Defs nD τ sig Val Λ} {Q Q' : MemSt nD τ sig Val → Prop} {s₀ : RunSt nD τ sig Val Λ}
    (h : MeshRun defs Q s₀) (h' : MeshRun defs Q' s₀) : MeshRun defs (fun m => Q m ∧ Q' m) s₀ :=
  ⟨fun t ht hf => ⟨h.post t ht hf, h'.post t ht hf⟩, h.progress, h.fair⟩

/-- The same for the observation of a loaded program. -/
theorem θ_run_both (defs : Defs nD τ sig Val Λ) (p : (c : Thread nD τ) → Prog (TpuEff nD τ sig Val Λ c.2) PUnit)
    (s : MemSt nD τ sig Val) (Q Q' : PUnit × MemSt nD τ sig Val → Prop)
    (h : θ_run defs p s Q) (h' : θ_run defs p s Q') : θ_run defs p s (fun r => Q r ∧ Q' r) :=
  MeshRun.both (Q := fun m' => Q (⟨⟩, m')) (Q' := fun m' => Q' (⟨⟩, m')) h h'

end Idealize.ShloMosaic
-- ==== Proof.KernelRun.lean ====
/-
  The run of the whole program with its RESULT named.

  The program is five dense stages on the TensorCore with stretches of host operations between them. Its buffers'
  contents at each boundary are a fold from the launch memory: a stretch of host operations applies them in order, a
  dense stage replaces its output array by what its ten row blocks wrote back and leaves every other buffer alone. Every
  weakly fair execution terminates with every buffer that outlives a stage at the END of that fold (`Gen.W10`). Read
  at the last stage's output array this names the program's result: the fold's value there. (Read at the arguments
  it says they end as launched; that reading is the frame statement, and the two are joined where they are used.)
-/
import proofs.«143321_j22462678958404_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting, with the result array at the end of the fold of the
    buffers' contents through the program. -/
theorem run_result : θ_run defs (onTc (τ := τ) (main (F := F))) ⟨m, fun _ => 0, ρ⟩ (fun r => ∀ c : Dev nD,
      r.2.mem ((c.tc : Thread nD τ).loc main_v82) = W10 m ρ c (Proc.devRef .tc main_v82)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c => h c _ (mem_uc main_v82 (by decide)))

end Cert.KernelIdeal.RunValue

end
-- ==== Proof.HostPieces.lean ====
/-
  The host side of one layer, piece by piece, in the kernel program's own operations.

  The edge list `e` has two rows: the source node of each edge (`rows e`) and its destination (`cols e`). A layer
  gathers, for each edge, the source node's feature row (a negative source counted from the end: `wrapRows`), adds the
  gathered rows up at the destination nodes onto zeros (`nbrSum13` for 13 features, `nbrSum64` for 64), and scales row
  `p` of the sums by the reciprocal `1 / max (degree p) 1`, where `degree p` counts the edges arriving at `p`
  (`degree`, `recipCol`, `scaled13`, `scaled64`). The bias vector becomes a one-row matrix (`biasRow64`, `biasRow1`).
  The gather and the scatter-add are never opened: both programs apply the same ones.
-/
import proofs.«143321_j22462678958404_1_alg».proof.Proof.Gen.KernelIdeal

noncomputable section

namespace Cert.KernelIdeal.Pieces

open Cert.KernelIdeal Cert.KernelIdeal.Gen Idealize.ShloMosaic Idealize.ShloMosaic.TcCoe

variable {F : FTy → Type} [FloatOps F]

/-- The source node of each edge: row 0 of the edge list. -/
def rows (e : (⟨S2x800000, .i32⟩ : BufTy).Contents (Elt F)) : (⟨S800000, .i32⟩ : BufTy).Contents (Elt F) :=
  shapeCast S800000 (extractStridedSlice S1x800000 ![0, 0] e slices_S2x800000_S1x800000_0_0) shapeCasts_S1x800000_S800000

/-- The destination node of each edge: row 1 of the edge list. -/
def cols (e : (⟨S2x800000, .i32⟩ : BufTy).Contents (Elt F)) : (⟨S800000, .i32⟩ : BufTy).Contents (Elt F) :=
  shapeCast S800000 (extractStridedSlice S1x800000 ![1, 0] e slices_S2x800000_S1x800000_1_0) shapeCasts_S1x800000_S800000

/-- The source nodes as a column of row numbers, a negative one counted from the end (`r + 50000` when `r < 0`). -/
def wrapRows (v1 : (⟨S800000, .i32⟩ : BufTy).Contents (Elt F)) : (⟨S800000x1, .i32⟩ : BufTy).Contents (Elt F) :=
  broadcastInDim S800000x1 ![0] bcast_S800000_S800000x1_0
    (select (cmpi .slt v1 (broadcastInDim S800000 ![] bcast_S_S800000 (constantI S_ 32 0#32)))
      (addi v1 (broadcastInDim S800000 ![] bcast_S_S800000 (constantI S_ 32 50000#32))) v1)

/-- The destination nodes as a column. -/
def colIdx (v3 : (⟨S800000, .i32⟩ : BufTy).Contents (Elt F)) : (⟨S800000x1, .i32⟩ : BufTy).Contents (Elt F) :=
  broadcastInDim S800000x1 ![0] bcast_S800000_S800000x1_0 v3

/-- Row `p`: the sum of the rows of `X` (13 features) over the edges arriving at node `p`. -/
def nbrSum13 (v1 v3 : (⟨S800000, .i32⟩ : BufTy).Contents (Elt F)) (X : (⟨S50000x13, .f32⟩ : BufTy).Contents (Elt F)) :
    (⟨S50000x13, .f32⟩ : BufTy).Contents (Elt F) :=
  Host.scatterAdd scatter_S50000x13_S800000x1_S800000x13_1_0_0_1
    (broadcastInDim S50000x13 ![] bcast_S_S50000x13 (constant S_ .f32 0x00000000#32)) (colIdx v3)
    (Host.gather gather_S50000x13_S800000x1_S800000x13_1_0_n_n_0_1_113 X (wrapRows v1))

/-- The same for 64 features. -/
def nbrSum64 (v1 v3 : (⟨S800000, .i32⟩ : BufTy).Contents (Elt F)) (X : (⟨S50000x64, .f32⟩ : BufTy).Contents (Elt F)) :
    (⟨S50000x64, .f32⟩ : BufTy).Contents (Elt F) :=
  Host.scatterAdd scatter_S50000x64_S800000x1_S800000x64_1_0_0_1
    (broadcastInDim S50000x64 ![] bcast_S_S50000x64 (constant S_ .f32 0x00000000#32)) (colIdx v3)
    (Host.gather gather_S50000x64_S800000x1_S800000x64_1_0_n_n_0_1_164 X (wrapRows v1))

/-- The number of edges arriving at each node: ones added up at the destinations. -/
def degree (v3 : (⟨S800000, .i32⟩ : BufTy).Contents (Elt F)) : (⟨S50000, .f32⟩ : BufTy).Contents (Elt F) :=
  Host.scatterAdd scatter_S50000_S800000x1_S800000_n_0_0_1
    (broadcastInDim S50000 ![] bcast_S_S50000 (constant S_ .f32 0x00000000#32)) (colIdx v3)
    (broadcastInDim S800000 ![] bcast_S_S800000 (constant S_ .f32 0x3F800000#32))

/-- The column of reciprocals `1 / max (degree p) 1`. -/
def recipCol (v3 : (⟨S800000, .i32⟩ : BufTy).Contents (Elt F)) : (⟨S50000x1, .f32⟩ : BufTy).Contents (Elt F) :=
  broadcastInDim S50000x1 ![0] bcast_S50000_S50000x1_0
    (Host.divf (broadcastInDim S50000 ![] bcast_S_S50000 (constant S_ .f32 0x3F800000#32))
      (maximumf (degree v3) (broadcastInDim S50000 ![] bcast_S_S50000 (constant S_ .f32 0x3F800000#32))))

/-- Row `p` of `S` times entry `p` of the column `r` (13 features). -/
def scaled13 (S : (⟨S50000x13, .f32⟩ : BufTy).Contents (Elt F)) (r : (⟨S50000x1, .f32⟩ : BufTy).Contents (Elt F)) :
    (⟨S50000x13, .f32⟩ : BufTy).Contents (Elt F) :=
  mulf S (broadcastInDim S50000x13 ![0, 1] bcast_S50000x1_S50000x13_0_1 r)

/-- The same for 64 features. -/
def scaled64 (S : (⟨S50000x64, .f32⟩ : BufTy).Contents (Elt F)) (r : (⟨S50000x1, .f32⟩ : BufTy).Contents (Elt F)) :
    (⟨S50000x64, .f32⟩ : BufTy).Contents (Elt F) :=
  mulf S (broadcastInDim S50000x64 ![0, 1] bcast_S50000x1_S50000x64_0_1 r)

/-- A bias vector of 64 entries as a one-row matrix. -/
def biasRow64 (b : (⟨S64, .f32⟩ : BufTy).Contents (Elt F)) : (⟨S1x64, .f32⟩ : BufTy).Contents (Elt F) :=
  shapeCast S1x64 b shapeCasts_S64_S1x64

/-- A bias of one entry as a one-by-one matrix. -/
def biasRow1 (b : (⟨S1, .f32⟩ : BufTy).Contents (Elt F)) : (⟨S1x1, .f32⟩ : BufTy).Contents (Elt F) :=
  shapeCast S1x1 b shapeCasts_S1_S1x1

end Cert.KernelIdeal.Pieces

end
-- ==== Proof.FoldHost.lean ====
/-
  The buffers' contents through the program, host side.

  Between two dense stages a stretch of host operations prepares the next stage's operands from buffers written
  earlier: the scaled neighbour sums of the previous stage's output, and the bias as a one-row matrix. Three buffers
  computed by the FIRST stretch are read by every later one and never written again: the edges' source nodes, their
  destination nodes, and the column of reciprocals `1 / max degree 1`; the weights and biases of a layer are arguments,
  written by nobody. This file reads each stretch's two results as the named pieces of their operands, and shows that
  the buffers a later layer still needs pass every stretch and every dense stage untouched, so that at each boundary
  they hold what the first stretch, or the launch, left there.
-/
import proofs.«143321_j22462678958404_1_alg».proof.Proof.Gen.KernelIdeal.Frame
import proofs.«143321_j22462678958404_1_alg».proof.Proof.HostPieces
import Idealize.ShloMosaic.Lib.StableHlo.Run

set_option maxRecDepth 16384

noncomputable section

namespace Cert.KernelIdeal.Fold

open Cert.KernelIdeal Cert.KernelIdeal.Gen Cert.KernelIdeal.Pieces
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

/-- A stretch of host operations leaves alone a buffer none of its operations writes. -/
local macro "untouched_by" ops:ident : tactic =>
  `(tactic| exact StableHlo.after_of_forall_not_mem _ _ (List.forall_iff_forall_mem.mp (by
      simp only [$ops:ident, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide))))

/-! ## The first stretch: from the launch memory -/

/-- The edges' source nodes. -/
theorem first_rows (c : Dev nD) :
    W1 m ρ c (Proc.devRef .tc main_v1) = rows (m ((c : Thread nD τ).loc main_arg1)) := by
  show StableHlo.after hostOps0 (W0 m ρ c) (Proc.devRef .tc main_v1) = _
  after_results_simp
  rfl

/-- The edges' destination nodes. -/
theorem first_cols (c : Dev nD) :
    W1 m ρ c (Proc.devRef .tc main_v3) = cols (m ((c : Thread nD τ).loc main_arg1)) := by
  show StableHlo.after hostOps0 (W0 m ρ c) (Proc.devRef .tc main_v3) = _
  after_results_simp
  rfl

/-- The column of reciprocals. -/
theorem first_recip (c : Dev nD) :
    W1 m ρ c (Proc.devRef .tc main_v12) = recipCol (cols (m ((c : Thread nD τ).loc main_arg1))) := by
  show StableHlo.after hostOps0 (W0 m ρ c) (Proc.devRef .tc main_v12) = _
  after_results_simp
  rfl

/-- The first stage's scaled neighbour sums, of the node features themselves. -/
theorem first_scaled (c : Dev nD) :
    W1 m ρ c (Proc.devRef .tc main_v24)
      = scaled13 (nbrSum13 (rows (m ((c : Thread nD τ).loc main_arg1))) (cols (m ((c : Thread nD τ).loc main_arg1)))
          (m ((c : Thread nD τ).loc main_arg0))) (recipCol (cols (m ((c : Thread nD τ).loc main_arg1)))) := by
  show StableHlo.after hostOps0 (W0 m ρ c) (Proc.devRef .tc main_v24) = _
  after_results_simp
  rfl

/-- The first stage's bias row. -/
theorem first_bias (c : Dev nD) :
    W1 m ρ c (Proc.devRef .tc main_v25) = biasRow64 (m ((c : Thread nD τ).loc main_arg3)) := by
  show StableHlo.after hostOps0 (W0 m ρ c) (Proc.devRef .tc main_v25) = _
  after_results_simp
  rfl

/-- The first stretch writes no argument. -/
theorem first_args (c : Dev nD) (b : Ref sig .tc)
    (hb : b ∈ ([main_arg0, main_arg1, main_arg2, main_arg3, main_arg4, main_arg5, main_arg6, main_arg7, main_arg8,
      main_arg9, main_arg10, main_arg11, main_arg12, main_arg13, main_arg14, main_arg15, main_arg16] : List (Ref sig .tc))) :
    W1 m ρ c (Proc.devRef .tc b) = W0 m ρ c (Proc.devRef .tc b) := by
  fin_cases hb <;> untouched_by hostOps0

/-! ## The buffers later layers still need

At each boundary, the buffers that a LATER stretch or stage reads and nobody writes again: the three index buffers of
the first stretch, and the weights and biases of the layers not yet run. -/

/-- Needed after the first stage: the index buffers and layers 1 to 4's parameters. -/
abbrev need1 : List (Ref sig .tc) := [main_v1, main_v3, main_v12, main_arg5, main_arg6, main_arg7, main_arg8, main_arg9,
  main_arg10, main_arg11, main_arg12, main_arg13, main_arg14, main_arg15, main_arg16]
/-- Needed after the second stage. -/
abbrev need2 : List (Ref sig .tc) := [main_v1, main_v3, main_v12, main_arg8, main_arg9, main_arg10, main_arg11, main_arg12,
  main_arg13, main_arg14, main_arg15, main_arg16]
/-- Needed after the third stage. -/
abbrev need3 : List (Ref sig .tc) := [main_v1, main_v3, main_v12, main_arg11, main_arg12, main_arg13, main_arg14, main_arg15,
  main_arg16]
/-- Needed after the fourth stage. -/
abbrev need4 : List (Ref sig .tc) := [main_v1, main_v3, main_v12, main_arg14, main_arg15, main_arg16]

theorem need2_sub : ∀ b ∈ need2, b ∈ need1 := by decide
theorem need3_sub : ∀ b ∈ need3, b ∈ need2 := by decide
theorem need4_sub : ∀ b ∈ need4, b ∈ need3 := by decide

/-- A dense stage changes only its own output array; a stretch only the buffers its operations write. -/
theorem stage0_keeps (c : Dev nD) (b : Ref sig .tc) (hb : b ∈ need1) :
    W2 m ρ c (Proc.devRef .tc b) = W1 m ρ c (Proc.devRef .tc b) := by
  fin_cases hb <;> exact W2_of_ne m ρ c _ (by decide)
theorem stretch1_keeps (c : Dev nD) (b : Ref sig .tc) (hb : b ∈ need1) :
    W3 m ρ c (Proc.devRef .tc b) = W2 m ρ c (Proc.devRef .tc b) := by
  fin_cases hb <;> untouched_by hostOps1
theorem stage1_keeps (c : Dev nD) (b : Ref sig .tc) (hb : b ∈ need2) :
    W4 m ρ c (Proc.devRef .tc b) = W3 m ρ c (Proc.devRef .tc b) := by
  fin_cases hb <;> exact W4_of_ne m ρ c _ (by decide)
theorem stretch2_keeps (c : Dev nD) (b : Ref sig .tc) (hb : b ∈ need2) :
    W5 m ρ c (Proc.devRef .tc b) = W4 m ρ c (Proc.devRef .tc b) := by
  fin_cases hb <;> untouched_by hostOps2
theorem stage2_keeps (c : Dev nD) (b : Ref sig .tc) (hb : b ∈ need3) :
    W6 m ρ c (Proc.devRef .tc b) = W5 m ρ c (Proc.devRef .tc b) := by
  fin_cases hb <;> exact W6_of_ne m ρ c _ (by decide)
theorem stretch3_keeps (c : Dev nD) (b : Ref sig .tc) (hb : b ∈ need3) :
    W7 m ρ c (Proc.devRef .tc b) = W6 m ρ c (Proc.devRef .tc b) := by
  fin_cases hb <;> untouched_by hostOps3
theorem stage3_keeps (c : Dev nD) (b : Ref sig .tc) (hb : b ∈ need4) :
    W8 m ρ c (Proc.devRef .tc b) = W7 m ρ c (Proc.devRef .tc b) := by
  fin_cases hb <;> exact W8_of_ne m ρ c _ (by decide)
theorem stretch4_keeps (c : Dev nD) (b : Ref sig .tc) (hb : b ∈ need4) :
    W9 m ρ c (Proc.devRef .tc b) = W8 m ρ c (Proc.devRef .tc b) := by
  fin_cases hb <;> untouched_by hostOps4

/-- So at every later boundary a needed buffer holds what the first stretch left. -/
theorem at2 (c : Dev nD) (b : Ref sig .tc) (hb : b ∈ need1) : W2 m ρ c (Proc.devRef .tc b) = W1 m ρ c (Proc.devRef .tc b) :=
  stage0_keeps m ρ c b hb
theorem at3 (c : Dev nD) (b : Ref sig .tc) (hb : b ∈ need1) : W3 m ρ c (Proc.devRef .tc b) = W1 m ρ c (Proc.devRef .tc b) :=
  (stretch1_keeps m ρ c b hb).trans (at2 m ρ c b hb)
theorem at4 (c : Dev nD) (b : Ref sig .tc) (hb : b ∈ need2) : W4 m ρ c (Proc.devRef .tc b) = W1 m ρ c (Proc.devRef .tc b) :=
  (stage1_keeps m ρ c b hb).trans (at3 m ρ c b (need2_sub b hb))
theorem at5 (c : Dev nD) (b : Ref sig .tc) (hb : b ∈ need2) : W5 m ρ c (Proc.devRef .tc b) = W1 m ρ c (Proc.devRef .tc b) :=
  (stretch2_keeps m ρ c b hb).trans (at4 m ρ c b hb)
theorem at6 (c : Dev nD) (b : Ref sig .tc) (hb : b ∈ need3) : W6 m ρ c (Proc.devRef .tc b) = W1 m ρ c (Proc.devRef .tc b) :=
  (stage2_keeps m ρ c b hb).trans (at5 m ρ c b (need3_sub b hb))
theorem at7 (c : Dev nD) (b : Ref sig .tc) (hb : b ∈ need3) : W7 m ρ c (Proc.devRef .tc b) = W1 m ρ c (Proc.devRef .tc b) :=
  (stretch3_keeps m ρ c b hb).trans (at6 m ρ c b hb)
theorem at8 (c : Dev nD) (b : Ref sig .tc) (hb : b ∈ need4) : W8 m ρ c (Proc.devRef .tc b) = W1 m ρ c (Proc.devRef .tc b) :=
  (stage3_keeps m ρ c b hb).trans (at7 m ρ c b (need4_sub b hb))
theorem at9 (c : Dev nD) (b : Ref sig .tc) (hb : b ∈ need4) : W9 m ρ c (Proc.devRef .tc b) = W1 m ρ c (Proc.devRef .tc b) :=
  (stretch4_keeps m ρ c b hb).trans (at8 m ρ c b hb)

/-! ## The later stretches: the next stage's operands from the previous stage's output -/

theorem stretch1_scaled (c : Dev nD) :
    W3 m ρ c (Proc.devRef .tc main_v38)
      = scaled64 (nbrSum64 (W2 m ρ c (Proc.devRef .tc main_v1)) (W2 m ρ c (Proc.devRef .tc main_v3))
          (W2 m ρ c (Proc.devRef .tc main_v26))) (W2 m ρ c (Proc.devRef .tc main_v12)) := by
  show StableHlo.after hostOps1 (W2 m ρ c) (Proc.devRef .tc main_v38) = _
  after_results_simp
  rfl
theorem stretch1_bias (c : Dev nD) :
    W3 m ρ c (Proc.devRef .tc main_v39) = biasRow64 (W2 m ρ c (Proc.devRef .tc main_arg6)) := by
  show StableHlo.after hostOps1 (W2 m ρ c) (Proc.devRef .tc main_v39) = _
  after_results_simp
  rfl
theorem stretch1_prev (c : Dev nD) :
    W3 m ρ c (Proc.devRef .tc main_v26) = W2 m ρ c (Proc.devRef .tc main_v26) := by
  untouched_by hostOps1

theorem stretch2_scaled (c : Dev nD) :
    W5 m ρ c (Proc.devRef .tc main_v52)
      = scaled64 (nbrSum64 (W4 m ρ c (Proc.devRef .tc main_v1)) (W4 m ρ c (Proc.devRef .tc main_v3))
          (W4 m ρ c (Proc.devRef .tc main_v40))) (W4 m ρ c (Proc.devRef .tc main_v12)) := by
  show StableHlo.after hostOps2 (W4 m ρ c) (Proc.devRef .tc main_v52) = _
  after_results_simp
  rfl
theorem stretch2_bias (c : Dev nD) :
    W5 m ρ c (Proc.devRef .tc main_v53) = biasRow64 (W4 m ρ c (Proc.devRef .tc main_arg9)) := by
  show StableHlo.after hostOps2 (W4 m ρ c) (Proc.devRef .tc main_v53) = _
  after_results_simp
  rfl
theorem stretch2_prev (c : Dev nD) :
    W5 m ρ c (Proc.devRef .tc main_v40) = W4 m ρ c (Proc.devRef .tc main_v40) := by
  untouched_by hostOps2

theorem stretch3_scaled (c : Dev nD) :
    W7 m ρ c (Proc.devRef .tc main_v66)
      = scaled64 (nbrSum64 (W6 m ρ c (Proc.devRef .tc main_v1)) (W6 m ρ c (Proc.devRef .tc main_v3))
          (W6 m ρ c (Proc.devRef .tc main_v54))) (W6 m ρ c (Proc.devRef .tc main_v12)) := by
  show StableHlo.after hostOps3 (W6 m ρ c) (Proc.devRef .tc main_v66) = _
  after_results_simp
  rfl
theorem stretch3_bias (c : Dev nD) :
    W7 m ρ c (Proc.devRef .tc main_v67) = biasRow64 (W6 m ρ c (Proc.devRef .tc main_arg12)) := by
  show StableHlo.after hostOps3 (W6 m ρ c) (Proc.devRef .tc main_v67) = _
  after_results_simp
  rfl
theorem stretch3_prev (c : Dev nD) :
    W7 m ρ c (Proc.devRef .tc main_v54) = W6 m ρ c (Proc.devRef .tc main_v54) := by
  untouched_by hostOps3

theorem stretch4_scaled (c : Dev nD) :
    W9 m ρ c (Proc.devRef .tc main_v80)
      = scaled64 (nbrSum64 (W8 m ρ c (Proc.devRef .tc main_v1)) (W8 m ρ c (Proc.devRef .tc main_v3))
          (W8 m ρ c (Proc.devRef .tc main_v68))) (W8 m ρ c (Proc.devRef .tc main_v12)) := by
  show StableHlo.after hostOps4 (W8 m ρ c) (Proc.devRef .tc main_v80) = _
  after_results_simp
  rfl
theorem stretch4_bias (c : Dev nD) :
    W9 m ρ c (Proc.devRef .tc main_v81) = biasRow1 (W8 m ρ c (Proc.devRef .tc main_arg15)) := by
  show StableHlo.after hostOps4 (W8 m ρ c) (Proc.devRef .tc main_v81) = _
  after_results_simp
  rfl
theorem stretch4_prev (c : Dev nD) :
    W9 m ρ c (Proc.devRef .tc main_v68) = W8 m ρ c (Proc.devRef .tc main_v68) := by
  untouched_by hostOps4

end Cert.KernelIdeal.Fold

end
-- ==== Proof.Layer.lean ====
/-
  One layer of the graph network, read index by index on the extended reals.

  A layer takes the node features `H` (one row per node), the neighbour sums `S` (row `p` of `S` is the sum of the
  rows of `H` over the edges arriving at node `p`), the in-degree `cnt p` of each node, two weight matrices and a bias:

      out p q = act ( Σ_k (S p k · (max (cnt p) 1)⁻¹) · Wl k q  +  Σ_k H p k · Wr k q  +  b q ).

  The mean over the arriving edges is the sum times the reciprocal of `max (cnt p) 1`. One program multiplies by a
  reciprocal it computed once (`1 / max cnt 1`), the other divides by `max cnt 1`; as `max cnt 1` is never `0`, on
  the extended reals both are the product with the inverse (`mul_recip`, `div_by`), at the infinities too, so nothing
  here asks for finite entries. The two programs also add the bias at different places of the same three-term sum
  (`sum_bias_comm`). A dense block is stated separately (`dense`): what one matrix stage computes from the already
  scaled rows `A`, with the bias kept as a one-row matrix.
-/
import Idealize.ShloMosaic.PureOps.Ideal
import Idealize.ShloMosaic.PureOps.Ideal.Laws
import Idealize.ShloMosaic.PureOps.IdealRules
import Idealize.ShloMosaic.Lib.ValueIdx

noncomputable section

namespace Cert.Sage

open Idealize.ShloMosaic Idealize.ShloMosaic.ValueIdx

/-- The single-precision word of `1.0`, as both programs write it. -/
abbrev one : EReal := Ideal.ofBits .f32 0x3F800000#32

/-- The single-precision word of `0.0`. -/
abbrev zero : EReal := Ideal.ofBits .f32 0x00000000#32

theorem one_eq : one = 1 := IdealRules.sign_bit.ideal_onePat .f32

/-- `max c 1` is never `0`. -/
theorem max_one_ne_zero (c : EReal) : max c one ≠ 0 := by
  rw [one_eq]
  exact ne_of_gt (lt_of_lt_of_le zero_lt_one (le_max_right c 1))

/-- Dividing by `max c 1` is multiplying by its inverse. -/
theorem div_by (a c : EReal) : Ideal.div a (max c one) = a * (max c one)⁻¹ := by
  rw [Ideal.div, if_neg (max_one_ne_zero c)]

/-- Multiplying by the reciprocal `1 / max c 1` is multiplying by the inverse of `max c 1`. -/
theorem mul_recip (a c : EReal) : a * Ideal.div one (max c one) = a * (max c one)⁻¹ := by
  rw [Ideal.div, if_neg (max_one_ne_zero c), one_eq, one_mul]

/-- The bias may be added before or after the second product sum. -/
theorem sum_bias_comm (u v b : EReal) : (u + b) + v = (u + v) + b := add_right_comm u b v

/-- The rectifier: the larger of the entry and `0.0`. -/
def relu (x : EReal) : EReal := max x zero

/-- The logistic function `1 / (1 + e^(-x))`. -/
def sigm (x : EReal) : EReal := Ideal.logistic x

/-- The logistic function spelt with the word of `1.0`: `1.0 / (1.0 + e^(-x))`. -/
theorem sigm_eq (x : EReal) : Ideal.div one (one + Ideal.exp (-x)) = sigm x := by
  rw [one_eq]; rfl

/-- What a dense block holds at node `p`, feature `q`, before the activation: the rows `A` (already scaled) against `Wl`,
    the rows `H` against `Wr`, then the bias, kept as the one-row matrix `B`. -/
def densePre {N ci co : Nat} (A H : (⟨2, ![N, ci]⟩ : Shape).Idx → EReal)
    (Wl Wr : (⟨2, ![ci, co]⟩ : Shape).Idx → EReal) (B : (⟨2, ![1, co]⟩ : Shape).Idx → EReal)
    (p : Fin N) (q : Fin co) : EReal :=
  (∑ k : Fin ci, A (ix2 p k) * Wl (ix2 k q) + ∑ k : Fin ci, H (ix2 p k) * Wr (ix2 k q)) + B (ix2 (0 : Fin 1) q)

/-- A dense block: the activation of `densePre`, entry by entry. -/
def dense (act : EReal → EReal) {N ci co : Nat} (A H : (⟨2, ![N, ci]⟩ : Shape).Idx → EReal)
    (Wl Wr : (⟨2, ![ci, co]⟩ : Shape).Idx → EReal) (B : (⟨2, ![1, co]⟩ : Shape).Idx → EReal) :
    (⟨2, ![N, co]⟩ : Shape).Idx → EReal :=
  fun j => act (densePre A H Wl Wr B (j 0) (j 1))

/-- One layer at node `p`, feature `q`, before the activation: the neighbour sums `S` scaled to means by the inverse of
    `max (cnt p) 1`, against `Wl`; the node's own row against `Wr`; the bias `b`. -/
def layerPre {N ci co : Nat} (S H : (⟨2, ![N, ci]⟩ : Shape).Idx → EReal) (cnt : (⟨1, ![N]⟩ : Shape).Idx → EReal)
    (Wl Wr : (⟨2, ![ci, co]⟩ : Shape).Idx → EReal) (b : (⟨1, ![co]⟩ : Shape).Idx → EReal)
    (p : Fin N) (q : Fin co) : EReal :=
  (∑ k : Fin ci, (S (ix2 p k) * (max (cnt (ix1 p)) one)⁻¹) * Wl (ix2 k q) + ∑ k : Fin ci, H (ix2 p k) * Wr (ix2 k q))
    + b (ix1 q)

/-- One layer: the activation of `layerPre`, entry by entry. -/
def layer (act : EReal → EReal) {N ci co : Nat} (S H : (⟨2, ![N, ci]⟩ : Shape).Idx → EReal)
    (cnt : (⟨1, ![N]⟩ : Shape).Idx → EReal) (Wl Wr : (⟨2, ![ci, co]⟩ : Shape).Idx → EReal)
    (b : (⟨1, ![co]⟩ : Shape).Idx → EReal) : (⟨2, ![N, co]⟩ : Shape).Idx → EReal :=
  fun j => act (layerPre S H cnt Wl Wr b (j 0) (j 1))

/-- A dense block whose scaled rows are `S p k · (1 / max (cnt p) 1)` and whose one-row bias is `b` is the layer. -/
theorem dense_eq_layer (act : EReal → EReal) {N ci co : Nat} (A S H : (⟨2, ![N, ci]⟩ : Shape).Idx → EReal)
    (cnt : (⟨1, ![N]⟩ : Shape).Idx → EReal) (Wl Wr : (⟨2, ![ci, co]⟩ : Shape).Idx → EReal)
    (B : (⟨2, ![1, co]⟩ : Shape).Idx → EReal) (b : (⟨1, ![co]⟩ : Shape).Idx → EReal)
    (hA : ∀ (p : Fin N) (k : Fin ci), A (ix2 p k) = S (ix2 p k) * Ideal.div one (max (cnt (ix1 p)) one))
    (hB : ∀ q : Fin co, B (ix2 (0 : Fin 1) q) = b (ix1 q)) :
    dense act A H Wl Wr B = layer act S H cnt Wl Wr b := by
  funext j
  obtain ⟨p, q, rfl⟩ : ∃ (p : Fin N) (q : Fin co), j = ix2 p q := ⟨j 0, j 1, eq_ix2 j⟩
  show act (densePre A H Wl Wr B p q) = act (layerPre S H cnt Wl Wr b p q)
  unfold densePre layerPre
  rw [hB q]
  refine congrArg act (congrArg (· + b (ix1 q)) (congrArg (· + _) ?_))
  exact Finset.sum_congr rfl fun k _ => by rw [hA p k, mul_recip]

/-- The other spelling of the same layer: the neighbour sums DIVIDED by `max (cnt p) 1`, and the bias added before the
    second product sum. Whatever array `Y` holds that at every entry is the layer. -/
theorem divided_eq_layer (act : EReal → EReal) {N ci co : Nat} (A S H : (⟨2, ![N, ci]⟩ : Shape).Idx → EReal)
    (cnt : (⟨1, ![N]⟩ : Shape).Idx → EReal) (Wl Wr : (⟨2, ![ci, co]⟩ : Shape).Idx → EReal)
    (b : (⟨1, ![co]⟩ : Shape).Idx → EReal) (Y : (⟨2, ![N, co]⟩ : Shape).Idx → EReal)
    (hA : ∀ (p : Fin N) (k : Fin ci), A (ix2 p k) = Ideal.div (S (ix2 p k)) (max (cnt (ix1 p)) one))
    (hY : ∀ (p : Fin N) (q : Fin co), Y (ix2 p q)
      = act ((∑ k : Fin ci, A (ix2 p k) * Wl (ix2 k q) + b (ix1 q)) + ∑ k : Fin ci, H (ix2 p k) * Wr (ix2 k q))) :
    Y = layer act S H cnt Wl Wr b := by
  funext j
  obtain ⟨p, q, rfl⟩ : ∃ (p : Fin N) (q : Fin co), j = ix2 p q := ⟨j 0, j 1, eq_ix2 j⟩
  rw [hY p q]
  show _ = act (layerPre S H cnt Wl Wr b p q)
  unfold layerPre
  rw [sum_bias_comm]
  refine congrArg act (congrArg (· + b (ix1 q)) (congrArg (· + _) ?_))
  exact Finset.sum_congr rfl fun k _ => by rw [hA p k, div_by]

end Cert.Sage

end
-- ==== Proof.PiecesRead.lean ====
/-
  The kernel program's host pieces, read at an index.

  Row `p` of the scaled sums is row `p` of the sums times the reciprocal `1 / max (degree p) 1`: the column of
  reciprocals is spread along each row, and the product is taken entry by entry. The bias, reshaped to a one-row
  matrix, keeps its entries. The `1.0` the program writes stays the word it is.
-/
import proofs.«143321_j22462678958404_1_alg».proof.Proof.HostPieces
import proofs.«143321_j22462678958404_1_alg».proof.Proof.Layer
import Idealize.ShloMosaic.Lib.ValueIdx
import Idealize.ShloMosaic.Lib.Pipeline.Value
import Idealize.ShloMosaic.Lib.ValueLayout
import Idealize.ShloMosaic.Lib.IdealHost

noncomputable section

namespace Cert.KernelIdeal.Pieces

open Cert.KernelIdeal Cert.KernelIdeal.Gen Idealize.ShloMosaic Idealize.ShloMosaic.ValueIdx

/-- Entry `p` of the column of reciprocals: `1 / max (degree p) 1`. -/
theorem recipCol_apply (v3 : (⟨S800000, .i32⟩ : BufTy).Contents (Elt Ideal)) (p : Fin 50000) (u : Fin 1) :
    recipCol (F := Ideal) v3 (ix2 p u)
      = Ideal.div Cert.Sage.one (max (degree (F := Ideal) v3 (ix1 p)) Cert.Sage.one) := by
  unfold recipCol
  rw [broadcastInDim_apply _ bcast_S50000_S50000x1_0 _ (ix2 p u) (ix1 p) (fun a => match a with
      | ⟨0, _⟩ => by show p.val = if (50000 : Nat) = 1 then 0 else p.val; rw [if_neg (by decide)]),
    hostDivf_apply, maximumf_apply, broadcastInDim_scalar_apply, constant_apply]

/-- The scaled sums at node `p`, feature `k` (13 features). -/
theorem scaled13_apply (S : (⟨S50000x13, .f32⟩ : BufTy).Contents (Elt Ideal)) (v3 : (⟨S800000, .i32⟩ : BufTy).Contents (Elt Ideal))
    (p : Fin 50000) (k : Fin 13) :
    scaled13 (F := Ideal) S (recipCol v3) (ix2 p k)
      = S (ix2 p k) * Ideal.div Cert.Sage.one (max (degree (F := Ideal) v3 (ix1 p)) Cert.Sage.one) := by
  unfold scaled13
  refine (congrArg (S (ix2 p k) * ·) ((broadcastInDim_apply _ bcast_S50000x1_S50000x13_0_1 (recipCol (F := Ideal) v3)
    (ix2 p k) (ix2 p (0 : Fin 1)) (fun a => match a with
      | ⟨0, _⟩ => by show p.val = if (50000 : Nat) = 1 then 0 else p.val; rw [if_neg (by decide)]
      | ⟨1, _⟩ => by show 0 = if (1 : Nat) = 1 then 0 else k.val; rw [if_pos rfl])).trans (recipCol_apply v3 p 0)))

/-- The scaled sums at node `p`, feature `k` (64 features). -/
theorem scaled64_apply (S : (⟨S50000x64, .f32⟩ : BufTy).Contents (Elt Ideal)) (v3 : (⟨S800000, .i32⟩ : BufTy).Contents (Elt Ideal))
    (p : Fin 50000) (k : Fin 64) :
    scaled64 (F := Ideal) S (recipCol v3) (ix2 p k)
      = S (ix2 p k) * Ideal.div Cert.Sage.one (max (degree (F := Ideal) v3 (ix1 p)) Cert.Sage.one) := by
  unfold scaled64
  refine (congrArg (S (ix2 p k) * ·) ((broadcastInDim_apply _ bcast_S50000x1_S50000x64_0_1 (recipCol (F := Ideal) v3)
    (ix2 p k) (ix2 p (0 : Fin 1)) (fun a => match a with
      | ⟨0, _⟩ => by show p.val = if (50000 : Nat) = 1 then 0 else p.val; rw [if_neg (by decide)]
      | ⟨1, _⟩ => by show 0 = if (1 : Nat) = 1 then 0 else k.val; rw [if_pos rfl])).trans (recipCol_apply v3 p 0)))

/-- The one-row bias matrix holds the bias's entries (64 of them). -/
theorem biasRow64_apply (b : (⟨S64, .f32⟩ : BufTy).Contents (Elt Ideal)) (q : Fin 64) :
    biasRow64 (F := Ideal) b (ix2 (0 : Fin 1) q) = b (ix1 q) := by
  unfold biasRow64
  exact shapeCast_a_1a_apply b _ 0 q

/-- The one-by-one bias matrix holds the bias's one entry. -/
theorem biasRow1_apply (b : (⟨S1, .f32⟩ : BufTy).Contents (Elt Ideal)) (q : Fin 1) :
    biasRow1 (F := Ideal) b (ix2 (0 : Fin 1) q) = b (ix1 q) := by
  unfold biasRow1
  exact shapeCast_a_1a_apply b _ 0 q

end Cert.KernelIdeal.Pieces

end
-- ==== Proof.Dense0.lean ====
/-
  The first dense stage of the network, as ONE function of the arrays it finds.

  The stage runs over ten row blocks. At block `t` it reads rows `5000·t … 5000·t + 4999` of its two 50000 × 13 row
  arrays (`A`, the rows already scaled to means, and `H`, the nodes' own rows), all of the two 13 × 64 weight matrices
  `Wl`, `Wr` and of the 1 × 64 bias `B`, and writes the same rows of its 50000 × 64 output. Entry `(p, q)` of the block is

      max ( … , 0 )   of   Σ_k A(5000·t + p, k) · Wl(k, q)  +  Σ_k H(5000·t + p, k) · Wr(k, q)  +  B(0, q).

  On the extended reals the narrowing of the operands to the short float format before each product is the identity, and
  each product accumulates into zeros, so it is the plain sum over the 13 contraction positions; the bias row is
  repeated down the rows; the larger of that and `0.0` is the entry. Row `r` of the array lies in block `r / 5000`, and the ten blocks
  fill the array, so after the last write-back the output array is `Cert.Sage.dense` of the five arrays, entry by entry,
  whatever the arrays hold (nothing here asks for finite entries).
-/
import proofs.«143321_j22462678958404_1_alg».proof.Proof.Gen.KernelIdeal.Frame
import proofs.«143321_j22462678958404_1_alg».proof.Proof.Layer
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.DenseValue

open Cert.KernelIdeal Cert.KernelIdeal.Gen
open Idealize.ShloMosaic Idealize.ShloMosaic.TcCoe Idealize.ShloMosaic.ValueIdx Idealize.SL.Sem
open Idealize.ShloMosaic.Pipeline (Dat)

/-- The body reads and writes each of its buffers whole: from offset `(0, 0)`. -/
theorem noOffset0 : (![0, 0] : Fin 2 → Nat) = fun _ => 0 := funext fun a => by fin_cases a <;> rfl

/-! ## One product at an entry

The product of a 5000 × 13 block with a 13 × 64 matrix contracts the block's columns against the matrix's rows: at output
entry `(p, q)` and contraction position `k` the left factor is the block's entry `(p, k)`, the right factor the matrix's
entry `(k, q)`. -/

/-- The left factor sits in the output entry's row, -/
theorem dot0_lhs_row (i : S5000x64.Idx) (k : dot_S5000x13_S13x64_S5000x64_1_0_0_1_n_n.contr.Idx) :
    (dot_S5000x13_S13x64_S5000x64_1_0_0_1_n_n.lhsIdx i k 0).val = (i 0).val := by
  unfold DotDims.lhsIdx
  rw [dif_neg (show ¬(0 : Fin S5000x13.rank) ∈ dot_S5000x13_S13x64_S5000x64_1_0_0_1_n_n.lhsBatch by decide), dif_pos (show (0 : Fin S5000x13.rank) ∈ dot_S5000x13_S13x64_S5000x64_1_0_0_1_n_n.lhsNonContracting by decide)]
  rfl
/-- at the column the contraction position names; -/
theorem dot0_lhs_col (i : S5000x64.Idx) (k : dot_S5000x13_S13x64_S5000x64_1_0_0_1_n_n.contr.Idx) :
    (dot_S5000x13_S13x64_S5000x64_1_0_0_1_n_n.lhsIdx i k 1).val = (k ⟨0, by decide⟩).val :=
  dot_S5000x13_S13x64_S5000x64_1_0_0_1_n_n.lhsIdx_val_of_single rfl i k
/-- the right factor sits in the row the contraction position names, -/
theorem dot0_rhs_row (i : S5000x64.Idx) (k : dot_S5000x13_S13x64_S5000x64_1_0_0_1_n_n.contr.Idx) :
    (dot_S5000x13_S13x64_S5000x64_1_0_0_1_n_n.rhsIdx i k 0).val = (k ⟨0, by decide⟩).val :=
  dot_S5000x13_S13x64_S5000x64_1_0_0_1_n_n.rhsIdx_val_of_single rfl i k
/-- at the output entry's column. -/
theorem dot0_rhs_col (i : S5000x64.Idx) (k : dot_S5000x13_S13x64_S5000x64_1_0_0_1_n_n.contr.Idx) :
    (dot_S5000x13_S13x64_S5000x64_1_0_0_1_n_n.rhsIdx i k 1).val = (i 1).val := by
  unfold DotDims.rhsIdx
  rw [dif_neg (show ¬(1 : Fin S13x64.rank) ∈ dot_S5000x13_S13x64_S5000x64_1_0_0_1_n_n.rhsBatch by decide), dif_pos (show (1 : Fin S13x64.rank) ∈ dot_S5000x13_S13x64_S5000x64_1_0_0_1_n_n.rhsNonContracting by decide)]
  rfl

/-- A product accumulated into zeros, at entry `(p, q)`: the sum over the 13 contraction positions of the left operand's
    row `p` against the right operand's column `q`. -/
theorem dot0_apply (l : FVec Ideal S5000x13 .bf16) (r : FVec Ideal S13x64 .bf16) (p : Fin 5000) (q : Fin 64) :
    matmul dot_S5000x13_S13x64_S5000x64_1_0_0_1_n_n none l r (constant S5000x64 .f32 0x00000000#32) (ix2 p q)
      = ∑ k : Fin 13, l (ix2 p k) * r (ix2 k q) := by
  refine (Ideal.matmul_constant_zero_apply dot_S5000x13_S13x64_S5000x64_1_0_0_1_n_n none l r (ix2 p q)).trans ?_
  rw [← Equiv.sum_comp (contrEquiv1 dot_S5000x13_S13x64_S5000x64_1_0_0_1_n_n 13 rfl rfl).symm]
  refine Finset.sum_congr rfl fun k _ => ?_
  have hk := contrEquiv1_symm_val dot_S5000x13_S13x64_S5000x64_1_0_0_1_n_n 13 rfl rfl k
  have el : dot_S5000x13_S13x64_S5000x64_1_0_0_1_n_n.lhsIdx (ix2 p q) ((contrEquiv1 dot_S5000x13_S13x64_S5000x64_1_0_0_1_n_n 13 rfl rfl).symm k) = ix2 p k := funext fun a => Fin.ext (by
    match a with
    | ⟨0, _⟩ => exact dot0_lhs_row _ _
    | ⟨1, _⟩ => exact (dot0_lhs_col _ _).trans hk)
  have er : dot_S5000x13_S13x64_S5000x64_1_0_0_1_n_n.rhsIdx (ix2 p q) ((contrEquiv1 dot_S5000x13_S13x64_S5000x64_1_0_0_1_n_n 13 rfl rfl).symm k) = ix2 k q := funext fun a => Fin.ext (by
    match a with
    | ⟨0, _⟩ => exact (dot0_rhs_row _ _).trans hk
    | ⟨1, _⟩ => exact dot0_rhs_col _ _)
  rw [el, er]

/-! ## The body at an entry -/

/-- What the body stores at entry `(p, q)` of its output block, from the five blocks it loaded: the two product sums,
    then the bias of column `q`, then the activation. The narrowing to the short format is the identity here. -/
theorem body0_apply (x0 x1 : FVec Ideal S5000x13 .f32) (x2 x3 : FVec Ideal S13x64 .f32) (x4 : FVec Ideal S1x64 .f32)
    (p : Fin 5000) (q : Fin 64) :
    k0_pay1 (F := Ideal) x0 x1 x2 x3 x4 (ix2 p q)
      = Cert.Sage.relu ((∑ k : Fin 13, x0 (ix2 p k) * x2 (ix2 k q) + ∑ k : Fin 13, x1 (ix2 p k) * x3 (ix2 k q))
          + x4 (ix2 (0 : Fin 1) q)) := by
  unfold k0_pay1
  simp only [shapeCast_self]
  show max ((matmul dot_S5000x13_S13x64_S5000x64_1_0_0_1_n_n none (truncf .bf16 x0 bitsLt_bf16_f32) (truncf .bf16 x2 bitsLt_bf16_f32) (constant S5000x64 .f32 0x00000000#32) (ix2 p q)
      + matmul dot_S5000x13_S13x64_S5000x64_1_0_0_1_n_n none (truncf .bf16 x1 bitsLt_bf16_f32) (truncf .bf16 x3 bitsLt_bf16_f32) (constant S5000x64 .f32 0x00000000#32) (ix2 p q))
      + broadcastTo S5000x64 x4 broadcasts_S1x64_S5000x64 (ix2 p q)) (Ideal.ofBits .f32 0x00000000#32) = _
  rw [dot0_apply, dot0_apply, broadcastTo_1b_ab_apply]
  rfl

/-- If the loaded blocks hold row `P` of the row arrays where they hold their own row `p`, and the weights and the bias as
    they are, the body's entry `(p, q)` is the dense block's entry `(P, q)`. -/
theorem body0_is_dense (A H : S50000x13.Idx → EReal) (Wl Wr : S13x64.Idx → EReal) (B : S1x64.Idx → EReal)
    (x0 x1 : FVec Ideal S5000x13 .f32) (x2 x3 : FVec Ideal S13x64 .f32) (x4 : FVec Ideal S1x64 .f32)
    (p : Fin 5000) (P : Fin 50000) (q : Fin 64)
    (h0 : ∀ k : Fin 13, x0 (ix2 p k) = A (ix2 P k)) (h1 : ∀ k : Fin 13, x1 (ix2 p k) = H (ix2 P k))
    (h2 : ∀ k : Fin 13, x2 (ix2 k q) = Wl (ix2 k q)) (h3 : ∀ k : Fin 13, x3 (ix2 k q) = Wr (ix2 k q))
    (h4 : x4 (ix2 (0 : Fin 1) q) = B (ix2 (0 : Fin 1) q)) :
    k0_pay1 (F := Ideal) x0 x1 x2 x3 x4 (ix2 p q) = Cert.Sage.dense Cert.Sage.relu A H Wl Wr B (ix2 P q) := by
  rw [body0_apply]
  show _ = Cert.Sage.relu (Cert.Sage.densePre A H Wl Wr B P q)
  unfold Cert.Sage.densePre
  rw [h4]
  refine congrArg Cert.Sage.relu (congrArg (· + B (ix2 (0 : Fin 1) q)) ?_)
  refine congrArg₂ (· + ·) (Finset.sum_congr rfl fun k _ => ?_) (Finset.sum_congr rfl fun k _ => ?_)
  · rw [h0 k, h2 k]
  · rw [h1 k, h3 k]

/-! ## The blocks of the ten points -/

variable (V : (c : Dev nD) → (b : Ref sig .tc) → Buf (Elt Ideal) ((c : Thread nD τ).loc b)) (c : Dev nD)

/-- Which block each operand moves at point `t`: the two row arrays and the output move row block `t`, the weights and the
    bias stay at their one block. -/
theorem blockIndex0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Row `p` of the first row array's block at point `t` is the array's row `5000·t + p`. -/
theorem scaledRows0 (t : Fin cfg0.N) (p : Fin 5000) (k : Fin 13) (P : Fin 50000) (hP : P.val = t.val * 5000 + p.val) :
    iblk0 V c 0 t (ix2 p k) = V c main_v24 (ix2 P k) := by
  obtain ⟨e0, e1, -⟩ := blockIndex0 t
  show V c main_v24 (((cfg0.win 0).blk t).view.emb (ix2 p k)) = V c main_v24 (ix2 P k)
  refine congrArg (V c main_v24) (funext fun a => Fin.ext ?_)
  match a with
  | ⟨0, _⟩ => show win0_0.index t (0 : Fin 2) * 5000 + 1 * p.val = P.val; rw [e0, hP]; omega
  | ⟨1, _⟩ => show win0_0.index t (1 : Fin 2) * 13 + 1 * k.val = k.val; rw [e1]; omega

/-- The same for the second row array. -/
theorem ownRows0 (t : Fin cfg0.N) (p : Fin 5000) (k : Fin 13) (P : Fin 50000) (hP : P.val = t.val * 5000 + p.val) :
    iblk0 V c 1 t (ix2 p k) = V c main_arg0 (ix2 P k) := by
  obtain ⟨-, -, e0, e1, -⟩ := blockIndex0 t
  show V c main_arg0 (((cfg0.win 1).blk t).view.emb (ix2 p k)) = V c main_arg0 (ix2 P k)
  refine congrArg (V c main_arg0) (funext fun a => Fin.ext ?_)
  match a with
  | ⟨0, _⟩ => show win0_1.index t (0 : Fin 2) * 5000 + 1 * p.val = P.val; rw [e0, hP]; omega
  | ⟨1, _⟩ => show win0_1.index t (1 : Fin 2) * 13 + 1 * k.val = k.val; rw [e1]; omega

/-- The first weight matrix's block is the matrix, at every point. -/
theorem leftWeights0 (t : Fin cfg0.N) (k : Fin 13) (q : Fin 64) :
    iblk0 V c 2 t (ix2 k q) = V c main_arg2 (ix2 k q) := by
  obtain ⟨-, -, -, -, e0, e1, -⟩ := blockIndex0 t
  show V c main_arg2 (((cfg0.win 2).blk t).view.emb (ix2 k q)) = V c main_arg2 (ix2 k q)
  refine congrArg (V c main_arg2) (funext fun a => Fin.ext ?_)
  match a with
  | ⟨0, _⟩ => show win0_2.index t (0 : Fin 2) * 13 + 1 * k.val = k.val; rw [e0]; omega
  | ⟨1, _⟩ => show win0_2.index t (1 : Fin 2) * 64 + 1 * q.val = q.val; rw [e1]; omega

/-- The second weight matrix's block is the matrix, at every point. -/
theorem rightWeights0 (t : Fin cfg0.N) (k : Fin 13) (q : Fin 64) :
    iblk0 V c 3 t (ix2 k q) = V c main_arg4 (ix2 k q) := by
  obtain ⟨-, -, -, -, -, -, e0, e1, -⟩ := blockIndex0 t
  show V c main_arg4 (((cfg0.win 3).blk t).view.emb (ix2 k q)) = V c main_arg4 (ix2 k q)
  refine congrArg (V c main_arg4) (funext fun a => Fin.ext ?_)
  match a with
  | ⟨0, _⟩ => show win0_3.index t (0 : Fin 2) * 13 + 1 * k.val = k.val; rw [e0]; omega
  | ⟨1, _⟩ => show win0_3.index t (1 : Fin 2) * 64 + 1 * q.val = q.val; rw [e1]; omega

/-- The bias block is the one-row bias, at every point. -/
theorem biasRow0 (t : Fin cfg0.N) (q : Fin 64) :
    iblk0 V c 4 t (ix2 (0 : Fin 1) q) = V c main_v25 (ix2 (0 : Fin 1) q) := by
  obtain ⟨-, -, -, -, -, -, -, -, e0, e1, -⟩ := blockIndex0 t
  show V c main_v25 (((cfg0.win 4).blk t).view.emb (ix2 (0 : Fin 1) q)) = V c main_v25 (ix2 (0 : Fin 1) q)
  refine congrArg (V c main_v25) (funext fun a => Fin.ext ?_)
  match a with
  | ⟨0, _⟩ => show win0_4.index t (0 : Fin 2) * 1 + 1 * 0 = 0; rw [e0]
  | ⟨1, _⟩ => show win0_4.index t (1 : Fin 2) * 64 + 1 * q.val = q.val; rw [e1]; omega

/-- WHAT POINT `t` WRITES BACK is rows `5000·t … 5000·t + 4999` of the dense block of the five arrays as the stage finds
    them: entry `(p, q)` of the written block is the dense block's entry `(5000·t + p, q)`. -/
theorem written0 (t : Fin cfg0.N) :
    (dat0 (F := Ideal) V c).flushed 5 t = ((cfg0.win 5).blk t).view.read (Elt Ideal)
      (Cert.Sage.dense Cert.Sage.relu (V c main_v24) (V c main_arg0) (V c main_arg2) (V c main_arg4) (V c main_v25)) := by
  show (cfg0.win 5).cut (grid0.coords t) ((dat0 V c).after 5 t) = _
  rw [after0_5]
  unfold out0_5
  rw [View.canon_unit_zero noOffset0]
  simp only [View.ld_unit_zero (S := S5000x13) noOffset0, View.ld_unit_zero (S := S13x64) noOffset0, View.ld_unit_zero (S := S1x64) noOffset0]
  funext j
  have hj0 : (j 0).val < 5000 := (j 0).isLt
  have hj1 : (j 1).val < 64 := (j 1).isLt
  have hN : t.val < 10 := lt_of_lt_of_eq t.isLt N_0
  obtain ⟨-, -, -, -, -, -, -, -, -, -, e0, e1⟩ := blockIndex0 t
  have hL : (win0 5).xinj (grid0.coords t) j = ix2 (⟨(j 0).val, hj0⟩ : Fin 5000) (⟨(j 1).val, hj1⟩ : Fin 64) :=
    funext fun a => by match a with | ⟨0, _⟩ => rfl | ⟨1, _⟩ => rfl
  have hR : ((View.whole main_v26).slice ((win0 5).rect t)).emb j
      = ix2 (⟨t.val * 5000 + (j 0).val, by omega⟩ : Fin 50000) (⟨(j 1).val, hj1⟩ : Fin 64) :=
    funext fun a => Fin.ext (by
      match a with
      | ⟨0, _⟩ => show win0_5.index t (0 : Fin 2) * 5000 + 1 * (j 0).val = t.val * 5000 + (j 0).val; rw [e0]; omega
      | ⟨1, _⟩ => show win0_5.index t (1 : Fin 2) * 64 + 1 * (j 1).val = (j 1).val; rw [e1]; omega)
  show k0_pay1 (iblk0 V c 0 t) (iblk0 V c 1 t) (iblk0 V c 2 t) (iblk0 V c 3 t) (iblk0 V c 4 t) ((win0 5).xinj (grid0.coords t) j)
    = Cert.Sage.dense Cert.Sage.relu (V c main_v24) (V c main_arg0) (V c main_arg2) (V c main_arg4) (V c main_v25)
        (((View.whole main_v26).slice ((win0 5).rect t)).emb j)
  rw [hL, hR]
  exact body0_is_dense (V c main_v24) (V c main_arg0) (V c main_arg2) (V c main_arg4) (V c main_v25)
    (iblk0 V c 0 t) (iblk0 V c 1 t) (iblk0 V c 2 t) (iblk0 V c 3 t) (iblk0 V c 4 t) _ _ _
    (fun k => scaledRows0 V c t _ k _ rfl) (fun k => ownRows0 V c t _ k _ rfl)
    (fun k => leftWeights0 V c t k _) (fun k => rightWeights0 V c t k _) (biasRow0 V c t _)

/-- An entry of the output array is in point `t`'s block iff each coordinate is in the block's range on its axis. -/
theorem mem_block0 (t : Fin cfg0.N) (i : S50000x64.Idx) :
    i ∈ ((cfg0.win 5).blk t).view.set ↔ ∀ a : Fin 2, win0_5.index t a * S5000x64.size a ≤ (i a).val
      ∧ (i a).val < win0_5.index t a * S5000x64.size a + S5000x64.size a := by
  show i ∈ ((View.whole main_v26).slice (win0_5.rect t)).set ↔ _
  rw [View.set_slice_whole, Rect.mem_set_unit]
  exact Iff.rfl

/-- The ten blocks fill the output array: row `r` is written back by point `r / 5000`. -/
theorem covered0 (i : S50000x64.Idx) :
    ∃ t : Fin cfg0.N, (cfg0.win 5).flush t = true ∧ i ∈ ((cfg0.win 5).blk t).view.set := by
  have hi0 : (i 0).val < 50000 := (i 0).isLt
  have hi1 : (i 1).val < 64 := (i 1).isLt
  have ht : (i 0).val / 5000 < cfg0.N := by rw [show cfg0.N = 10 from N_0]; omega
  obtain ⟨-, -, -, -, -, -, -, -, -, -, e0, e1⟩ := blockIndex0 ⟨(i 0).val / 5000, ht⟩
  refine ⟨⟨(i 0).val / 5000, ht⟩, flush0_5 _, ?_⟩
  rw [mem_block0]
  intro a
  match a with
  | ⟨0, _⟩ =>
    show win0_5.index ⟨(i 0).val / 5000, ht⟩ (0 : Fin 2) * 5000 ≤ (i 0).val
      ∧ (i 0).val < win0_5.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win0_5.index ⟨(i 0).val / 5000, ht⟩ (1 : Fin 2) * 64 ≤ (i 1).val
      ∧ (i 1).val < win0_5.index ⟨(i 0).val / 5000, ht⟩ (1 : Fin 2) * 64 + 64
    rw [e1]; omega

/-- THE OUTPUT ARRAY after the stage's ten points: the dense block of the five arrays the stage found. -/
theorem final0 : (Gen.dat0 (F := Ideal) V c).arrAt 5 cfg0.N
    = Cert.Sage.dense Cert.Sage.relu (V c main_v24) (V c main_arg0) (V c main_arg2) (V c main_arg4) (V c main_v25) :=
  (dat0 V c).arrAt_eq_of_cover 5 _ (fun t _ => written0 V c t) covered0

end Cert.KernelIdeal.DenseValue

end
-- ==== Proof.Dense1.lean ====
/-
  The second dense stage of the network, as ONE function of the arrays it finds.

  The stage runs over ten row blocks. At block `t` it reads rows `5000·t … 5000·t + 4999` of its two 50000 × 64 row
  arrays (`A`, the rows already scaled to means, and `H`, the nodes' own rows), all of the two 64 × 64 weight matrices
  `Wl`, `Wr` and of the 1 × 64 bias `B`, and writes the same rows of its 50000 × 64 output. Entry `(p, q)` of the block is

      max ( … , 0 )   of   Σ_k A(5000·t + p, k) · Wl(k, q)  +  Σ_k H(5000·t + p, k) · Wr(k, q)  +  B(0, q).

  On the extended reals the narrowing of the operands to the short float format before each product is the identity, and
  each product accumulates into zeros, so it is the plain sum over the 64 contraction positions; the bias row is
  repeated down the rows; the larger of that and `0.0` is the entry. Row `r` of the array lies in block `r / 5000`, and the ten blocks
  fill the array, so after the last write-back the output array is `Cert.Sage.dense` of the five arrays, entry by entry,
  whatever the arrays hold (nothing here asks for finite entries).
-/
import proofs.«143321_j22462678958404_1_alg».proof.Proof.Gen.KernelIdeal.Frame
import proofs.«143321_j22462678958404_1_alg».proof.Proof.Layer
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.DenseValue

open Cert.KernelIdeal Cert.KernelIdeal.Gen
open Idealize.ShloMosaic Idealize.ShloMosaic.TcCoe Idealize.ShloMosaic.ValueIdx Idealize.SL.Sem
open Idealize.ShloMosaic.Pipeline (Dat)

/-- The body reads and writes each of its buffers whole: from offset `(0, 0)`. -/
theorem noOffset1 : (![0, 0] : Fin 2 → Nat) = fun _ => 0 := funext fun a => by fin_cases a <;> rfl

/-! ## One product at an entry

The product of a 5000 × 64 block with a 64 × 64 matrix contracts the block's columns against the matrix's rows: at output
entry `(p, q)` and contraction position `k` the left factor is the block's entry `(p, k)`, the right factor the matrix's
entry `(k, q)`. -/

/-- The left factor sits in the output entry's row, -/
theorem dot1_lhs_row (i : S5000x64.Idx) (k : dot_S5000x64_S64x64_S5000x64_1_0_0_1_n_n.contr.Idx) :
    (dot_S5000x64_S64x64_S5000x64_1_0_0_1_n_n.lhsIdx i k 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
/-- at the column the contraction position names; -/
theorem dot1_lhs_col (i : S5000x64.Idx) (k : dot_S5000x64_S64x64_S5000x64_1_0_0_1_n_n.contr.Idx) :
    (dot_S5000x64_S64x64_S5000x64_1_0_0_1_n_n.lhsIdx i k 1).val = (k ⟨0, by decide⟩).val :=
  dot_S5000x64_S64x64_S5000x64_1_0_0_1_n_n.lhsIdx_val_of_single rfl i k
/-- the right factor sits in the row the contraction position names, -/
theorem dot1_rhs_row (i : S5000x64.Idx) (k : dot_S5000x64_S64x64_S5000x64_1_0_0_1_n_n.contr.Idx) :
    (dot_S5000x64_S64x64_S5000x64_1_0_0_1_n_n.rhsIdx i k 0).val = (k ⟨0, by decide⟩).val :=
  dot_S5000x64_S64x64_S5000x64_1_0_0_1_n_n.rhsIdx_val_of_single rfl i k
/-- at the output entry's column. -/
theorem dot1_rhs_col (i : S5000x64.Idx) (k : dot_S5000x64_S64x64_S5000x64_1_0_0_1_n_n.contr.Idx) :
    (dot_S5000x64_S64x64_S5000x64_1_0_0_1_n_n.rhsIdx i k 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- A product accumulated into zeros, at entry `(p, q)`: the sum over the 64 contraction positions of the left operand's
    row `p` against the right operand's column `q`. -/
theorem dot1_apply (l : FVec Ideal S5000x64 .bf16) (r : FVec Ideal S64x64 .bf16) (p : Fin 5000) (q : Fin 64) :
    matmul dot_S5000x64_S64x64_S5000x64_1_0_0_1_n_n none l r (constant S5000x64 .f32 0x00000000#32) (ix2 p q)
      = ∑ k : Fin 64, l (ix2 p k) * r (ix2 k q) := by
  refine (Ideal.matmul_constant_zero_apply dot_S5000x64_S64x64_S5000x64_1_0_0_1_n_n none l r (ix2 p q)).trans ?_
  rw [← Equiv.sum_comp (contrEquiv1 dot_S5000x64_S64x64_S5000x64_1_0_0_1_n_n 64 rfl rfl).symm]
  refine Finset.sum_congr rfl fun k _ => ?_
  have hk := contrEquiv1_symm_val dot_S5000x64_S64x64_S5000x64_1_0_0_1_n_n 64 rfl rfl k
  have el : dot_S5000x64_S64x64_S5000x64_1_0_0_1_n_n.lhsIdx (ix2 p q) ((contrEquiv1 dot_S5000x64_S64x64_S5000x64_1_0_0_1_n_n 64 rfl rfl).symm k) = ix2 p k := funext fun a => Fin.ext (by
    match a with
    | ⟨0, _⟩ => exact dot1_lhs_row _ _
    | ⟨1, _⟩ => exact (dot1_lhs_col _ _).trans hk)
  have er : dot_S5000x64_S64x64_S5000x64_1_0_0_1_n_n.rhsIdx (ix2 p q) ((contrEquiv1 dot_S5000x64_S64x64_S5000x64_1_0_0_1_n_n 64 rfl rfl).symm k) = ix2 k q := funext fun a => Fin.ext (by
    match a with
    | ⟨0, _⟩ => exact (dot1_rhs_row _ _).trans hk
    | ⟨1, _⟩ => exact dot1_rhs_col _ _)
  rw [el, er]

/-! ## The body at an entry -/

/-- What the body stores at entry `(p, q)` of its output block, from the five blocks it loaded: the two product sums,
    then the bias of column `q`, then the activation. The narrowing to the short format is the identity here. -/
theorem body1_apply (x0 x1 : FVec Ideal S5000x64 .f32) (x2 x3 : FVec Ideal S64x64 .f32) (x4 : FVec Ideal S1x64 .f32)
    (p : Fin 5000) (q : Fin 64) :
    k1_pay1 (F := Ideal) x0 x1 x2 x3 x4 (ix2 p q)
      = Cert.Sage.relu ((∑ k : Fin 64, x0 (ix2 p k) * x2 (ix2 k q) + ∑ k : Fin 64, x1 (ix2 p k) * x3 (ix2 k q))
          + x4 (ix2 (0 : Fin 1) q)) := by
  unfold k1_pay1
  simp only [shapeCast_self]
  show max ((matmul dot_S5000x64_S64x64_S5000x64_1_0_0_1_n_n none (truncf .bf16 x0 bitsLt_bf16_f32) (truncf .bf16 x2 bitsLt_bf16_f32) (constant S5000x64 .f32 0x00000000#32) (ix2 p q)
      + matmul dot_S5000x64_S64x64_S5000x64_1_0_0_1_n_n none (truncf .bf16 x1 bitsLt_bf16_f32) (truncf .bf16 x3 bitsLt_bf16_f32) (constant S5000x64 .f32 0x00000000#32) (ix2 p q))
      + broadcastTo S5000x64 x4 broadcasts_S1x64_S5000x64 (ix2 p q)) (Ideal.ofBits .f32 0x00000000#32) = _
  rw [dot1_apply, dot1_apply, broadcastTo_1b_ab_apply]
  rfl

/-- If the loaded blocks hold row `P` of the row arrays where they hold their own row `p`, and the weights and the bias as
    they are, the body's entry `(p, q)` is the dense block's entry `(P, q)`. -/
theorem body1_is_dense (A H : S50000x64.Idx → EReal) (Wl Wr : S64x64.Idx → EReal) (B : S1x64.Idx → EReal)
    (x0 x1 : FVec Ideal S5000x64 .f32) (x2 x3 : FVec Ideal S64x64 .f32) (x4 : FVec Ideal S1x64 .f32)
    (p : Fin 5000) (P : Fin 50000) (q : Fin 64)
    (h0 : ∀ k : Fin 64, x0 (ix2 p k) = A (ix2 P k)) (h1 : ∀ k : Fin 64, x1 (ix2 p k) = H (ix2 P k))
    (h2 : ∀ k : Fin 64, x2 (ix2 k q) = Wl (ix2 k q)) (h3 : ∀ k : Fin 64, x3 (ix2 k q) = Wr (ix2 k q))
    (h4 : x4 (ix2 (0 : Fin 1) q) = B (ix2 (0 : Fin 1) q)) :
    k1_pay1 (F := Ideal) x0 x1 x2 x3 x4 (ix2 p q) = Cert.Sage.dense Cert.Sage.relu A H Wl Wr B (ix2 P q) := by
  rw [body1_apply]
  show _ = Cert.Sage.relu (Cert.Sage.densePre A H Wl Wr B P q)
  unfold Cert.Sage.densePre
  rw [h4]
  refine congrArg Cert.Sage.relu (congrArg (· + B (ix2 (0 : Fin 1) q)) ?_)
  refine congrArg₂ (· + ·) (Finset.sum_congr rfl fun k _ => ?_) (Finset.sum_congr rfl fun k _ => ?_)
  · rw [h0 k, h2 k]
  · rw [h1 k, h3 k]

/-! ## The blocks of the ten points -/

variable (V : (c : Dev nD) → (b : Ref sig .tc) → Buf (Elt Ideal) ((c : Thread nD τ).loc b)) (c : Dev nD)

/-- Which block each operand moves at point `t`: the two row arrays and the output move row block `t`, the weights and the
    bias stay at their one block. -/
theorem blockIndex1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Row `p` of the first row array's block at point `t` is the array's row `5000·t + p`. -/
theorem scaledRows1 (t : Fin cfg1.N) (p : Fin 5000) (k : Fin 64) (P : Fin 50000) (hP : P.val = t.val * 5000 + p.val) :
    iblk1 V c 0 t (ix2 p k) = V c main_v38 (ix2 P k) := by
  obtain ⟨e0, e1, -⟩ := blockIndex1 t
  show V c main_v38 (((cfg1.win 0).blk t).view.emb (ix2 p k)) = V c main_v38 (ix2 P k)
  refine congrArg (V c main_v38) (funext fun a => Fin.ext ?_)
  match a with
  | ⟨0, _⟩ => show win1_0.index t (0 : Fin 2) * 5000 + 1 * p.val = P.val; rw [e0, hP]; omega
  | ⟨1, _⟩ => show win1_0.index t (1 : Fin 2) * 64 + 1 * k.val = k.val; rw [e1]; omega

/-- The same for the second row array. -/
theorem ownRows1 (t : Fin cfg1.N) (p : Fin 5000) (k : Fin 64) (P : Fin 50000) (hP : P.val = t.val * 5000 + p.val) :
    iblk1 V c 1 t (ix2 p k) = V c main_v26 (ix2 P k) := by
  obtain ⟨-, -, e0, e1, -⟩ := blockIndex1 t
  show V c main_v26 (((cfg1.win 1).blk t).view.emb (ix2 p k)) = V c main_v26 (ix2 P k)
  refine congrArg (V c main_v26) (funext fun a => Fin.ext ?_)
  match a with
  | ⟨0, _⟩ => show win1_1.index t (0 : Fin 2) * 5000 + 1 * p.val = P.val; rw [e0, hP]; omega
  | ⟨1, _⟩ => show win1_1.index t (1 : Fin 2) * 64 + 1 * k.val = k.val; rw [e1]; omega

/-- The first weight matrix's block is the matrix, at every point. -/
theorem leftWeights1 (t : Fin cfg1.N) (k : Fin 64) (q : Fin 64) :
    iblk1 V c 2 t (ix2 k q) = V c main_arg5 (ix2 k q) := by
  obtain ⟨-, -, -, -, e0, e1, -⟩ := blockIndex1 t
  show V c main_arg5 (((cfg1.win 2).blk t).view.emb (ix2 k q)) = V c main_arg5 (ix2 k q)
  refine congrArg (V c main_arg5) (funext fun a => Fin.ext ?_)
  match a with
  | ⟨0, _⟩ => show win1_2.index t (0 : Fin 2) * 64 + 1 * k.val = k.val; rw [e0]; omega
  | ⟨1, _⟩ => show win1_2.index t (1 : Fin 2) * 64 + 1 * q.val = q.val; rw [e1]; omega

/-- The second weight matrix's block is the matrix, at every point. -/
theorem rightWeights1 (t : Fin cfg1.N) (k : Fin 64) (q : Fin 64) :
    iblk1 V c 3 t (ix2 k q) = V c main_arg7 (ix2 k q) := by
  obtain ⟨-, -, -, -, -, -, e0, e1, -⟩ := blockIndex1 t
  show V c main_arg7 (((cfg1.win 3).blk t).view.emb (ix2 k q)) = V c main_arg7 (ix2 k q)
  refine congrArg (V c main_arg7) (funext fun a => Fin.ext ?_)
  match a with
  | ⟨0, _⟩ => show win1_3.index t (0 : Fin 2) * 64 + 1 * k.val = k.val; rw [e0]; omega
  | ⟨1, _⟩ => show win1_3.index t (1 : Fin 2) * 64 + 1 * q.val = q.val; rw [e1]; omega

/-- The bias block is the one-row bias, at every point. -/
theorem biasRow1 (t : Fin cfg1.N) (q : Fin 64) :
    iblk1 V c 4 t (ix2 (0 : Fin 1) q) = V c main_v39 (ix2 (0 : Fin 1) q) := by
  obtain ⟨-, -, -, -, -, -, -, -, e0, e1, -⟩ := blockIndex1 t
  show V c main_v39 (((cfg1.win 4).blk t).view.emb (ix2 (0 : Fin 1) q)) = V c main_v39 (ix2 (0 : Fin 1) q)
  refine congrArg (V c main_v39) (funext fun a => Fin.ext ?_)
  match a with
  | ⟨0, _⟩ => show win1_4.index t (0 : Fin 2) * 1 + 1 * 0 = 0; rw [e0]
  | ⟨1, _⟩ => show win1_4.index t (1 : Fin 2) * 64 + 1 * q.val = q.val; rw [e1]; omega

/-- WHAT POINT `t` WRITES BACK is rows `5000·t … 5000·t + 4999` of the dense block of the five arrays as the stage finds
    them: entry `(p, q)` of the written block is the dense block's entry `(5000·t + p, q)`. -/
theorem written1 (t : Fin cfg1.N) :
    (dat1 (F := Ideal) V c).flushed 5 t = ((cfg1.win 5).blk t).view.read (Elt Ideal)
      (Cert.Sage.dense Cert.Sage.relu (V c main_v38) (V c main_v26) (V c main_arg5) (V c main_arg7) (V c main_v39)) := by
  show (cfg1.win 5).cut (grid1.coords t) ((dat1 V c).after 5 t) = _
  rw [after1_5]
  unfold out1_5
  rw [View.canon_unit_zero noOffset1]
  simp only [View.ld_unit_zero (S := S5000x64) noOffset1, View.ld_unit_zero (S := S64x64) noOffset1, View.ld_unit_zero (S := S1x64) noOffset1]
  funext j
  have hj0 : (j 0).val < 5000 := (j 0).isLt
  have hj1 : (j 1).val < 64 := (j 1).isLt
  have hN : t.val < 10 := lt_of_lt_of_eq t.isLt N_1
  obtain ⟨-, -, -, -, -, -, -, -, -, -, e0, e1⟩ := blockIndex1 t
  have hL : (win1 5).xinj (grid1.coords t) j = ix2 (⟨(j 0).val, hj0⟩ : Fin 5000) (⟨(j 1).val, hj1⟩ : Fin 64) :=
    funext fun a => by match a with | ⟨0, _⟩ => rfl | ⟨1, _⟩ => rfl
  have hR : ((View.whole main_v40).slice ((win1 5).rect t)).emb j
      = ix2 (⟨t.val * 5000 + (j 0).val, by omega⟩ : Fin 50000) (⟨(j 1).val, hj1⟩ : Fin 64) :=
    funext fun a => Fin.ext (by
      match a with
      | ⟨0, _⟩ => show win1_5.index t (0 : Fin 2) * 5000 + 1 * (j 0).val = t.val * 5000 + (j 0).val; rw [e0]; omega
      | ⟨1, _⟩ => show win1_5.index t (1 : Fin 2) * 64 + 1 * (j 1).val = (j 1).val; rw [e1]; omega)
  show k1_pay1 (iblk1 V c 0 t) (iblk1 V c 1 t) (iblk1 V c 2 t) (iblk1 V c 3 t) (iblk1 V c 4 t) ((win1 5).xinj (grid1.coords t) j)
    = Cert.Sage.dense Cert.Sage.relu (V c main_v38) (V c main_v26) (V c main_arg5) (V c main_arg7) (V c main_v39)
        (((View.whole main_v40).slice ((win1 5).rect t)).emb j)
  rw [hL, hR]
  exact body1_is_dense (V c main_v38) (V c main_v26) (V c main_arg5) (V c main_arg7) (V c main_v39)
    (iblk1 V c 0 t) (iblk1 V c 1 t) (iblk1 V c 2 t) (iblk1 V c 3 t) (iblk1 V c 4 t) _ _ _
    (fun k => scaledRows1 V c t _ k _ rfl) (fun k => ownRows1 V c t _ k _ rfl)
    (fun k => leftWeights1 V c t k _) (fun k => rightWeights1 V c t k _) (biasRow1 V c t _)

/-- An entry of the output array is in point `t`'s block iff each coordinate is in the block's range on its axis. -/
theorem mem_block1 (t : Fin cfg1.N) (i : S50000x64.Idx) :
    i ∈ ((cfg1.win 5).blk t).view.set ↔ ∀ a : Fin 2, win1_5.index t a * S5000x64.size a ≤ (i a).val
      ∧ (i a).val < win1_5.index t a * S5000x64.size a + S5000x64.size a := by
  show i ∈ ((View.whole main_v40).slice (win1_5.rect t)).set ↔ _
  rw [View.set_slice_whole, Rect.mem_set_unit]
  exact Iff.rfl

/-- The ten blocks fill the output array: row `r` is written back by point `r / 5000`. -/
theorem covered1 (i : S50000x64.Idx) :
    ∃ t : Fin cfg1.N, (cfg1.win 5).flush t = true ∧ i ∈ ((cfg1.win 5).blk t).view.set := by
  have hi0 : (i 0).val < 50000 := (i 0).isLt
  have hi1 : (i 1).val < 64 := (i 1).isLt
  have ht : (i 0).val / 5000 < cfg1.N := by rw [show cfg1.N = 10 from N_1]; omega
  obtain ⟨-, -, -, -, -, -, -, -, -, -, e0, e1⟩ := blockIndex1 ⟨(i 0).val / 5000, ht⟩
  refine ⟨⟨(i 0).val / 5000, ht⟩, flush1_5 _, ?_⟩
  rw [mem_block1]
  intro a
  match a with
  | ⟨0, _⟩ =>
    show win1_5.index ⟨(i 0).val / 5000, ht⟩ (0 : Fin 2) * 5000 ≤ (i 0).val
      ∧ (i 0).val < win1_5.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win1_5.index ⟨(i 0).val / 5000, ht⟩ (1 : Fin 2) * 64 ≤ (i 1).val
      ∧ (i 1).val < win1_5.index ⟨(i 0).val / 5000, ht⟩ (1 : Fin 2) * 64 + 64
    rw [e1]; omega

/-- THE OUTPUT ARRAY after the stage's ten points: the dense block of the five arrays the stage found. -/
theorem final1 : (Gen.dat1 (F := Ideal) V c).arrAt 5 cfg1.N
    = Cert.Sage.dense Cert.Sage.relu (V c main_v38) (V c main_v26) (V c main_arg5) (V c main_arg7) (V c main_v39) :=
  (dat1 V c).arrAt_eq_of_cover 5 _ (fun t _ => written1 V c t) covered1

end Cert.KernelIdeal.DenseValue

end
-- ==== Proof.Dense2.lean ====
/-
  The third dense stage of the network, as ONE function of the arrays it finds.

  The stage runs over ten row blocks. At block `t` it reads rows `5000·t … 5000·t + 4999` of its two 50000 × 64 row
  arrays (`A`, the rows already scaled to means, and `H`, the nodes' own rows), all of the two 64 × 64 weight matrices
  `Wl`, `Wr` and of the 1 × 64 bias `B`, and writes the same rows of its 50000 × 64 output. Entry `(p, q)` of the block is

      max ( … , 0 )   of   Σ_k A(5000·t + p, k) · Wl(k, q)  +  Σ_k H(5000·t + p, k) · Wr(k, q)  +  B(0, q).

  On the extended reals the narrowing of the operands to the short float format before each product is the identity, and
  each product accumulates into zeros, so it is the plain sum over the 64 contraction positions; the bias row is
  repeated down the rows; the larger of that and `0.0` is the entry. Row `r` of the array lies in block `r / 5000`, and the ten blocks
  fill the array, so after the last write-back the output array is `Cert.Sage.dense` of the five arrays, entry by entry,
  whatever the arrays hold (nothing here asks for finite entries).
-/
import proofs.«143321_j22462678958404_1_alg».proof.Proof.Gen.KernelIdeal.Frame
import proofs.«143321_j22462678958404_1_alg».proof.Proof.Layer
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.DenseValue

open Cert.KernelIdeal Cert.KernelIdeal.Gen
open Idealize.ShloMosaic Idealize.ShloMosaic.TcCoe Idealize.ShloMosaic.ValueIdx Idealize.SL.Sem
open Idealize.ShloMosaic.Pipeline (Dat)

/-- The body reads and writes each of its buffers whole: from offset `(0, 0)`. -/
theorem noOffset2 : (![0, 0] : Fin 2 → Nat) = fun _ => 0 := funext fun a => by fin_cases a <;> rfl

/-! ## One product at an entry

The product of a 5000 × 64 block with a 64 × 64 matrix contracts the block's columns against the matrix's rows: at output
entry `(p, q)` and contraction position `k` the left factor is the block's entry `(p, k)`, the right factor the matrix's
entry `(k, q)`. -/

/-- The left factor sits in the output entry's row, -/
theorem dot2_lhs_row (i : S5000x64.Idx) (k : dot_S5000x64_S64x64_S5000x64_1_0_0_1_n_n.contr.Idx) :
    (dot_S5000x64_S64x64_S5000x64_1_0_0_1_n_n.lhsIdx i k 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
/-- at the column the contraction position names; -/
theorem dot2_lhs_col (i : S5000x64.Idx) (k : dot_S5000x64_S64x64_S5000x64_1_0_0_1_n_n.contr.Idx) :
    (dot_S5000x64_S64x64_S5000x64_1_0_0_1_n_n.lhsIdx i k 1).val = (k ⟨0, by decide⟩).val :=
  dot_S5000x64_S64x64_S5000x64_1_0_0_1_n_n.lhsIdx_val_of_single rfl i k
/-- the right factor sits in the row the contraction position names, -/
theorem dot2_rhs_row (i : S5000x64.Idx) (k : dot_S5000x64_S64x64_S5000x64_1_0_0_1_n_n.contr.Idx) :
    (dot_S5000x64_S64x64_S5000x64_1_0_0_1_n_n.rhsIdx i k 0).val = (k ⟨0, by decide⟩).val :=
  dot_S5000x64_S64x64_S5000x64_1_0_0_1_n_n.rhsIdx_val_of_single rfl i k
/-- at the output entry's column. -/
theorem dot2_rhs_col (i : S5000x64.Idx) (k : dot_S5000x64_S64x64_S5000x64_1_0_0_1_n_n.contr.Idx) :
    (dot_S5000x64_S64x64_S5000x64_1_0_0_1_n_n.rhsIdx i k 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- A product accumulated into zeros, at entry `(p, q)`: the sum over the 64 contraction positions of the left operand's
    row `p` against the right operand's column `q`. -/
theorem dot2_apply (l : FVec Ideal S5000x64 .bf16) (r : FVec Ideal S64x64 .bf16) (p : Fin 5000) (q : Fin 64) :
    matmul dot_S5000x64_S64x64_S5000x64_1_0_0_1_n_n none l r (constant S5000x64 .f32 0x00000000#32) (ix2 p q)
      = ∑ k : Fin 64, l (ix2 p k) * r (ix2 k q) := by
  refine (Ideal.matmul_constant_zero_apply dot_S5000x64_S64x64_S5000x64_1_0_0_1_n_n none l r (ix2 p q)).trans ?_
  rw [← Equiv.sum_comp (contrEquiv1 dot_S5000x64_S64x64_S5000x64_1_0_0_1_n_n 64 rfl rfl).symm]
  refine Finset.sum_congr rfl fun k _ => ?_
  have hk := contrEquiv1_symm_val dot_S5000x64_S64x64_S5000x64_1_0_0_1_n_n 64 rfl rfl k
  have el : dot_S5000x64_S64x64_S5000x64_1_0_0_1_n_n.lhsIdx (ix2 p q) ((contrEquiv1 dot_S5000x64_S64x64_S5000x64_1_0_0_1_n_n 64 rfl rfl).symm k) = ix2 p k := funext fun a => Fin.ext (by
    match a with
    | ⟨0, _⟩ => exact dot2_lhs_row _ _
    | ⟨1, _⟩ => exact (dot2_lhs_col _ _).trans hk)
  have er : dot_S5000x64_S64x64_S5000x64_1_0_0_1_n_n.rhsIdx (ix2 p q) ((contrEquiv1 dot_S5000x64_S64x64_S5000x64_1_0_0_1_n_n 64 rfl rfl).symm k) = ix2 k q := funext fun a => Fin.ext (by
    match a with
    | ⟨0, _⟩ => exact (dot2_rhs_row _ _).trans hk
    | ⟨1, _⟩ => exact dot2_rhs_col _ _)
  rw [el, er]

/-! ## The body at an entry -/

/-- What the body stores at entry `(p, q)` of its output block, from the five blocks it loaded: the two product sums,
    then the bias of column `q`, then the activation. The narrowing to the short format is the identity here. -/
theorem body2_apply (x0 x1 : FVec Ideal S5000x64 .f32) (x2 x3 : FVec Ideal S64x64 .f32) (x4 : FVec Ideal S1x64 .f32)
    (p : Fin 5000) (q : Fin 64) :
    k2_pay1 (F := Ideal) x0 x1 x2 x3 x4 (ix2 p q)
      = Cert.Sage.relu ((∑ k : Fin 64, x0 (ix2 p k) * x2 (ix2 k q) + ∑ k : Fin 64, x1 (ix2 p k) * x3 (ix2 k q))
          + x4 (ix2 (0 : Fin 1) q)) := by
  unfold k2_pay1
  simp only [shapeCast_self]
  show max ((matmul dot_S5000x64_S64x64_S5000x64_1_0_0_1_n_n none (truncf .bf16 x0 bitsLt_bf16_f32) (truncf .bf16 x2 bitsLt_bf16_f32) (constant S5000x64 .f32 0x00000000#32) (ix2 p q)
      + matmul dot_S5000x64_S64x64_S5000x64_1_0_0_1_n_n none (truncf .bf16 x1 bitsLt_bf16_f32) (truncf .bf16 x3 bitsLt_bf16_f32) (constant S5000x64 .f32 0x00000000#32) (ix2 p q))
      + broadcastTo S5000x64 x4 broadcasts_S1x64_S5000x64 (ix2 p q)) (Ideal.ofBits .f32 0x00000000#32) = _
  rw [dot2_apply, dot2_apply, broadcastTo_1b_ab_apply]
  rfl

/-- If the loaded blocks hold row `P` of the row arrays where they hold their own row `p`, and the weights and the bias as
    they are, the body's entry `(p, q)` is the dense block's entry `(P, q)`. -/
theorem body2_is_dense (A H : S50000x64.Idx → EReal) (Wl Wr : S64x64.Idx → EReal) (B : S1x64.Idx → EReal)
    (x0 x1 : FVec Ideal S5000x64 .f32) (x2 x3 : FVec Ideal S64x64 .f32) (x4 : FVec Ideal S1x64 .f32)
    (p : Fin 5000) (P : Fin 50000) (q : Fin 64)
    (h0 : ∀ k : Fin 64, x0 (ix2 p k) = A (ix2 P k)) (h1 : ∀ k : Fin 64, x1 (ix2 p k) = H (ix2 P k))
    (h2 : ∀ k : Fin 64, x2 (ix2 k q) = Wl (ix2 k q)) (h3 : ∀ k : Fin 64, x3 (ix2 k q) = Wr (ix2 k q))
    (h4 : x4 (ix2 (0 : Fin 1) q) = B (ix2 (0 : Fin 1) q)) :
    k2_pay1 (F := Ideal) x0 x1 x2 x3 x4 (ix2 p q) = Cert.Sage.dense Cert.Sage.relu A H Wl Wr B (ix2 P q) := by
  rw [body2_apply]
  show _ = Cert.Sage.relu (Cert.Sage.densePre A H Wl Wr B P q)
  unfold Cert.Sage.densePre
  rw [h4]
  refine congrArg Cert.Sage.relu (congrArg (· + B (ix2 (0 : Fin 1) q)) ?_)
  refine congrArg₂ (· + ·) (Finset.sum_congr rfl fun k _ => ?_) (Finset.sum_congr rfl fun k _ => ?_)
  · rw [h0 k, h2 k]
  · rw [h1 k, h3 k]

/-! ## The blocks of the ten points -/

variable (V : (c : Dev nD) → (b : Ref sig .tc) → Buf (Elt Ideal) ((c : Thread nD τ).loc b)) (c : Dev nD)

/-- Which block each operand moves at point `t`: the two row arrays and the output move row block `t`, the weights and the
    bias stay at their one block. -/
theorem blockIndex2 : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- Row `p` of the first row array's block at point `t` is the array's row `5000·t + p`. -/
theorem scaledRows2 (t : Fin cfg2.N) (p : Fin 5000) (k : Fin 64) (P : Fin 50000) (hP : P.val = t.val * 5000 + p.val) :
    iblk2 V c 0 t (ix2 p k) = V c main_v52 (ix2 P k) := by
  obtain ⟨e0, e1, -⟩ := blockIndex2 t
  show V c main_v52 (((cfg2.win 0).blk t).view.emb (ix2 p k)) = V c main_v52 (ix2 P k)
  refine congrArg (V c main_v52) (funext fun a => Fin.ext ?_)
  match a with
  | ⟨0, _⟩ => show win2_0.index t (0 : Fin 2) * 5000 + 1 * p.val = P.val; rw [e0, hP]; omega
  | ⟨1, _⟩ => show win2_0.index t (1 : Fin 2) * 64 + 1 * k.val = k.val; rw [e1]; omega

/-- The same for the second row array. -/
theorem ownRows2 (t : Fin cfg2.N) (p : Fin 5000) (k : Fin 64) (P : Fin 50000) (hP : P.val = t.val * 5000 + p.val) :
    iblk2 V c 1 t (ix2 p k) = V c main_v40 (ix2 P k) := by
  obtain ⟨-, -, e0, e1, -⟩ := blockIndex2 t
  show V c main_v40 (((cfg2.win 1).blk t).view.emb (ix2 p k)) = V c main_v40 (ix2 P k)
  refine congrArg (V c main_v40) (funext fun a => Fin.ext ?_)
  match a with
  | ⟨0, _⟩ => show win2_1.index t (0 : Fin 2) * 5000 + 1 * p.val = P.val; rw [e0, hP]; omega
  | ⟨1, _⟩ => show win2_1.index t (1 : Fin 2) * 64 + 1 * k.val = k.val; rw [e1]; omega

/-- The first weight matrix's block is the matrix, at every point. -/
theorem leftWeights2 (t : Fin cfg2.N) (k : Fin 64) (q : Fin 64) :
    iblk2 V c 2 t (ix2 k q) = V c main_arg8 (ix2 k q) := by
  obtain ⟨-, -, -, -, e0, e1, -⟩ := blockIndex2 t
  show V c main_arg8 (((cfg2.win 2).blk t).view.emb (ix2 k q)) = V c main_arg8 (ix2 k q)
  refine congrArg (V c main_arg8) (funext fun a => Fin.ext ?_)
  match a with
  | ⟨0, _⟩ => show win2_2.index t (0 : Fin 2) * 64 + 1 * k.val = k.val; rw [e0]; omega
  | ⟨1, _⟩ => show win2_2.index t (1 : Fin 2) * 64 + 1 * q.val = q.val; rw [e1]; omega

/-- The second weight matrix's block is the matrix, at every point. -/
theorem rightWeights2 (t : Fin cfg2.N) (k : Fin 64) (q : Fin 64) :
    iblk2 V c 3 t (ix2 k q) = V c main_arg10 (ix2 k q) := by
  obtain ⟨-, -, -, -, -, -, e0, e1, -⟩ := blockIndex2 t
  show V c main_arg10 (((cfg2.win 3).blk t).view.emb (ix2 k q)) = V c main_arg10 (ix2 k q)
  refine congrArg (V c main_arg10) (funext fun a => Fin.ext ?_)
  match a with
  | ⟨0, _⟩ => show win2_3.index t (0 : Fin 2) * 64 + 1 * k.val = k.val; rw [e0]; omega
  | ⟨1, _⟩ => show win2_3.index t (1 : Fin 2) * 64 + 1 * q.val = q.val; rw [e1]; omega

/-- The bias block is the one-row bias, at every point. -/
theorem biasRow2 (t : Fin cfg2.N) (q : Fin 64) :
    iblk2 V c 4 t (ix2 (0 : Fin 1) q) = V c main_v53 (ix2 (0 : Fin 1) q) := by
  obtain ⟨-, -, -, -, -, -, -, -, e0, e1, -⟩ := blockIndex2 t
  show V c main_v53 (((cfg2.win 4).blk t).view.emb (ix2 (0 : Fin 1) q)) = V c main_v53 (ix2 (0 : Fin 1) q)
  refine congrArg (V c main_v53) (funext fun a => Fin.ext ?_)
  match a with
  | ⟨0, _⟩ => show win2_4.index t (0 : Fin 2) * 1 + 1 * 0 = 0; rw [e0]
  | ⟨1, _⟩ => show win2_4.index t (1 : Fin 2) * 64 + 1 * q.val = q.val; rw [e1]; omega

/-- WHAT POINT `t` WRITES BACK is rows `5000·t … 5000·t + 4999` of the dense block of the five arrays as the stage finds
    them: entry `(p, q)` of the written block is the dense block's entry `(5000·t + p, q)`. -/
theorem written2 (t : Fin cfg2.N) :
    (dat2 (F := Ideal) V c).flushed 5 t = ((cfg2.win 5).blk t).view.read (Elt Ideal)
      (Cert.Sage.dense Cert.Sage.relu (V c main_v52) (V c main_v40) (V c main_arg8) (V c main_arg10) (V c main_v53)) := by
  show (cfg2.win 5).cut (grid2.coords t) ((dat2 V c).after 5 t) = _
  rw [after2_5]
  unfold out2_5
  rw [View.canon_unit_zero noOffset2]
  simp only [View.ld_unit_zero (S := S5000x64) noOffset2, View.ld_unit_zero (S := S64x64) noOffset2, View.ld_unit_zero (S := S1x64) noOffset2]
  funext j
  have hj0 : (j 0).val < 5000 := (j 0).isLt
  have hj1 : (j 1).val < 64 := (j 1).isLt
  have hN : t.val < 10 := lt_of_lt_of_eq t.isLt N_2
  obtain ⟨-, -, -, -, -, -, -, -, -, -, e0, e1⟩ := blockIndex2 t
  have hL : (win2 5).xinj (grid2.coords t) j = ix2 (⟨(j 0).val, hj0⟩ : Fin 5000) (⟨(j 1).val, hj1⟩ : Fin 64) :=
    funext fun a => by match a with | ⟨0, _⟩ => rfl | ⟨1, _⟩ => rfl
  have hR : ((View.whole main_v54).slice ((win2 5).rect t)).emb j
      = ix2 (⟨t.val * 5000 + (j 0).val, by omega⟩ : Fin 50000) (⟨(j 1).val, hj1⟩ : Fin 64) :=
    funext fun a => Fin.ext (by
      match a with
      | ⟨0, _⟩ => show win2_5.index t (0 : Fin 2) * 5000 + 1 * (j 0).val = t.val * 5000 + (j 0).val; rw [e0]; omega
      | ⟨1, _⟩ => show win2_5.index t (1 : Fin 2) * 64 + 1 * (j 1).val = (j 1).val; rw [e1]; omega)
  show k2_pay1 (iblk2 V c 0 t) (iblk2 V c 1 t) (iblk2 V c 2 t) (iblk2 V c 3 t) (iblk2 V c 4 t) ((win2 5).xinj (grid2.coords t) j)
    = Cert.Sage.dense Cert.Sage.relu (V c main_v52) (V c main_v40) (V c main_arg8) (V c main_arg10) (V c main_v53)
        (((View.whole main_v54).slice ((win2 5).rect t)).emb j)
  rw [hL, hR]
  exact body2_is_dense (V c main_v52) (V c main_v40) (V c main_arg8) (V c main_arg10) (V c main_v53)
    (iblk2 V c 0 t) (iblk2 V c 1 t) (iblk2 V c 2 t) (iblk2 V c 3 t) (iblk2 V c 4 t) _ _ _
    (fun k => scaledRows2 V c t _ k _ rfl) (fun k => ownRows2 V c t _ k _ rfl)
    (fun k => leftWeights2 V c t k _) (fun k => rightWeights2 V c t k _) (biasRow2 V c t _)

/-- An entry of the output array is in point `t`'s block iff each coordinate is in the block's range on its axis. -/
theorem mem_block2 (t : Fin cfg2.N) (i : S50000x64.Idx) :
    i ∈ ((cfg2.win 5).blk t).view.set ↔ ∀ a : Fin 2, win2_5.index t a * S5000x64.size a ≤ (i a).val
      ∧ (i a).val < win2_5.index t a * S5000x64.size a + S5000x64.size a := by
  show i ∈ ((View.whole main_v54).slice (win2_5.rect t)).set ↔ _
  rw [View.set_slice_whole, Rect.mem_set_unit]
  exact Iff.rfl

/-- The ten blocks fill the output array: row `r` is written back by point `r / 5000`. -/
theorem covered2 (i : S50000x64.Idx) :
    ∃ t : Fin cfg2.N, (cfg2.win 5).flush t = true ∧ i ∈ ((cfg2.win 5).blk t).view.set := by
  have hi0 : (i 0).val < 50000 := (i 0).isLt
  have hi1 : (i 1).val < 64 := (i 1).isLt
  have ht : (i 0).val / 5000 < cfg2.N := by rw [show cfg2.N = 10 from N_2]; omega
  obtain ⟨-, -, -, -, -, -, -, -, -, -, e0, e1⟩ := blockIndex2 ⟨(i 0).val / 5000, ht⟩
  refine ⟨⟨(i 0).val / 5000, ht⟩, flush2_5 _, ?_⟩
  rw [mem_block2]
  intro a
  match a with
  | ⟨0, _⟩ =>
    show win2_5.index ⟨(i 0).val / 5000, ht⟩ (0 : Fin 2) * 5000 ≤ (i 0).val
      ∧ (i 0).val < win2_5.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win2_5.index ⟨(i 0).val / 5000, ht⟩ (1 : Fin 2) * 64 ≤ (i 1).val
      ∧ (i 1).val < win2_5.index ⟨(i 0).val / 5000, ht⟩ (1 : Fin 2) * 64 + 64
    rw [e1]; omega

/-- THE OUTPUT ARRAY after the stage's ten points: the dense block of the five arrays the stage found. -/
theorem final2 : (Gen.dat2 (F := Ideal) V c).arrAt 5 cfg2.N
    = Cert.Sage.dense Cert.Sage.relu (V c main_v52) (V c main_v40) (V c main_arg8) (V c main_arg10) (V c main_v53) :=
  (dat2 V c).arrAt_eq_of_cover 5 _ (fun t _ => written2 V c t) covered2

end Cert.KernelIdeal.DenseValue

end
-- ==== Proof.Dense3.lean ====
/-
  The fourth dense stage of the network, as ONE function of the arrays it finds.

  The stage runs over ten row blocks. At block `t` it reads rows `5000·t … 5000·t + 4999` of its two 50000 × 64 row
  arrays (`A`, the rows already scaled to means, and `H`, the nodes' own rows), all of the two 64 × 64 weight matrices
  `Wl`, `Wr` and of the 1 × 64 bias `B`, and writes the same rows of its 50000 × 64 output. Entry `(p, q)` of the block is

      max ( … , 0 )   of   Σ_k A(5000·t + p, k) · Wl(k, q)  +  Σ_k H(5000·t + p, k) · Wr(k, q)  +  B(0, q).

  On the extended reals the narrowing of the operands to the short float format before each product is the identity, and
  each product accumulates into zeros, so it is the plain sum over the 64 contraction positions; the bias row is
  repeated down the rows; the larger of that and `0.0` is the entry. Row `r` of the array lies in block `r / 5000`, and the ten blocks
  fill the array, so after the last write-back the output array is `Cert.Sage.dense` of the five arrays, entry by entry,
  whatever the arrays hold (nothing here asks for finite entries).
-/
import proofs.«143321_j22462678958404_1_alg».proof.Proof.Gen.KernelIdeal.Frame
import proofs.«143321_j22462678958404_1_alg».proof.Proof.Layer
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.DenseValue

open Cert.KernelIdeal Cert.KernelIdeal.Gen
open Idealize.ShloMosaic Idealize.ShloMosaic.TcCoe Idealize.ShloMosaic.ValueIdx Idealize.SL.Sem
open Idealize.ShloMosaic.Pipeline (Dat)

/-- The body reads and writes each of its buffers whole: from offset `(0, 0)`. -/
theorem noOffset3 : (![0, 0] : Fin 2 → Nat) = fun _ => 0 := funext fun a => by fin_cases a <;> rfl

/-! ## One product at an entry

The product of a 5000 × 64 block with a 64 × 64 matrix contracts the block's columns against the matrix's rows: at output
entry `(p, q)` and contraction position `k` the left factor is the block's entry `(p, k)`, the right factor the matrix's
entry `(k, q)`. -/

/-- The left factor sits in the output entry's row, -/
theorem dot3_lhs_row (i : S5000x64.Idx) (k : dot_S5000x64_S64x64_S5000x64_1_0_0_1_n_n.contr.Idx) :
    (dot_S5000x64_S64x64_S5000x64_1_0_0_1_n_n.lhsIdx i k 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
/-- at the column the contraction position names; -/
theorem dot3_lhs_col (i : S5000x64.Idx) (k : dot_S5000x64_S64x64_S5000x64_1_0_0_1_n_n.contr.Idx) :
    (dot_S5000x64_S64x64_S5000x64_1_0_0_1_n_n.lhsIdx i k 1).val = (k ⟨0, by decide⟩).val :=
  dot_S5000x64_S64x64_S5000x64_1_0_0_1_n_n.lhsIdx_val_of_single rfl i k
/-- the right factor sits in the row the contraction position names, -/
theorem dot3_rhs_row (i : S5000x64.Idx) (k : dot_S5000x64_S64x64_S5000x64_1_0_0_1_n_n.contr.Idx) :
    (dot_S5000x64_S64x64_S5000x64_1_0_0_1_n_n.rhsIdx i k 0).val = (k ⟨0, by decide⟩).val :=
  dot_S5000x64_S64x64_S5000x64_1_0_0_1_n_n.rhsIdx_val_of_single rfl i k
/-- at the output entry's column. -/
theorem dot3_rhs_col (i : S5000x64.Idx) (k : dot_S5000x64_S64x64_S5000x64_1_0_0_1_n_n.contr.Idx) :
    (dot_S5000x64_S64x64_S5000x64_1_0_0_1_n_n.rhsIdx i k 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- A product accumulated into zeros, at entry `(p, q)`: the sum over the 64 contraction positions of the left operand's
    row `p` against the right operand's column `q`. -/
theorem dot3_apply (l : FVec Ideal S5000x64 .bf16) (r : FVec Ideal S64x64 .bf16) (p : Fin 5000) (q : Fin 64) :
    matmul dot_S5000x64_S64x64_S5000x64_1_0_0_1_n_n none l r (constant S5000x64 .f32 0x00000000#32) (ix2 p q)
      = ∑ k : Fin 64, l (ix2 p k) * r (ix2 k q) := by
  refine (Ideal.matmul_constant_zero_apply dot_S5000x64_S64x64_S5000x64_1_0_0_1_n_n none l r (ix2 p q)).trans ?_
  rw [← Equiv.sum_comp (contrEquiv1 dot_S5000x64_S64x64_S5000x64_1_0_0_1_n_n 64 rfl rfl).symm]
  refine Finset.sum_congr rfl fun k _ => ?_
  have hk := contrEquiv1_symm_val dot_S5000x64_S64x64_S5000x64_1_0_0_1_n_n 64 rfl rfl k
  have el : dot_S5000x64_S64x64_S5000x64_1_0_0_1_n_n.lhsIdx (ix2 p q) ((contrEquiv1 dot_S5000x64_S64x64_S5000x64_1_0_0_1_n_n 64 rfl rfl).symm k) = ix2 p k := funext fun a => Fin.ext (by
    match a with
    | ⟨0, _⟩ => exact dot3_lhs_row _ _
    | ⟨1, _⟩ => exact (dot3_lhs_col _ _).trans hk)
  have er : dot_S5000x64_S64x64_S5000x64_1_0_0_1_n_n.rhsIdx (ix2 p q) ((contrEquiv1 dot_S5000x64_S64x64_S5000x64_1_0_0_1_n_n 64 rfl rfl).symm k) = ix2 k q := funext fun a => Fin.ext (by
    match a with
    | ⟨0, _⟩ => exact (dot3_rhs_row _ _).trans hk
    | ⟨1, _⟩ => exact dot3_rhs_col _ _)
  rw [el, er]

/-! ## The body at an entry -/

/-- What the body stores at entry `(p, q)` of its output block, from the five blocks it loaded: the two product sums,
    then the bias of column `q`, then the activation. The narrowing to the short format is the identity here. -/
theorem body3_apply (x0 x1 : FVec Ideal S5000x64 .f32) (x2 x3 : FVec Ideal S64x64 .f32) (x4 : FVec Ideal S1x64 .f32)
    (p : Fin 5000) (q : Fin 64) :
    k3_pay1 (F := Ideal) x0 x1 x2 x3 x4 (ix2 p q)
      = Cert.Sage.relu ((∑ k : Fin 64, x0 (ix2 p k) * x2 (ix2 k q) + ∑ k : Fin 64, x1 (ix2 p k) * x3 (ix2 k q))
          + x4 (ix2 (0 : Fin 1) q)) := by
  unfold k3_pay1
  simp only [shapeCast_self]
  show max ((matmul dot_S5000x64_S64x64_S5000x64_1_0_0_1_n_n none (truncf .bf16 x0 bitsLt_bf16_f32) (truncf .bf16 x2 bitsLt_bf16_f32) (constant S5000x64 .f32 0x00000000#32) (ix2 p q)
      + matmul dot_S5000x64_S64x64_S5000x64_1_0_0_1_n_n none (truncf .bf16 x1 bitsLt_bf16_f32) (truncf .bf16 x3 bitsLt_bf16_f32) (constant S5000x64 .f32 0x00000000#32) (ix2 p q))
      + broadcastTo S5000x64 x4 broadcasts_S1x64_S5000x64 (ix2 p q)) (Ideal.ofBits .f32 0x00000000#32) = _
  rw [dot3_apply, dot3_apply, broadcastTo_1b_ab_apply]
  rfl

/-- If the loaded blocks hold row `P` of the row arrays where they hold their own row `p`, and the weights and the bias as
    they are, the body's entry `(p, q)` is the dense block's entry `(P, q)`. -/
theorem body3_is_dense (A H : S50000x64.Idx → EReal) (Wl Wr : S64x64.Idx → EReal) (B : S1x64.Idx → EReal)
    (x0 x1 : FVec Ideal S5000x64 .f32) (x2 x3 : FVec Ideal S64x64 .f32) (x4 : FVec Ideal S1x64 .f32)
    (p : Fin 5000) (P : Fin 50000) (q : Fin 64)
    (h0 : ∀ k : Fin 64, x0 (ix2 p k) = A (ix2 P k)) (h1 : ∀ k : Fin 64, x1 (ix2 p k) = H (ix2 P k))
    (h2 : ∀ k : Fin 64, x2 (ix2 k q) = Wl (ix2 k q)) (h3 : ∀ k : Fin 64, x3 (ix2 k q) = Wr (ix2 k q))
    (h4 : x4 (ix2 (0 : Fin 1) q) = B (ix2 (0 : Fin 1) q)) :
    k3_pay1 (F := Ideal) x0 x1 x2 x3 x4 (ix2 p q) = Cert.Sage.dense Cert.Sage.relu A H Wl Wr B (ix2 P q) := by
  rw [body3_apply]
  show _ = Cert.Sage.relu (Cert.Sage.densePre A H Wl Wr B P q)
  unfold Cert.Sage.densePre
  rw [h4]
  refine congrArg Cert.Sage.relu (congrArg (· + B (ix2 (0 : Fin 1) q)) ?_)
  refine congrArg₂ (· + ·) (Finset.sum_congr rfl fun k _ => ?_) (Finset.sum_congr rfl fun k _ => ?_)
  · rw [h0 k, h2 k]
  · rw [h1 k, h3 k]

/-! ## The blocks of the ten points -/

variable (V : (c : Dev nD) → (b : Ref sig .tc) → Buf (Elt Ideal) ((c : Thread nD τ).loc b)) (c : Dev nD)

/-- Which block each operand moves at point `t`: the two row arrays and the output move row block `t`, the weights and the
    bias stay at their one block. -/
theorem blockIndex3 : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

/-- Row `p` of the first row array's block at point `t` is the array's row `5000·t + p`. -/
theorem scaledRows3 (t : Fin cfg3.N) (p : Fin 5000) (k : Fin 64) (P : Fin 50000) (hP : P.val = t.val * 5000 + p.val) :
    iblk3 V c 0 t (ix2 p k) = V c main_v66 (ix2 P k) := by
  obtain ⟨e0, e1, -⟩ := blockIndex3 t
  show V c main_v66 (((cfg3.win 0).blk t).view.emb (ix2 p k)) = V c main_v66 (ix2 P k)
  refine congrArg (V c main_v66) (funext fun a => Fin.ext ?_)
  match a with
  | ⟨0, _⟩ => show win3_0.index t (0 : Fin 2) * 5000 + 1 * p.val = P.val; rw [e0, hP]; omega
  | ⟨1, _⟩ => show win3_0.index t (1 : Fin 2) * 64 + 1 * k.val = k.val; rw [e1]; omega

/-- The same for the second row array. -/
theorem ownRows3 (t : Fin cfg3.N) (p : Fin 5000) (k : Fin 64) (P : Fin 50000) (hP : P.val = t.val * 5000 + p.val) :
    iblk3 V c 1 t (ix2 p k) = V c main_v54 (ix2 P k) := by
  obtain ⟨-, -, e0, e1, -⟩ := blockIndex3 t
  show V c main_v54 (((cfg3.win 1).blk t).view.emb (ix2 p k)) = V c main_v54 (ix2 P k)
  refine congrArg (V c main_v54) (funext fun a => Fin.ext ?_)
  match a with
  | ⟨0, _⟩ => show win3_1.index t (0 : Fin 2) * 5000 + 1 * p.val = P.val; rw [e0, hP]; omega
  | ⟨1, _⟩ => show win3_1.index t (1 : Fin 2) * 64 + 1 * k.val = k.val; rw [e1]; omega

/-- The first weight matrix's block is the matrix, at every point. -/
theorem leftWeights3 (t : Fin cfg3.N) (k : Fin 64) (q : Fin 64) :
    iblk3 V c 2 t (ix2 k q) = V c main_arg11 (ix2 k q) := by
  obtain ⟨-, -, -, -, e0, e1, -⟩ := blockIndex3 t
  show V c main_arg11 (((cfg3.win 2).blk t).view.emb (ix2 k q)) = V c main_arg11 (ix2 k q)
  refine congrArg (V c main_arg11) (funext fun a => Fin.ext ?_)
  match a with
  | ⟨0, _⟩ => show win3_2.index t (0 : Fin 2) * 64 + 1 * k.val = k.val; rw [e0]; omega
  | ⟨1, _⟩ => show win3_2.index t (1 : Fin 2) * 64 + 1 * q.val = q.val; rw [e1]; omega

/-- The second weight matrix's block is the matrix, at every point. -/
theorem rightWeights3 (t : Fin cfg3.N) (k : Fin 64) (q : Fin 64) :
    iblk3 V c 3 t (ix2 k q) = V c main_arg13 (ix2 k q) := by
  obtain ⟨-, -, -, -, -, -, e0, e1, -⟩ := blockIndex3 t
  show V c main_arg13 (((cfg3.win 3).blk t).view.emb (ix2 k q)) = V c main_arg13 (ix2 k q)
  refine congrArg (V c main_arg13) (funext fun a => Fin.ext ?_)
  match a with
  | ⟨0, _⟩ => show win3_3.index t (0 : Fin 2) * 64 + 1 * k.val = k.val; rw [e0]; omega
  | ⟨1, _⟩ => show win3_3.index t (1 : Fin 2) * 64 + 1 * q.val = q.val; rw [e1]; omega

/-- The bias block is the one-row bias, at every point. -/
theorem biasRow3 (t : Fin cfg3.N) (q : Fin 64) :
    iblk3 V c 4 t (ix2 (0 : Fin 1) q) = V c main_v67 (ix2 (0 : Fin 1) q) := by
  obtain ⟨-, -, -, -, -, -, -, -, e0, e1, -⟩ := blockIndex3 t
  show V c main_v67 (((cfg3.win 4).blk t).view.emb (ix2 (0 : Fin 1) q)) = V c main_v67 (ix2 (0 : Fin 1) q)
  refine congrArg (V c main_v67) (funext fun a => Fin.ext ?_)
  match a with
  | ⟨0, _⟩ => show win3_4.index t (0 : Fin 2) * 1 + 1 * 0 = 0; rw [e0]
  | ⟨1, _⟩ => show win3_4.index t (1 : Fin 2) * 64 + 1 * q.val = q.val; rw [e1]; omega

/-- WHAT POINT `t` WRITES BACK is rows `5000·t … 5000·t + 4999` of the dense block of the five arrays as the stage finds
    them: entry `(p, q)` of the written block is the dense block's entry `(5000·t + p, q)`. -/
theorem written3 (t : Fin cfg3.N) :
    (dat3 (F := Ideal) V c).flushed 5 t = ((cfg3.win 5).blk t).view.read (Elt Ideal)
      (Cert.Sage.dense Cert.Sage.relu (V c main_v66) (V c main_v54) (V c main_arg11) (V c main_arg13) (V c main_v67)) := by
  show (cfg3.win 5).cut (grid3.coords t) ((dat3 V c).after 5 t) = _
  rw [after3_5]
  unfold out3_5
  rw [View.canon_unit_zero noOffset3]
  simp only [View.ld_unit_zero (S := S5000x64) noOffset3, View.ld_unit_zero (S := S64x64) noOffset3, View.ld_unit_zero (S := S1x64) noOffset3]
  funext j
  have hj0 : (j 0).val < 5000 := (j 0).isLt
  have hj1 : (j 1).val < 64 := (j 1).isLt
  have hN : t.val < 10 := lt_of_lt_of_eq t.isLt N_3
  obtain ⟨-, -, -, -, -, -, -, -, -, -, e0, e1⟩ := blockIndex3 t
  have hL : (win3 5).xinj (grid3.coords t) j = ix2 (⟨(j 0).val, hj0⟩ : Fin 5000) (⟨(j 1).val, hj1⟩ : Fin 64) :=
    funext fun a => by match a with | ⟨0, _⟩ => rfl | ⟨1, _⟩ => rfl
  have hR : ((View.whole main_v68).slice ((win3 5).rect t)).emb j
      = ix2 (⟨t.val * 5000 + (j 0).val, by omega⟩ : Fin 50000) (⟨(j 1).val, hj1⟩ : Fin 64) :=
    funext fun a => Fin.ext (by
      match a with
      | ⟨0, _⟩ => show win3_5.index t (0 : Fin 2) * 5000 + 1 * (j 0).val = t.val * 5000 + (j 0).val; rw [e0]; omega
      | ⟨1, _⟩ => show win3_5.index t (1 : Fin 2) * 64 + 1 * (j 1).val = (j 1).val; rw [e1]; omega)
  show k3_pay1 (iblk3 V c 0 t) (iblk3 V c 1 t) (iblk3 V c 2 t) (iblk3 V c 3 t) (iblk3 V c 4 t) ((win3 5).xinj (grid3.coords t) j)
    = Cert.Sage.dense Cert.Sage.relu (V c main_v66) (V c main_v54) (V c main_arg11) (V c main_arg13) (V c main_v67)
        (((View.whole main_v68).slice ((win3 5).rect t)).emb j)
  rw [hL, hR]
  exact body3_is_dense (V c main_v66) (V c main_v54) (V c main_arg11) (V c main_arg13) (V c main_v67)
    (iblk3 V c 0 t) (iblk3 V c 1 t) (iblk3 V c 2 t) (iblk3 V c 3 t) (iblk3 V c 4 t) _ _ _
    (fun k => scaledRows3 V c t _ k _ rfl) (fun k => ownRows3 V c t _ k _ rfl)
    (fun k => leftWeights3 V c t k _) (fun k => rightWeights3 V c t k _) (biasRow3 V c t _)

/-- An entry of the output array is in point `t`'s block iff each coordinate is in the block's range on its axis. -/
theorem mem_block3 (t : Fin cfg3.N) (i : S50000x64.Idx) :
    i ∈ ((cfg3.win 5).blk t).view.set ↔ ∀ a : Fin 2, win3_5.index t a * S5000x64.size a ≤ (i a).val
      ∧ (i a).val < win3_5.index t a * S5000x64.size a + S5000x64.size a := by
  show i ∈ ((View.whole main_v68).slice (win3_5.rect t)).set ↔ _
  rw [View.set_slice_whole, Rect.mem_set_unit]
  exact Iff.rfl

/-- The ten blocks fill the output array: row `r` is written back by point `r / 5000`. -/
theorem covered3 (i : S50000x64.Idx) :
    ∃ t : Fin cfg3.N, (cfg3.win 5).flush t = true ∧ i ∈ ((cfg3.win 5).blk t).view.set := by
  have hi0 : (i 0).val < 50000 := (i 0).isLt
  have hi1 : (i 1).val < 64 := (i 1).isLt
  have ht : (i 0).val / 5000 < cfg3.N := by rw [show cfg3.N = 10 from N_3]; omega
  obtain ⟨-, -, -, -, -, -, -, -, -, -, e0, e1⟩ := blockIndex3 ⟨(i 0).val / 5000, ht⟩
  refine ⟨⟨(i 0).val / 5000, ht⟩, flush3_5 _, ?_⟩
  rw [mem_block3]
  intro a
  match a with
  | ⟨0, _⟩ =>
    show win3_5.index ⟨(i 0).val / 5000, ht⟩ (0 : Fin 2) * 5000 ≤ (i 0).val
      ∧ (i 0).val < win3_5.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win3_5.index ⟨(i 0).val / 5000, ht⟩ (1 : Fin 2) * 64 ≤ (i 1).val
      ∧ (i 1).val < win3_5.index ⟨(i 0).val / 5000, ht⟩ (1 : Fin 2) * 64 + 64
    rw [e1]; omega

/-- THE OUTPUT ARRAY after the stage's ten points: the dense block of the five arrays the stage found. -/
theorem final3 : (Gen.dat3 (F := Ideal) V c).arrAt 5 cfg3.N
    = Cert.Sage.dense Cert.Sage.relu (V c main_v66) (V c main_v54) (V c main_arg11) (V c main_arg13) (V c main_v67) :=
  (dat3 V c).arrAt_eq_of_cover 5 _ (fun t _ => written3 V c t) covered3

end Cert.KernelIdeal.DenseValue

end
-- ==== Proof.Dense4.lean ====
/-
  The fifth dense stage of the network, as ONE function of the arrays it finds.

  The stage runs over ten row blocks. At block `t` it reads rows `5000·t … 5000·t + 4999` of its two 50000 × 64 row
  arrays (`A`, the rows already scaled to means, and `H`, the nodes' own rows), all of the two 64 × 1 weight matrices
  `Wl`, `Wr` and of the 1 × 1 bias `B`, and writes the same rows of its 50000 × 1 output. Entry `(p, q)` of the block is

      1 / (1 + e^(-( … )))   of   Σ_k A(5000·t + p, k) · Wl(k, q)  +  Σ_k H(5000·t + p, k) · Wr(k, q)  +  B(0, q).

  On the extended reals the narrowing of the operands to the short float format before each product is the identity, and
  each product accumulates into zeros, so it is the plain sum over the 64 contraction positions; the bias row is
  repeated down the rows; the logistic function of that is the entry. Row `r` of the array lies in block `r / 5000`, and the ten blocks
  fill the array, so after the last write-back the output array is `Cert.Sage.dense` of the five arrays, entry by entry,
  whatever the arrays hold (nothing here asks for finite entries).
-/
import proofs.«143321_j22462678958404_1_alg».proof.Proof.Gen.KernelIdeal.Frame
import proofs.«143321_j22462678958404_1_alg».proof.Proof.Layer
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.DenseValue

open Cert.KernelIdeal Cert.KernelIdeal.Gen
open Idealize.ShloMosaic Idealize.ShloMosaic.TcCoe Idealize.ShloMosaic.ValueIdx Idealize.SL.Sem
open Idealize.ShloMosaic.Pipeline (Dat)

/-- The body reads and writes each of its buffers whole: from offset `(0, 0)`. -/
theorem noOffset4 : (![0, 0] : Fin 2 → Nat) = fun _ => 0 := funext fun a => by fin_cases a <;> rfl

/-! ## One product at an entry

The product of a 5000 × 64 block with a 64 × 1 matrix contracts the block's columns against the matrix's rows: at output
entry `(p, q)` and contraction position `k` the left factor is the block's entry `(p, k)`, the right factor the matrix's
entry `(k, q)`. -/

/-- The left factor sits in the output entry's row, -/
theorem dot4_lhs_row (i : S5000x1.Idx) (k : dot_S5000x64_S64x1_S5000x1_1_0_0_1_n_n.contr.Idx) :
    (dot_S5000x64_S64x1_S5000x1_1_0_0_1_n_n.lhsIdx i k 0).val = (i 0).val := by
  unfold DotDims.lhsIdx
  rw [dif_neg (show ¬(0 : Fin S5000x64.rank) ∈ dot_S5000x64_S64x1_S5000x1_1_0_0_1_n_n.lhsBatch by decide), dif_pos (show (0 : Fin S5000x64.rank) ∈ dot_S5000x64_S64x1_S5000x1_1_0_0_1_n_n.lhsNonContracting by decide)]
  rfl
/-- at the column the contraction position names; -/
theorem dot4_lhs_col (i : S5000x1.Idx) (k : dot_S5000x64_S64x1_S5000x1_1_0_0_1_n_n.contr.Idx) :
    (dot_S5000x64_S64x1_S5000x1_1_0_0_1_n_n.lhsIdx i k 1).val = (k ⟨0, by decide⟩).val :=
  dot_S5000x64_S64x1_S5000x1_1_0_0_1_n_n.lhsIdx_val_of_single rfl i k
/-- the right factor sits in the row the contraction position names, -/
theorem dot4_rhs_row (i : S5000x1.Idx) (k : dot_S5000x64_S64x1_S5000x1_1_0_0_1_n_n.contr.Idx) :
    (dot_S5000x64_S64x1_S5000x1_1_0_0_1_n_n.rhsIdx i k 0).val = (k ⟨0, by decide⟩).val :=
  dot_S5000x64_S64x1_S5000x1_1_0_0_1_n_n.rhsIdx_val_of_single rfl i k
/-- at the output entry's column. -/
theorem dot4_rhs_col (i : S5000x1.Idx) (k : dot_S5000x64_S64x1_S5000x1_1_0_0_1_n_n.contr.Idx) :
    (dot_S5000x64_S64x1_S5000x1_1_0_0_1_n_n.rhsIdx i k 1).val = (i 1).val := by
  unfold DotDims.rhsIdx
  rw [dif_neg (show ¬(1 : Fin S64x1.rank) ∈ dot_S5000x64_S64x1_S5000x1_1_0_0_1_n_n.rhsBatch by decide), dif_pos (show (1 : Fin S64x1.rank) ∈ dot_S5000x64_S64x1_S5000x1_1_0_0_1_n_n.rhsNonContracting by decide)]
  rfl

/-- A product accumulated into zeros, at entry `(p, q)`: the sum over the 64 contraction positions of the left operand's
    row `p` against the right operand's column `q`. -/
theorem dot4_apply (l : FVec Ideal S5000x64 .bf16) (r : FVec Ideal S64x1 .bf16) (p : Fin 5000) (q : Fin 1) :
    matmul dot_S5000x64_S64x1_S5000x1_1_0_0_1_n_n none l r (constant S5000x1 .f32 0x00000000#32) (ix2 p q)
      = ∑ k : Fin 64, l (ix2 p k) * r (ix2 k q) := by
  refine (Ideal.matmul_constant_zero_apply dot_S5000x64_S64x1_S5000x1_1_0_0_1_n_n none l r (ix2 p q)).trans ?_
  rw [← Equiv.sum_comp (contrEquiv1 dot_S5000x64_S64x1_S5000x1_1_0_0_1_n_n 64 rfl rfl).symm]
  refine Finset.sum_congr rfl fun k _ => ?_
  have hk := contrEquiv1_symm_val dot_S5000x64_S64x1_S5000x1_1_0_0_1_n_n 64 rfl rfl k
  have el : dot_S5000x64_S64x1_S5000x1_1_0_0_1_n_n.lhsIdx (ix2 p q) ((contrEquiv1 dot_S5000x64_S64x1_S5000x1_1_0_0_1_n_n 64 rfl rfl).symm k) = ix2 p k := funext fun a => Fin.ext (by
    match a with
    | ⟨0, _⟩ => exact dot4_lhs_row _ _
    | ⟨1, _⟩ => exact (dot4_lhs_col _ _).trans hk)
  have er : dot_S5000x64_S64x1_S5000x1_1_0_0_1_n_n.rhsIdx (ix2 p q) ((contrEquiv1 dot_S5000x64_S64x1_S5000x1_1_0_0_1_n_n 64 rfl rfl).symm k) = ix2 k q := funext fun a => Fin.ext (by
    match a with
    | ⟨0, _⟩ => exact (dot4_rhs_row _ _).trans hk
    | ⟨1, _⟩ => exact dot4_rhs_col _ _)
  rw [el, er]

/-! ## The body at an entry -/

/-- What the body stores at entry `(p, q)` of its output block, from the five blocks it loaded: the two product sums,
    then the bias of column `q`, then the activation. The narrowing to the short format is the identity here. -/
theorem body4_apply (x0 x1 : FVec Ideal S5000x64 .f32) (x2 x3 : FVec Ideal S64x1 .f32) (x4 : FVec Ideal S1x1 .f32)
    (p : Fin 5000) (q : Fin 1) :
    k4_pay1 (F := Ideal) x0 x1 x2 x3 x4 (ix2 p q)
      = Cert.Sage.sigm ((∑ k : Fin 64, x0 (ix2 p k) * x2 (ix2 k q) + ∑ k : Fin 64, x1 (ix2 p k) * x3 (ix2 k q))
          + x4 (ix2 (0 : Fin 1) q)) := by
  unfold k4_pay1
  simp only [shapeCast_self]
  show Ideal.logistic ((matmul dot_S5000x64_S64x1_S5000x1_1_0_0_1_n_n none (truncf .bf16 x0 bitsLt_bf16_f32) (truncf .bf16 x2 bitsLt_bf16_f32) (constant S5000x1 .f32 0x00000000#32) (ix2 p q)
      + matmul dot_S5000x64_S64x1_S5000x1_1_0_0_1_n_n none (truncf .bf16 x1 bitsLt_bf16_f32) (truncf .bf16 x3 bitsLt_bf16_f32) (constant S5000x1 .f32 0x00000000#32) (ix2 p q))
      + broadcastTo S5000x1 x4 broadcasts_S1x1_S5000x1 (ix2 p q)) = _
  rw [dot4_apply, dot4_apply, broadcastTo_1b_ab_apply]
  rfl

/-- If the loaded blocks hold row `P` of the row arrays where they hold their own row `p`, and the weights and the bias as
    they are, the body's entry `(p, q)` is the dense block's entry `(P, q)`. -/
theorem body4_is_dense (A H : S50000x64.Idx → EReal) (Wl Wr : S64x1.Idx → EReal) (B : S1x1.Idx → EReal)
    (x0 x1 : FVec Ideal S5000x64 .f32) (x2 x3 : FVec Ideal S64x1 .f32) (x4 : FVec Ideal S1x1 .f32)
    (p : Fin 5000) (P : Fin 50000) (q : Fin 1)
    (h0 : ∀ k : Fin 64, x0 (ix2 p k) = A (ix2 P k)) (h1 : ∀ k : Fin 64, x1 (ix2 p k) = H (ix2 P k))
    (h2 : ∀ k : Fin 64, x2 (ix2 k q) = Wl (ix2 k q)) (h3 : ∀ k : Fin 64, x3 (ix2 k q) = Wr (ix2 k q))
    (h4 : x4 (ix2 (0 : Fin 1) q) = B (ix2 (0 : Fin 1) q)) :
    k4_pay1 (F := Ideal) x0 x1 x2 x3 x4 (ix2 p q) = Cert.Sage.dense Cert.Sage.sigm A H Wl Wr B (ix2 P q) := by
  rw [body4_apply]
  show _ = Cert.Sage.sigm (Cert.Sage.densePre A H Wl Wr B P q)
  unfold Cert.Sage.densePre
  rw [h4]
  refine congrArg Cert.Sage.sigm (congrArg (· + B (ix2 (0 : Fin 1) q)) ?_)
  refine congrArg₂ (· + ·) (Finset.sum_congr rfl fun k _ => ?_) (Finset.sum_congr rfl fun k _ => ?_)
  · rw [h0 k, h2 k]
  · rw [h1 k, h3 k]

/-! ## The blocks of the ten points -/

variable (V : (c : Dev nD) → (b : Ref sig .tc) → Buf (Elt Ideal) ((c : Thread nD τ).loc b)) (c : Dev nD)

/-- Which block each operand moves at point `t`: the two row arrays and the output move row block `t`, the weights and the
    bias stay at their one block. -/
theorem blockIndex4 : ∀ t : Fin cfg4.N, win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = t.val ∧ win4_5.index t (1 : Fin 2) = 0 :=
  (by decide +kernel : ∀ t : Fin grid4.N, _)

/-- Row `p` of the first row array's block at point `t` is the array's row `5000·t + p`. -/
theorem scaledRows4 (t : Fin cfg4.N) (p : Fin 5000) (k : Fin 64) (P : Fin 50000) (hP : P.val = t.val * 5000 + p.val) :
    iblk4 V c 0 t (ix2 p k) = V c main_v80 (ix2 P k) := by
  obtain ⟨e0, e1, -⟩ := blockIndex4 t
  show V c main_v80 (((cfg4.win 0).blk t).view.emb (ix2 p k)) = V c main_v80 (ix2 P k)
  refine congrArg (V c main_v80) (funext fun a => Fin.ext ?_)
  match a with
  | ⟨0, _⟩ => show win4_0.index t (0 : Fin 2) * 5000 + 1 * p.val = P.val; rw [e0, hP]; omega
  | ⟨1, _⟩ => show win4_0.index t (1 : Fin 2) * 64 + 1 * k.val = k.val; rw [e1]; omega

/-- The same for the second row array. -/
theorem ownRows4 (t : Fin cfg4.N) (p : Fin 5000) (k : Fin 64) (P : Fin 50000) (hP : P.val = t.val * 5000 + p.val) :
    iblk4 V c 1 t (ix2 p k) = V c main_v68 (ix2 P k) := by
  obtain ⟨-, -, e0, e1, -⟩ := blockIndex4 t
  show V c main_v68 (((cfg4.win 1).blk t).view.emb (ix2 p k)) = V c main_v68 (ix2 P k)
  refine congrArg (V c main_v68) (funext fun a => Fin.ext ?_)
  match a with
  | ⟨0, _⟩ => show win4_1.index t (0 : Fin 2) * 5000 + 1 * p.val = P.val; rw [e0, hP]; omega
  | ⟨1, _⟩ => show win4_1.index t (1 : Fin 2) * 64 + 1 * k.val = k.val; rw [e1]; omega

/-- The first weight matrix's block is the matrix, at every point. -/
theorem leftWeights4 (t : Fin cfg4.N) (k : Fin 64) (q : Fin 1) :
    iblk4 V c 2 t (ix2 k q) = V c main_arg14 (ix2 k q) := by
  obtain ⟨-, -, -, -, e0, e1, -⟩ := blockIndex4 t
  show V c main_arg14 (((cfg4.win 2).blk t).view.emb (ix2 k q)) = V c main_arg14 (ix2 k q)
  refine congrArg (V c main_arg14) (funext fun a => Fin.ext ?_)
  match a with
  | ⟨0, _⟩ => show win4_2.index t (0 : Fin 2) * 64 + 1 * k.val = k.val; rw [e0]; omega
  | ⟨1, _⟩ => show win4_2.index t (1 : Fin 2) * 1 + 1 * q.val = q.val; rw [e1]; omega

/-- The second weight matrix's block is the matrix, at every point. -/
theorem rightWeights4 (t : Fin cfg4.N) (k : Fin 64) (q : Fin 1) :
    iblk4 V c 3 t (ix2 k q) = V c main_arg16 (ix2 k q) := by
  obtain ⟨-, -, -, -, -, -, e0, e1, -⟩ := blockIndex4 t
  show V c main_arg16 (((cfg4.win 3).blk t).view.emb (ix2 k q)) = V c main_arg16 (ix2 k q)
  refine congrArg (V c main_arg16) (funext fun a => Fin.ext ?_)
  match a with
  | ⟨0, _⟩ => show win4_3.index t (0 : Fin 2) * 64 + 1 * k.val = k.val; rw [e0]; omega
  | ⟨1, _⟩ => show win4_3.index t (1 : Fin 2) * 1 + 1 * q.val = q.val; rw [e1]; omega

/-- The bias block is the one-row bias, at every point. -/
theorem biasRow4 (t : Fin cfg4.N) (q : Fin 1) :
    iblk4 V c 4 t (ix2 (0 : Fin 1) q) = V c main_v81 (ix2 (0 : Fin 1) q) := by
  obtain ⟨-, -, -, -, -, -, -, -, e0, e1, -⟩ := blockIndex4 t
  show V c main_v81 (((cfg4.win 4).blk t).view.emb (ix2 (0 : Fin 1) q)) = V c main_v81 (ix2 (0 : Fin 1) q)
  refine congrArg (V c main_v81) (funext fun a => Fin.ext ?_)
  match a with
  | ⟨0, _⟩ => show win4_4.index t (0 : Fin 2) * 1 + 1 * 0 = 0; rw [e0]
  | ⟨1, _⟩ => show win4_4.index t (1 : Fin 2) * 1 + 1 * q.val = q.val; rw [e1]; omega

/-- WHAT POINT `t` WRITES BACK is rows `5000·t … 5000·t + 4999` of the dense block of the five arrays as the stage finds
    them: entry `(p, q)` of the written block is the dense block's entry `(5000·t + p, q)`. -/
theorem written4 (t : Fin cfg4.N) :
    (dat4 (F := Ideal) V c).flushed 5 t = ((cfg4.win 5).blk t).view.read (Elt Ideal)
      (Cert.Sage.dense Cert.Sage.sigm (V c main_v80) (V c main_v68) (V c main_arg14) (V c main_arg16) (V c main_v81)) := by
  show (cfg4.win 5).cut (grid4.coords t) ((dat4 V c).after 5 t) = _
  rw [after4_5]
  unfold out4_5
  rw [View.canon_unit_zero noOffset4]
  simp only [View.ld_unit_zero (S := S5000x64) noOffset4, View.ld_unit_zero (S := S64x1) noOffset4, View.ld_unit_zero (S := S1x1) noOffset4]
  funext j
  have hj0 : (j 0).val < 5000 := (j 0).isLt
  have hj1 : (j 1).val < 1 := (j 1).isLt
  have hN : t.val < 10 := lt_of_lt_of_eq t.isLt N_4
  obtain ⟨-, -, -, -, -, -, -, -, -, -, e0, e1⟩ := blockIndex4 t
  have hL : (win4 5).xinj (grid4.coords t) j = ix2 (⟨(j 0).val, hj0⟩ : Fin 5000) (⟨(j 1).val, hj1⟩ : Fin 1) :=
    funext fun a => by match a with | ⟨0, _⟩ => rfl | ⟨1, _⟩ => rfl
  have hR : ((View.whole main_v82).slice ((win4 5).rect t)).emb j
      = ix2 (⟨t.val * 5000 + (j 0).val, by omega⟩ : Fin 50000) (⟨(j 1).val, hj1⟩ : Fin 1) :=
    funext fun a => Fin.ext (by
      match a with
      | ⟨0, _⟩ => show win4_5.index t (0 : Fin 2) * 5000 + 1 * (j 0).val = t.val * 5000 + (j 0).val; rw [e0]; omega
      | ⟨1, _⟩ => show win4_5.index t (1 : Fin 2) * 1 + 1 * (j 1).val = (j 1).val; rw [e1]; omega)
  show k4_pay1 (iblk4 V c 0 t) (iblk4 V c 1 t) (iblk4 V c 2 t) (iblk4 V c 3 t) (iblk4 V c 4 t) ((win4 5).xinj (grid4.coords t) j)
    = Cert.Sage.dense Cert.Sage.sigm (V c main_v80) (V c main_v68) (V c main_arg14) (V c main_arg16) (V c main_v81)
        (((View.whole main_v82).slice ((win4 5).rect t)).emb j)
  rw [hL, hR]
  exact body4_is_dense (V c main_v80) (V c main_v68) (V c main_arg14) (V c main_arg16) (V c main_v81)
    (iblk4 V c 0 t) (iblk4 V c 1 t) (iblk4 V c 2 t) (iblk4 V c 3 t) (iblk4 V c 4 t) _ _ _
    (fun k => scaledRows4 V c t _ k _ rfl) (fun k => ownRows4 V c t _ k _ rfl)
    (fun k => leftWeights4 V c t k _) (fun k => rightWeights4 V c t k _) (biasRow4 V c t _)

/-- An entry of the output array is in point `t`'s block iff each coordinate is in the block's range on its axis. -/
theorem mem_block4 (t : Fin cfg4.N) (i : S50000x1.Idx) :
    i ∈ ((cfg4.win 5).blk t).view.set ↔ ∀ a : Fin 2, win4_5.index t a * S5000x1.size a ≤ (i a).val
      ∧ (i a).val < win4_5.index t a * S5000x1.size a + S5000x1.size a := by
  show i ∈ ((View.whole main_v82).slice (win4_5.rect t)).set ↔ _
  rw [View.set_slice_whole, Rect.mem_set_unit]
  exact Iff.rfl

/-- The ten blocks fill the output array: row `r` is written back by point `r / 5000`. -/
theorem covered4 (i : S50000x1.Idx) :
    ∃ t : Fin cfg4.N, (cfg4.win 5).flush t = true ∧ i ∈ ((cfg4.win 5).blk t).view.set := by
  have hi0 : (i 0).val < 50000 := (i 0).isLt
  have hi1 : (i 1).val < 1 := (i 1).isLt
  have ht : (i 0).val / 5000 < cfg4.N := by rw [show cfg4.N = 10 from N_4]; omega
  obtain ⟨-, -, -, -, -, -, -, -, -, -, e0, e1⟩ := blockIndex4 ⟨(i 0).val / 5000, ht⟩
  refine ⟨⟨(i 0).val / 5000, ht⟩, flush4_5 _, ?_⟩
  rw [mem_block4]
  intro a
  match a with
  | ⟨0, _⟩ =>
    show win4_5.index ⟨(i 0).val / 5000, ht⟩ (0 : Fin 2) * 5000 ≤ (i 0).val
      ∧ (i 0).val < win4_5.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win4_5.index ⟨(i 0).val / 5000, ht⟩ (1 : Fin 2) * 1 ≤ (i 1).val
      ∧ (i 1).val < win4_5.index ⟨(i 0).val / 5000, ht⟩ (1 : Fin 2) * 1 + 1
    rw [e1]; omega

/-- THE OUTPUT ARRAY after the stage's ten points: the dense block of the five arrays the stage found. -/
theorem final4 : (Gen.dat4 (F := Ideal) V c).arrAt 5 cfg4.N
    = Cert.Sage.dense Cert.Sage.sigm (V c main_v80) (V c main_v68) (V c main_arg14) (V c main_arg16) (V c main_v81) :=
  (dat4 V c).arrAt_eq_of_cover 5 _ (fun t _ => written4 V c t) covered4

end Cert.KernelIdeal.DenseValue

end
-- ==== Proof.FoldValue.lean ====
/-
  The program's result as five layers of the launch memory.

  Write `src`, `dst` for the edges' source and destination nodes (the two rows of the edge list) and `deg` for the
  in-degrees (`degree dst`). The first dense stage's output array is the first layer of the node features; each later
  stage's output array is the next layer of the previous stage's output; the last stage's output, under the logistic
  function, is the program's result. Each step has the same four parts: the stage's output array is the dense block of
  the five arrays it finds (the stage read as one function); the stretch before it left there the scaled neighbour sums
  of the previous output and the bias as a row; the index buffers, weights and biases it reads still hold what the
  first stretch, or the launch, left; and a dense block of rows scaled by `1 / max deg 1` is the layer
  (`Cert.Sage.dense_eq_layer`).
-/
import proofs.«143321_j22462678958404_1_alg».proof.Proof.FoldHost
import proofs.«143321_j22462678958404_1_alg».proof.Proof.PiecesRead
import proofs.«143321_j22462678958404_1_alg».proof.Proof.Dense0
import proofs.«143321_j22462678958404_1_alg».proof.Proof.Dense1
import proofs.«143321_j22462678958404_1_alg».proof.Proof.Dense2
import proofs.«143321_j22462678958404_1_alg».proof.Proof.Dense3
import proofs.«143321_j22462678958404_1_alg».proof.Proof.Dense4

set_option maxRecDepth 16384

noncomputable section

namespace Cert.KernelIdeal.Fold

open Cert.KernelIdeal Cert.KernelIdeal.Gen Cert.KernelIdeal.Pieces
open Idealize.ShloMosaic Idealize.ShloMosaic.TcCoe Idealize.SL.Sem

variable (m : (ℓ : Loc nD τ sig) → Buf (Elt Ideal) ℓ) (ρ : Dev nD → PrngReg)

/-- The edges' source nodes, from the launch memory. -/
abbrev src (c : Dev nD) : (⟨S800000, .i32⟩ : BufTy).Contents (Elt Ideal) := rows (m ((c : Thread nD τ).loc main_arg1))
/-- The edges' destination nodes. -/
abbrev dst (c : Dev nD) : (⟨S800000, .i32⟩ : BufTy).Contents (Elt Ideal) := cols (m ((c : Thread nD τ).loc main_arg1))

/-- The first layer: of the node features. -/
def out1 (c : Dev nD) : (⟨S50000x64, .f32⟩ : BufTy).Contents (Elt Ideal) :=
  Cert.Sage.layer Cert.Sage.relu (nbrSum13 (src m c) (dst m c) (m ((c : Thread nD τ).loc main_arg0))) (m ((c : Thread nD τ).loc main_arg0))
    (degree (dst m c)) (m ((c : Thread nD τ).loc main_arg2)) (m ((c : Thread nD τ).loc main_arg4)) (m ((c : Thread nD τ).loc main_arg3))
/-- The second layer: of the first. -/
def out2 (c : Dev nD) : (⟨S50000x64, .f32⟩ : BufTy).Contents (Elt Ideal) :=
  Cert.Sage.layer Cert.Sage.relu (nbrSum64 (src m c) (dst m c) (out1 m c)) (out1 m c)
    (degree (dst m c)) (m ((c : Thread nD τ).loc main_arg5)) (m ((c : Thread nD τ).loc main_arg7)) (m ((c : Thread nD τ).loc main_arg6))
/-- The third layer. -/
def out3 (c : Dev nD) : (⟨S50000x64, .f32⟩ : BufTy).Contents (Elt Ideal) :=
  Cert.Sage.layer Cert.Sage.relu (nbrSum64 (src m c) (dst m c) (out2 m c)) (out2 m c)
    (degree (dst m c)) (m ((c : Thread nD τ).loc main_arg8)) (m ((c : Thread nD τ).loc main_arg10)) (m ((c : Thread nD τ).loc main_arg9))
/-- The fourth layer. -/
def out4 (c : Dev nD) : (⟨S50000x64, .f32⟩ : BufTy).Contents (Elt Ideal) :=
  Cert.Sage.layer Cert.Sage.relu (nbrSum64 (src m c) (dst m c) (out3 m c)) (out3 m c)
    (degree (dst m c)) (m ((c : Thread nD τ).loc main_arg11)) (m ((c : Thread nD τ).loc main_arg13)) (m ((c : Thread nD τ).loc main_arg12))
/-- The last layer, one feature per node, under the logistic function: the result. -/
def out5 (c : Dev nD) : (⟨S50000x1, .f32⟩ : BufTy).Contents (Elt Ideal) :=
  Cert.Sage.layer Cert.Sage.sigm (nbrSum64 (src m c) (dst m c) (out4 m c)) (out4 m c)
    (degree (dst m c)) (m ((c : Thread nD τ).loc main_arg14)) (m ((c : Thread nD τ).loc main_arg16)) (m ((c : Thread nD τ).loc main_arg15))

/-- After the first stage its output array holds the first layer. -/
theorem after_stage0 (c : Dev nD) : W2 m ρ c (Proc.devRef .tc main_v26) = out1 m c :=
  calc W2 m ρ c (Proc.devRef .tc main_v26)
    _ = (dat0 (V1 m ρ) c).arrAt 5 cfg0.N := W2_arr m ρ c 5
    _ = Cert.Sage.dense Cert.Sage.relu (W1 m ρ c (Proc.devRef .tc main_v24)) (W1 m ρ c (Proc.devRef .tc main_arg0))
          (W1 m ρ c (Proc.devRef .tc main_arg2)) (W1 m ρ c (Proc.devRef .tc main_arg4))
          (W1 m ρ c (Proc.devRef .tc main_v25)) := DenseValue.final0 (V1 m ρ) c
    _ = Cert.Sage.dense Cert.Sage.relu (scaled13 (nbrSum13 (src m c) (dst m c) (m ((c : Thread nD τ).loc main_arg0))) (recipCol (dst m c)))
          (m ((c : Thread nD τ).loc main_arg0)) (m ((c : Thread nD τ).loc main_arg2)) (m ((c : Thread nD τ).loc main_arg4)) (biasRow64 (m ((c : Thread nD τ).loc main_arg3))) := by
        rw [first_scaled, first_bias, first_args m ρ c main_arg0 (by decide), first_args m ρ c main_arg2 (by decide),
          first_args m ρ c main_arg4 (by decide)]
    _ = out1 m c := Cert.Sage.dense_eq_layer Cert.Sage.relu _ (nbrSum13 (src m c) (dst m c) (m ((c : Thread nD τ).loc main_arg0))) _
          (degree (dst m c)) _ _ _ (m ((c : Thread nD τ).loc main_arg3)) (scaled13_apply _ (dst m c)) (biasRow64_apply _)

/-- THE STEP, once: an array that is the dense block of five operands, the first of which holds the scaled neighbour sums
    of `H`, the second `H` itself, the next two the weights and the last the bias as a row, is the layer of `H`. -/
theorem step64 (act : EReal → EReal) {co : Nat}
    (X : (⟨2, ![50000, co]⟩ : Shape).Idx → EReal)
    (A Hw : (⟨S50000x64, .f32⟩ : BufTy).Contents (Elt Ideal))
    (Wlw Wrw : (⟨2, ![64, co]⟩ : Shape).Idx → EReal) (Bw : (⟨2, ![1, co]⟩ : Shape).Idx → EReal)
    (s d : (⟨S800000, .i32⟩ : BufTy).Contents (Elt Ideal)) (H : (⟨S50000x64, .f32⟩ : BufTy).Contents (Elt Ideal))
    (Wl Wr : (⟨2, ![64, co]⟩ : Shape).Idx → EReal) (b : (⟨1, ![co]⟩ : Shape).Idx → EReal)
    (hX : X = Cert.Sage.dense act A Hw Wlw Wrw Bw)
    (hA : A = scaled64 (nbrSum64 s d H) (recipCol d))
    (hH : Hw = H) (hWl : Wlw = Wl) (hWr : Wrw = Wr)
    (hB : ∀ q : Fin co, Bw (ValueIdx.ix2 (0 : Fin 1) q) = b (ValueIdx.ix1 q)) :
    X = Cert.Sage.layer act (nbrSum64 s d H) H (degree d) Wl Wr b := by
  subst hA hH hWl hWr
  rw [hX]
  exact Cert.Sage.dense_eq_layer act _ (nbrSum64 s d Hw) Hw (degree d) Wlw Wrw Bw b (scaled64_apply _ d) hB

/-- After the second stage its output array holds the second layer. -/
theorem after_stage1 (c : Dev nD) : W4 m ρ c (Proc.devRef .tc main_v40) = out2 m c :=
  step64 Cert.Sage.relu _ _ _ _ _ _ (src m c) (dst m c) (out1 m c) _ _ (m ((c : Thread nD τ).loc main_arg6))
    ((W4_arr m ρ c 5).trans (DenseValue.final1 (V3 m ρ) c))
    (by show W3 m ρ c (Proc.devRef .tc main_v38) = _
        rw [stretch1_scaled, at2 m ρ c main_v1 (by decide), at2 m ρ c main_v3 (by decide), at2 m ρ c main_v12 (by decide),
          first_rows, first_cols, first_recip, after_stage0])
    ((stretch1_prev m ρ c).trans (after_stage0 m ρ c))
    ((at3 m ρ c main_arg5 (by decide)).trans (first_args m ρ c main_arg5 (by decide)))
    ((at3 m ρ c main_arg7 (by decide)).trans (first_args m ρ c main_arg7 (by decide)))
    (fun q => by
      show W3 m ρ c (Proc.devRef .tc main_v39) (ValueIdx.ix2 (0 : Fin 1) q) = _
      rw [stretch1_bias, at2 m ρ c main_arg6 (by decide), first_args m ρ c main_arg6 (by decide)]
      exact biasRow64_apply _ q)

/-- After the third stage, the third layer. -/
theorem after_stage2 (c : Dev nD) : W6 m ρ c (Proc.devRef .tc main_v54) = out3 m c :=
  step64 Cert.Sage.relu _ _ _ _ _ _ (src m c) (dst m c) (out2 m c) _ _ (m ((c : Thread nD τ).loc main_arg9))
    ((W6_arr m ρ c 5).trans (DenseValue.final2 (V5 m ρ) c))
    (by show W5 m ρ c (Proc.devRef .tc main_v52) = _
        rw [stretch2_scaled, at4 m ρ c main_v1 (by decide), at4 m ρ c main_v3 (by decide), at4 m ρ c main_v12 (by decide),
          first_rows, first_cols, first_recip, after_stage1])
    ((stretch2_prev m ρ c).trans (after_stage1 m ρ c))
    ((at5 m ρ c main_arg8 (by decide)).trans (first_args m ρ c main_arg8 (by decide)))
    ((at5 m ρ c main_arg10 (by decide)).trans (first_args m ρ c main_arg10 (by decide)))
    (fun q => by
      show W5 m ρ c (Proc.devRef .tc main_v53) (ValueIdx.ix2 (0 : Fin 1) q) = _
      rw [stretch2_bias, at4 m ρ c main_arg9 (by decide), first_args m ρ c main_arg9 (by decide)]
      exact biasRow64_apply _ q)

/-- After the fourth stage, the fourth layer. -/
theorem after_stage3 (c : Dev nD) : W8 m ρ c (Proc.devRef .tc main_v68) = out4 m c :=
  step64 Cert.Sage.relu _ _ _ _ _ _ (src m c) (dst m c) (out3 m c) _ _ (m ((c : Thread nD τ).loc main_arg12))
    ((W8_arr m ρ c 5).trans (DenseValue.final3 (V7 m ρ) c))
    (by show W7 m ρ c (Proc.devRef .tc main_v66) = _
        rw [stretch3_scaled, at6 m ρ c main_v1 (by decide), at6 m ρ c main_v3 (by decide), at6 m ρ c main_v12 (by decide),
          first_rows, first_cols, first_recip, after_stage2])
    ((stretch3_prev m ρ c).trans (after_stage2 m ρ c))
    ((at7 m ρ c main_arg11 (by decide)).trans (first_args m ρ c main_arg11 (by decide)))
    ((at7 m ρ c main_arg13 (by decide)).trans (first_args m ρ c main_arg13 (by decide)))
    (fun q => by
      show W7 m ρ c (Proc.devRef .tc main_v67) (ValueIdx.ix2 (0 : Fin 1) q) = _
      rw [stretch3_bias, at6 m ρ c main_arg12 (by decide), first_args m ρ c main_arg12 (by decide)]
      exact biasRow64_apply _ q)

/-- After the last stage, the fifth layer: one feature per node, under the logistic function. -/
theorem after_stage4 (c : Dev nD) : W10 m ρ c (Proc.devRef .tc main_v82) = out5 m c :=
  step64 Cert.Sage.sigm _ _ _ _ _ _ (src m c) (dst m c) (out4 m c) _ _ (m ((c : Thread nD τ).loc main_arg15))
    ((W10_arr m ρ c 5).trans (DenseValue.final4 (V9 m ρ) c))
    (by show W9 m ρ c (Proc.devRef .tc main_v80) = _
        rw [stretch4_scaled, at8 m ρ c main_v1 (by decide), at8 m ρ c main_v3 (by decide), at8 m ρ c main_v12 (by decide),
          first_rows, first_cols, first_recip, after_stage3])
    ((stretch4_prev m ρ c).trans (after_stage3 m ρ c))
    ((at9 m ρ c main_arg14 (by decide)).trans (first_args m ρ c main_arg14 (by decide)))
    ((at9 m ρ c main_arg16 (by decide)).trans (first_args m ρ c main_arg16 (by decide)))
    (fun q => by
      show W9 m ρ c (Proc.devRef .tc main_v81) (ValueIdx.ix2 (0 : Fin 1) q) = _
      rw [stretch4_bias, at8 m ρ c main_arg15 (by decide), first_args m ρ c main_arg15 (by decide)]
      exact biasRow1_apply _ q)

/-- THE RESULT: the end of the fold of the buffers' contents, read at the last stage's output array, is the fifth
    layer of the launch memory. -/
theorem result_value (c : Dev nD) : W10 m ρ c (Proc.devRef .tc main_v82) = out5 m c := after_stage4 m ρ c

end Cert.KernelIdeal.Fold

end
-- ==== Proof.StageBridge.lean ====
/-
  The reference's neighbour sums and in-degrees are the kernel program's own.

  Both programs prepare a layer's input on the host in the same way: the edge list is cut into its row of source nodes
  and its row of destination nodes; a negative source is counted from the end; the source nodes' feature rows are
  gathered, one per edge, and added up at the destination nodes onto zeros; and ones are added up at the destination
  nodes to count the arriving edges. Each program states these operations over its own copy of the shapes and of the
  gather's and the scatter's dimension numbers. The copies hold the same numbers, so stage by stage the two terms are
  one term: nothing is read at an index, and neither the gather nor the scatter-add is opened.
-/
import proofs.«143321_j22462678958404_1_alg».proof.Proof.Gen.ReferenceIdeal.Read
import proofs.«143321_j22462678958404_1_alg».proof.Proof.HostPieces

noncomputable section

namespace Cert.ReferenceIdeal.RefValue

open Cert.ReferenceIdeal Idealize.ShloMosaic

/-! The two programs' copies of the dimension numbers agree. -/

theorem gather13_eq : Cert.ReferenceIdeal.gather_S50000x13_S800000x1_S800000x13_1_0_n_n_0_1_113
    = Cert.KernelIdeal.gather_S50000x13_S800000x1_S800000x13_1_0_n_n_0_1_113 := rfl
theorem scatter13_eq : Cert.ReferenceIdeal.scatter_S50000x13_S800000x1_S800000x13_1_0_0_1
    = Cert.KernelIdeal.scatter_S50000x13_S800000x1_S800000x13_1_0_0_1 := rfl
theorem gather64_eq : Cert.ReferenceIdeal.gather_S50000x64_S800000x1_S800000x64_1_0_n_n_0_1_164
    = Cert.KernelIdeal.gather_S50000x64_S800000x1_S800000x64_1_0_n_n_0_1_164 := rfl
theorem scatter64_eq : Cert.ReferenceIdeal.scatter_S50000x64_S800000x1_S800000x64_1_0_0_1
    = Cert.KernelIdeal.scatter_S50000x64_S800000x1_S800000x64_1_0_0_1 := rfl
theorem scatter1_eq : Cert.ReferenceIdeal.scatter_S50000_S800000x1_S800000_n_0_0_1
    = Cert.KernelIdeal.scatter_S50000_S800000x1_S800000_n_0_0_1 := rfl

/-! The neighbour sums, layer by layer: the features summed are the previous layer's result. -/

theorem sums0 (x0 : (⟨S50000x13, .f32⟩ : BufTy).Contents (Elt Ideal)) (x1 : (⟨S2x800000, .i32⟩ : BufTy).Contents (Elt Ideal)) :
    Read.val_main_v13 (F := Ideal) x0 x1 = Cert.KernelIdeal.Pieces.nbrSum13 (Cert.KernelIdeal.Pieces.rows x1) (Cert.KernelIdeal.Pieces.cols x1) x0 := by
  unfold Read.val_main_v13 Read.val_main_v10 Read.val_main_v9 Read.val_main_v8 Read.val_main_v7 Read.val_main_v6 Read.val_main_c_0 Read.val_main_v5 Read.val_main_v4 Read.val_main_c Read.val_main_v1 Read.val_main_v0 Read.val_main_v12 Read.val_main_v3 Read.val_main_v2 Read.val_main_v11 Read.val_main_cst
  unfold Cert.KernelIdeal.Pieces.nbrSum13 Cert.KernelIdeal.Pieces.colIdx Cert.KernelIdeal.Pieces.wrapRows Cert.KernelIdeal.Pieces.rows Cert.KernelIdeal.Pieces.cols
  rw [gather13_eq, scatter13_eq]

theorem sums1 (x0 : (⟨S50000x13, .f32⟩ : BufTy).Contents (Elt Ideal)) (x1 : (⟨S2x800000, .i32⟩ : BufTy).Contents (Elt Ideal)) (x2 : (⟨S13x64, .f32⟩ : BufTy).Contents (Elt Ideal)) (x3 : (⟨S64, .f32⟩ : BufTy).Contents (Elt Ideal)) (x4 : (⟨S13x64, .f32⟩ : BufTy).Contents (Elt Ideal)) :
    Read.val_main_v39 (F := Ideal) x0 x1 x2 x3 x4 = Cert.KernelIdeal.Pieces.nbrSum64 (Cert.KernelIdeal.Pieces.rows x1) (Cert.KernelIdeal.Pieces.cols x1) (Read.val_main_v29 (F := Ideal) x0 x1 x2 x3 x4) := by
  unfold Read.val_main_v39 Read.val_main_v36 Read.val_main_v35 Read.val_main_v34 Read.val_main_v33 Read.val_main_v32 Read.val_main_c_5 Read.val_main_v31 Read.val_main_v30 Read.val_main_c_4 Read.val_main_v1 Read.val_main_v0 Read.val_main_v38 Read.val_main_v3 Read.val_main_v2 Read.val_main_v37 Read.val_main_cst_6
  unfold Cert.KernelIdeal.Pieces.nbrSum64 Cert.KernelIdeal.Pieces.colIdx Cert.KernelIdeal.Pieces.wrapRows Cert.KernelIdeal.Pieces.rows Cert.KernelIdeal.Pieces.cols
  rw [gather64_eq, scatter64_eq]

theorem sums2 (x0 : (⟨S50000x13, .f32⟩ : BufTy).Contents (Elt Ideal)) (x1 : (⟨S2x800000, .i32⟩ : BufTy).Contents (Elt Ideal)) (x2 : (⟨S13x64, .f32⟩ : BufTy).Contents (Elt Ideal)) (x3 : (⟨S64, .f32⟩ : BufTy).Contents (Elt Ideal)) (x4 : (⟨S13x64, .f32⟩ : BufTy).Contents (Elt Ideal)) (x5 : (⟨S64x64, .f32⟩ : BufTy).Contents (Elt Ideal)) (x6 : (⟨S64, .f32⟩ : BufTy).Contents (Elt Ideal)) (x7 : (⟨S64x64, .f32⟩ : BufTy).Contents (Elt Ideal)) :
    Read.val_main_v65 (F := Ideal) x0 x1 x2 x3 x4 x5 x6 x7 = Cert.KernelIdeal.Pieces.nbrSum64 (Cert.KernelIdeal.Pieces.rows x1) (Cert.KernelIdeal.Pieces.cols x1) (Read.val_main_v55 (F := Ideal) x0 x1 x2 x3 x4 x5 x6 x7) := by
  unfold Read.val_main_v65 Read.val_main_v62 Read.val_main_v61 Read.val_main_v60 Read.val_main_v59 Read.val_main_v58 Read.val_main_c_11 Read.val_main_v57 Read.val_main_v56 Read.val_main_c_10 Read.val_main_v1 Read.val_main_v0 Read.val_main_v64 Read.val_main_v3 Read.val_main_v2 Read.val_main_v63 Read.val_main_cst_12
  unfold Cert.KernelIdeal.Pieces.nbrSum64 Cert.KernelIdeal.Pieces.colIdx Cert.KernelIdeal.Pieces.wrapRows Cert.KernelIdeal.Pieces.rows Cert.KernelIdeal.Pieces.cols
  rw [gather64_eq, scatter64_eq]

theorem sums3 (x0 : (⟨S50000x13, .f32⟩ : BufTy).Contents (Elt Ideal)) (x1 : (⟨S2x800000, .i32⟩ : BufTy).Contents (Elt Ideal)) (x2 : (⟨S13x64, .f32⟩ : BufTy).Contents (Elt Ideal)) (x3 : (⟨S64, .f32⟩ : BufTy).Contents (Elt Ideal)) (x4 : (⟨S13x64, .f32⟩ : BufTy).Contents (Elt Ideal)) (x5 : (⟨S64x64, .f32⟩ : BufTy).Contents (Elt Ideal)) (x6 : (⟨S64, .f32⟩ : BufTy).Contents (Elt Ideal)) (x7 x8 : (⟨S64x64, .f32⟩ : BufTy).Contents (Elt Ideal)) (x9 : (⟨S64, .f32⟩ : BufTy).Contents (Elt Ideal)) (x10 : (⟨S64x64, .f32⟩ : BufTy).Contents (Elt Ideal)) :
    Read.val_main_v91 (F := Ideal) x0 x1 x2 x3 x4 x5 x6 x7 x8 x9 x10 = Cert.KernelIdeal.Pieces.nbrSum64 (Cert.KernelIdeal.Pieces.rows x1) (Cert.KernelIdeal.Pieces.cols x1) (Read.val_main_v81 (F := Ideal) x0 x1 x2 x3 x4 x5 x6 x7 x8 x9 x10) := by
  unfold Read.val_main_v91 Read.val_main_v88 Read.val_main_v87 Read.val_main_v86 Read.val_main_v85 Read.val_main_v84 Read.val_main_c_17 Read.val_main_v83 Read.val_main_v82 Read.val_main_c_16 Read.val_main_v1 Read.val_main_v0 Read.val_main_v90 Read.val_main_v3 Read.val_main_v2 Read.val_main_v89 Read.val_main_cst_18
  unfold Cert.KernelIdeal.Pieces.nbrSum64 Cert.KernelIdeal.Pieces.colIdx Cert.KernelIdeal.Pieces.wrapRows Cert.KernelIdeal.Pieces.rows Cert.KernelIdeal.Pieces.cols
  rw [gather64_eq, scatter64_eq]

theorem sums4 (x0 : (⟨S50000x13, .f32⟩ : BufTy).Contents (Elt Ideal)) (x1 : (⟨S2x800000, .i32⟩ : BufTy).Contents (Elt Ideal)) (x2 : (⟨S13x64, .f32⟩ : BufTy).Contents (Elt Ideal)) (x3 : (⟨S64, .f32⟩ : BufTy).Contents (Elt Ideal)) (x4 : (⟨S13x64, .f32⟩ : BufTy).Contents (Elt Ideal)) (x5 : (⟨S64x64, .f32⟩ : BufTy).Contents (Elt Ideal)) (x6 : (⟨S64, .f32⟩ : BufTy).Contents (Elt Ideal)) (x7 x8 : (⟨S64x64, .f32⟩ : BufTy).Contents (Elt Ideal)) (x9 : (⟨S64, .f32⟩ : BufTy).Contents (Elt Ideal)) (x10 x11 : (⟨S64x64, .f32⟩ : BufTy).Contents (Elt Ideal)) (x12 : (⟨S64, .f32⟩ : BufTy).Contents (Elt Ideal)) (x13 : (⟨S64x64, .f32⟩ : BufTy).Contents (Elt Ideal)) :
    Read.val_main_v117 (F := Ideal) x0 x1 x2 x3 x4 x5 x6 x7 x8 x9 x10 x11 x12 x13 = Cert.KernelIdeal.Pieces.nbrSum64 (Cert.KernelIdeal.Pieces.rows x1) (Cert.KernelIdeal.Pieces.cols x1) (Read.val_main_v107 (F := Ideal) x0 x1 x2 x3 x4 x5 x6 x7 x8 x9 x10 x11 x12 x13) := by
  unfold Read.val_main_v117 Read.val_main_v114 Read.val_main_v113 Read.val_main_v112 Read.val_main_v111 Read.val_main_v110 Read.val_main_c_23 Read.val_main_v109 Read.val_main_v108 Read.val_main_c_22 Read.val_main_v1 Read.val_main_v0 Read.val_main_v116 Read.val_main_v3 Read.val_main_v2 Read.val_main_v115 Read.val_main_cst_24
  unfold Cert.KernelIdeal.Pieces.nbrSum64 Cert.KernelIdeal.Pieces.colIdx Cert.KernelIdeal.Pieces.wrapRows Cert.KernelIdeal.Pieces.rows Cert.KernelIdeal.Pieces.cols
  rw [gather64_eq, scatter64_eq]

/-! The in-degrees: every layer counts the same edges again. -/

theorem deg0 (x1 : (⟨S2x800000, .i32⟩ : BufTy).Contents (Elt Ideal)) :
    Read.val_main_v17 (F := Ideal) x1 = Cert.KernelIdeal.Pieces.degree (Cert.KernelIdeal.Pieces.cols x1) := by
  unfold Read.val_main_v17 Read.val_main_v14 Read.val_main_cst_1 Read.val_main_v16 Read.val_main_v3 Read.val_main_v2 Read.val_main_v15 Read.val_main_cst_2
  unfold Cert.KernelIdeal.Pieces.degree Cert.KernelIdeal.Pieces.colIdx Cert.KernelIdeal.Pieces.cols
  rw [scatter1_eq]

theorem deg1 (x1 : (⟨S2x800000, .i32⟩ : BufTy).Contents (Elt Ideal)) :
    Read.val_main_v43 (F := Ideal) x1 = Cert.KernelIdeal.Pieces.degree (Cert.KernelIdeal.Pieces.cols x1) := by
  unfold Read.val_main_v43 Read.val_main_v40 Read.val_main_cst_7 Read.val_main_v42 Read.val_main_v3 Read.val_main_v2 Read.val_main_v41 Read.val_main_cst_8
  unfold Cert.KernelIdeal.Pieces.degree Cert.KernelIdeal.Pieces.colIdx Cert.KernelIdeal.Pieces.cols
  rw [scatter1_eq]

theorem deg2 (x1 : (⟨S2x800000, .i32⟩ : BufTy).Contents (Elt Ideal)) :
    Read.val_main_v69 (F := Ideal) x1 = Cert.KernelIdeal.Pieces.degree (Cert.KernelIdeal.Pieces.cols x1) := by
  unfold Read.val_main_v69 Read.val_main_v66 Read.val_main_cst_13 Read.val_main_v68 Read.val_main_v3 Read.val_main_v2 Read.val_main_v67 Read.val_main_cst_14
  unfold Cert.KernelIdeal.Pieces.degree Cert.KernelIdeal.Pieces.colIdx Cert.KernelIdeal.Pieces.cols
  rw [scatter1_eq]

theorem deg3 (x1 : (⟨S2x800000, .i32⟩ : BufTy).Contents (Elt Ideal)) :
    Read.val_main_v95 (F := Ideal) x1 = Cert.KernelIdeal.Pieces.degree (Cert.KernelIdeal.Pieces.cols x1) := by
  unfold Read.val_main_v95 Read.val_main_v92 Read.val_main_cst_19 Read.val_main_v94 Read.val_main_v3 Read.val_main_v2 Read.val_main_v93 Read.val_main_cst_20
  unfold Cert.KernelIdeal.Pieces.degree Cert.KernelIdeal.Pieces.colIdx Cert.KernelIdeal.Pieces.cols
  rw [scatter1_eq]

theorem deg4 (x1 : (⟨S2x800000, .i32⟩ : BufTy).Contents (Elt Ideal)) :
    Read.val_main_v121 (F := Ideal) x1 = Cert.KernelIdeal.Pieces.degree (Cert.KernelIdeal.Pieces.cols x1) := by
  unfold Read.val_main_v121 Read.val_main_v118 Read.val_main_cst_25 Read.val_main_v120 Read.val_main_v3 Read.val_main_v2 Read.val_main_v119 Read.val_main_cst_26
  unfold Cert.KernelIdeal.Pieces.degree Cert.KernelIdeal.Pieces.colIdx Cert.KernelIdeal.Pieces.cols
  rw [scatter1_eq]

end Cert.ReferenceIdeal.RefValue

end
-- ==== Proof.RefLayer0.lean ====
/-
  The reference's first layer, index by index.

  From the node features `x0`, the neighbour sums `S` (a scatter-add, kept as the opaque stage it is) and the
  in-degrees `cnt` (a scatter-add of ones, opaque too), the reference computes

      mean p k = S p k / max (cnt p) 1            (the in-degree broadcast along the row)
      out  p q = max ( (Σ_k mean p k · Wl k q + b q) + Σ_k x0 p k · Wr k q ) 0.

  Both facts are read off the stages one element at a time; the layer's algebra (division by `max cnt 1` is the product
  with its inverse, the bias moved past the second sum) is `Cert.Sage.divided_eq_layer`.
-/
import proofs.«143321_j22462678958404_1_alg».proof.Proof.Gen.ReferenceIdeal.Read
import proofs.«143321_j22462678958404_1_alg».proof.Proof.Layer
import Idealize.ShloMosaic.Lib.ValueIdx
import Idealize.ShloMosaic.Lib.Pipeline.Value
import Idealize.ShloMosaic.PureOps.Ideal.Laws

noncomputable section

namespace Cert.ReferenceIdeal.RefValue

open Cert.ReferenceIdeal Idealize.ShloMosaic Idealize.ShloMosaic.ValueIdx

/-- The divided stage at node `p`, feature `k`: the neighbour sum over `max (cnt p) 1`. -/
theorem mean0 (x0 : (⟨S50000x13, .f32⟩ : BufTy).Contents (Elt Ideal)) (x1 : (⟨S2x800000, .i32⟩ : BufTy).Contents (Elt Ideal))
    (p : Fin 50000) (k : Fin 13) :
    Read.val_main_v22 (F := Ideal) x0 x1 (ix2 p k)
      = Ideal.div (Read.val_main_v13 (F := Ideal) x0 x1 (ix2 p k)) (max (Read.val_main_v17 (F := Ideal) x1 (ix1 p)) Cert.Sage.one) := by
  have e : Read.idx_main_v20 (Read.idx_main_v21 (ix2 p k)) = ix1 p :=
    funext fun a => Fin.ext (by match a with | ⟨0, _⟩ => rfl)
  rw [Read.val_main_v22_apply, Read.val_main_v21_apply, Read.val_main_v20_apply, Read.val_main_v19_apply,
    Read.val_main_v18_apply, Read.val_main_cst_3_apply, e]
  rfl

/-- The result stage at node `p`, feature `q`. -/
theorem out0 (x0 : (⟨S50000x13, .f32⟩ : BufTy).Contents (Elt Ideal)) (x1 : (⟨S2x800000, .i32⟩ : BufTy).Contents (Elt Ideal)) (x2 : (⟨S13x64, .f32⟩ : BufTy).Contents (Elt Ideal)) (x3 : (⟨S64, .f32⟩ : BufTy).Contents (Elt Ideal)) (x4 : (⟨S13x64, .f32⟩ : BufTy).Contents (Elt Ideal))
    (p : Fin 50000) (q : Fin 64) :
    Read.val_main_v29 (F := Ideal) x0 x1 x2 x3 x4 (ix2 p q)
      = Cert.Sage.relu ((∑ k : Fin 13, Read.val_main_v22 (F := Ideal) x0 x1 (ix2 p k) * x2 (ix2 k q) + x3 (ix1 q))
          + ∑ k : Fin 13, x0 (ix2 p k) * x4 (ix2 k q)) := by
  have el : ∀ k : Fin 13, Read.lidx_main_v23 (ix2 p q) k = ix2 p k := fun k =>
    funext fun a => Fin.ext (by match a with | ⟨0, _⟩ => rfl | ⟨1, _⟩ => rfl)
  have er : ∀ k : Fin 13, Read.ridx_main_v23 (ix2 p q) k = ix2 k q := fun k =>
    funext fun a => Fin.ext (by match a with | ⟨0, _⟩ => rfl | ⟨1, _⟩ => rfl)
  have el' : ∀ k : Fin 13, Read.lidx_main_v27 (ix2 p q) k = ix2 p k := fun k =>
    funext fun a => Fin.ext (by match a with | ⟨0, _⟩ => rfl | ⟨1, _⟩ => rfl)
  have er' : ∀ k : Fin 13, Read.ridx_main_v27 (ix2 p q) k = ix2 k q := fun k =>
    funext fun a => Fin.ext (by match a with | ⟨0, _⟩ => rfl | ⟨1, _⟩ => rfl)
  have eb : Read.idx_main_v24 (Read.idx_main_v25 (ix2 p q)) = ix1 q :=
    funext fun a => Fin.ext (by match a with | ⟨0, _⟩ => rfl)
  rw [Read.val_main_v29_apply, Read.val_main_v28_apply, Read.val_main_v26_apply, Read.val_main_v23_apply,
    Read.val_main_v27_apply, Read.val_main_v25_apply, Read.val_main_v24_apply, Read.val_main_call0_v0_apply,
    Read.val_main_call0_cst_apply]
  simp only [el, er, el', er', eb, Ideal.maximumf_def, Ideal.addf_def, Ideal.ofBits_def]
  rfl

/-- The reference's first layer is the layer of the node features, their neighbour sums and the in-degrees. -/
theorem layer0 (x0 : (⟨S50000x13, .f32⟩ : BufTy).Contents (Elt Ideal)) (x1 : (⟨S2x800000, .i32⟩ : BufTy).Contents (Elt Ideal)) (x2 : (⟨S13x64, .f32⟩ : BufTy).Contents (Elt Ideal)) (x3 : (⟨S64, .f32⟩ : BufTy).Contents (Elt Ideal)) (x4 : (⟨S13x64, .f32⟩ : BufTy).Contents (Elt Ideal)) :
    Read.val_main_v29 (F := Ideal) x0 x1 x2 x3 x4
      = Cert.Sage.layer Cert.Sage.relu (Read.val_main_v13 (F := Ideal) x0 x1) x0 (Read.val_main_v17 (F := Ideal) x1) x2 x4 x3 :=
  Cert.Sage.divided_eq_layer Cert.Sage.relu (Read.val_main_v22 (F := Ideal) x0 x1) (Read.val_main_v13 (F := Ideal) x0 x1) x0
    (Read.val_main_v17 (F := Ideal) x1) x2 x4 x3 (Read.val_main_v29 (F := Ideal) x0 x1 x2 x3 x4)
    (mean0 x0 x1) (out0 x0 x1 x2 x3 x4)

end Cert.ReferenceIdeal.RefValue

end
-- ==== Proof.RefLayer1.lean ====
/-
  The reference's second layer, index by index.

  From the previous layer's result `H`, the neighbour sums `S` (a scatter-add, kept as the opaque stage it is) and the
  in-degrees `cnt` (a scatter-add of ones, opaque too), the reference computes

      mean p k = S p k / max (cnt p) 1            (the in-degree broadcast along the row)
      out  p q = max ( (Σ_k mean p k · Wl k q + b q) + Σ_k H p k · Wr k q ) 0.

  Both facts are read off the stages one element at a time; the layer's algebra (division by `max cnt 1` is the product
  with its inverse, the bias moved past the second sum) is `Cert.Sage.divided_eq_layer`.
-/
import proofs.«143321_j22462678958404_1_alg».proof.Proof.Gen.ReferenceIdeal.Read
import proofs.«143321_j22462678958404_1_alg».proof.Proof.Layer
import Idealize.ShloMosaic.Lib.ValueIdx
import Idealize.ShloMosaic.Lib.Pipeline.Value
import Idealize.ShloMosaic.PureOps.Ideal.Laws

noncomputable section

namespace Cert.ReferenceIdeal.RefValue

open Cert.ReferenceIdeal Idealize.ShloMosaic Idealize.ShloMosaic.ValueIdx

/-- The divided stage at node `p`, feature `k`: the neighbour sum over `max (cnt p) 1`. -/
theorem mean1 (x0 : (⟨S50000x13, .f32⟩ : BufTy).Contents (Elt Ideal)) (x1 : (⟨S2x800000, .i32⟩ : BufTy).Contents (Elt Ideal)) (x2 : (⟨S13x64, .f32⟩ : BufTy).Contents (Elt Ideal)) (x3 : (⟨S64, .f32⟩ : BufTy).Contents (Elt Ideal)) (x4 : (⟨S13x64, .f32⟩ : BufTy).Contents (Elt Ideal))
    (p : Fin 50000) (k : Fin 64) :
    Read.val_main_v48 (F := Ideal) x0 x1 x2 x3 x4 (ix2 p k)
      = Ideal.div (Read.val_main_v39 (F := Ideal) x0 x1 x2 x3 x4 (ix2 p k)) (max (Read.val_main_v43 (F := Ideal) x1 (ix1 p)) Cert.Sage.one) := by
  have e : Read.idx_main_v46 (Read.idx_main_v47 (ix2 p k)) = ix1 p :=
    funext fun a => Fin.ext (by match a with | ⟨0, _⟩ => rfl)
  rw [Read.val_main_v48_apply, Read.val_main_v47_apply, Read.val_main_v46_apply, Read.val_main_v45_apply,
    Read.val_main_v44_apply, Read.val_main_cst_9_apply, e]
  rfl

/-- The result stage at node `p`, feature `q`. -/
theorem out1 (x0 : (⟨S50000x13, .f32⟩ : BufTy).Contents (Elt Ideal)) (x1 : (⟨S2x800000, .i32⟩ : BufTy).Contents (Elt Ideal)) (x2 : (⟨S13x64, .f32⟩ : BufTy).Contents (Elt Ideal)) (x3 : (⟨S64, .f32⟩ : BufTy).Contents (Elt Ideal)) (x4 : (⟨S13x64, .f32⟩ : BufTy).Contents (Elt Ideal)) (x5 : (⟨S64x64, .f32⟩ : BufTy).Contents (Elt Ideal)) (x6 : (⟨S64, .f32⟩ : BufTy).Contents (Elt Ideal)) (x7 : (⟨S64x64, .f32⟩ : BufTy).Contents (Elt Ideal))
    (p : Fin 50000) (q : Fin 64) :
    Read.val_main_v55 (F := Ideal) x0 x1 x2 x3 x4 x5 x6 x7 (ix2 p q)
      = Cert.Sage.relu ((∑ k : Fin 64, Read.val_main_v48 (F := Ideal) x0 x1 x2 x3 x4 (ix2 p k) * x5 (ix2 k q) + x6 (ix1 q))
          + ∑ k : Fin 64, (Read.val_main_v29 (F := Ideal) x0 x1 x2 x3 x4) (ix2 p k) * x7 (ix2 k q)) := by
  have el : ∀ k : Fin 64, Read.lidx_main_v49 (ix2 p q) k = ix2 p k := fun k =>
    funext fun a => Fin.ext (by match a with | ⟨0, _⟩ => rfl | ⟨1, _⟩ => rfl)
  have er : ∀ k : Fin 64, Read.ridx_main_v49 (ix2 p q) k = ix2 k q := fun k =>
    funext fun a => Fin.ext (by match a with | ⟨0, _⟩ => rfl | ⟨1, _⟩ => rfl)
  have el' : ∀ k : Fin 64, Read.lidx_main_v53 (ix2 p q) k = ix2 p k := fun k =>
    funext fun a => Fin.ext (by match a with | ⟨0, _⟩ => rfl | ⟨1, _⟩ => rfl)
  have er' : ∀ k : Fin 64, Read.ridx_main_v53 (ix2 p q) k = ix2 k q := fun k =>
    funext fun a => Fin.ext (by match a with | ⟨0, _⟩ => rfl | ⟨1, _⟩ => rfl)
  have eb : Read.idx_main_v50 (Read.idx_main_v51 (ix2 p q)) = ix1 q :=
    funext fun a => Fin.ext (by match a with | ⟨0, _⟩ => rfl)
  rw [Read.val_main_v55_apply, Read.val_main_v54_apply, Read.val_main_v52_apply, Read.val_main_v49_apply,
    Read.val_main_v53_apply, Read.val_main_v51_apply, Read.val_main_v50_apply, Read.val_main_call1_v0_apply,
    Read.val_main_call1_cst_apply]
  simp only [el, er, el', er', eb, Ideal.maximumf_def, Ideal.addf_def, Ideal.ofBits_def]
  rfl

/-- The reference's second layer is the layer of the previous layer's result, its neighbour sums and the in-degrees. -/
theorem layer1 (x0 : (⟨S50000x13, .f32⟩ : BufTy).Contents (Elt Ideal)) (x1 : (⟨S2x800000, .i32⟩ : BufTy).Contents (Elt Ideal)) (x2 : (⟨S13x64, .f32⟩ : BufTy).Contents (Elt Ideal)) (x3 : (⟨S64, .f32⟩ : BufTy).Contents (Elt Ideal)) (x4 : (⟨S13x64, .f32⟩ : BufTy).Contents (Elt Ideal)) (x5 : (⟨S64x64, .f32⟩ : BufTy).Contents (Elt Ideal)) (x6 : (⟨S64, .f32⟩ : BufTy).Contents (Elt Ideal)) (x7 : (⟨S64x64, .f32⟩ : BufTy).Contents (Elt Ideal)) :
    Read.val_main_v55 (F := Ideal) x0 x1 x2 x3 x4 x5 x6 x7
      = Cert.Sage.layer Cert.Sage.relu (Read.val_main_v39 (F := Ideal) x0 x1 x2 x3 x4) (Read.val_main_v29 (F := Ideal) x0 x1 x2 x3 x4) (Read.val_main_v43 (F := Ideal) x1) x5 x7 x6 :=
  Cert.Sage.divided_eq_layer Cert.Sage.relu (Read.val_main_v48 (F := Ideal) x0 x1 x2 x3 x4) (Read.val_main_v39 (F := Ideal) x0 x1 x2 x3 x4) (Read.val_main_v29 (F := Ideal) x0 x1 x2 x3 x4)
    (Read.val_main_v43 (F := Ideal) x1) x5 x7 x6 (Read.val_main_v55 (F := Ideal) x0 x1 x2 x3 x4 x5 x6 x7)
    (mean1 x0 x1 x2 x3 x4) (out1 x0 x1 x2 x3 x4 x5 x6 x7)

end Cert.ReferenceIdeal.RefValue

end
-- ==== Proof.RefLayer2.lean ====
/-
  The reference's third layer, index by index.

  From the previous layer's result `H`, the neighbour sums `S` (a scatter-add, kept as the opaque stage it is) and the
  in-degrees `cnt` (a scatter-add of ones, opaque too), the reference computes

      mean p k = S p k / max (cnt p) 1            (the in-degree broadcast along the row)
      out  p q = max ( (Σ_k mean p k · Wl k q + b q) + Σ_k H p k · Wr k q ) 0.

  Both facts are read off the stages one element at a time; the layer's algebra (division by `max cnt 1` is the product
  with its inverse, the bias moved past the second sum) is `Cert.Sage.divided_eq_layer`.
-/
import proofs.«143321_j22462678958404_1_alg».proof.Proof.Gen.ReferenceIdeal.Read
import proofs.«143321_j22462678958404_1_alg».proof.Proof.Layer
import Idealize.ShloMosaic.Lib.ValueIdx
import Idealize.ShloMosaic.Lib.Pipeline.Value
import Idealize.ShloMosaic.PureOps.Ideal.Laws

noncomputable section

namespace Cert.ReferenceIdeal.RefValue

open Cert.ReferenceIdeal Idealize.ShloMosaic Idealize.ShloMosaic.ValueIdx

/-- The divided stage at node `p`, feature `k`: the neighbour sum over `max (cnt p) 1`. -/
theorem mean2 (x0 : (⟨S50000x13, .f32⟩ : BufTy).Contents (Elt Ideal)) (x1 : (⟨S2x800000, .i32⟩ : BufTy).Contents (Elt Ideal)) (x2 : (⟨S13x64, .f32⟩ : BufTy).Contents (Elt Ideal)) (x3 : (⟨S64, .f32⟩ : BufTy).Contents (Elt Ideal)) (x4 : (⟨S13x64, .f32⟩ : BufTy).Contents (Elt Ideal)) (x5 : (⟨S64x64, .f32⟩ : BufTy).Contents (Elt Ideal)) (x6 : (⟨S64, .f32⟩ : BufTy).Contents (Elt Ideal)) (x7 : (⟨S64x64, .f32⟩ : BufTy).Contents (Elt Ideal))
    (p : Fin 50000) (k : Fin 64) :
    Read.val_main_v74 (F := Ideal) x0 x1 x2 x3 x4 x5 x6 x7 (ix2 p k)
      = Ideal.div (Read.val_main_v65 (F := Ideal) x0 x1 x2 x3 x4 x5 x6 x7 (ix2 p k)) (max (Read.val_main_v69 (F := Ideal) x1 (ix1 p)) Cert.Sage.one) := by
  have e : Read.idx_main_v72 (Read.idx_main_v73 (ix2 p k)) = ix1 p :=
    funext fun a => Fin.ext (by match a with | ⟨0, _⟩ => rfl)
  rw [Read.val_main_v74_apply, Read.val_main_v73_apply, Read.val_main_v72_apply, Read.val_main_v71_apply,
    Read.val_main_v70_apply, Read.val_main_cst_15_apply, e]
  rfl

/-- The result stage at node `p`, feature `q`. -/
theorem out2 (x0 : (⟨S50000x13, .f32⟩ : BufTy).Contents (Elt Ideal)) (x1 : (⟨S2x800000, .i32⟩ : BufTy).Contents (Elt Ideal)) (x2 : (⟨S13x64, .f32⟩ : BufTy).Contents (Elt Ideal)) (x3 : (⟨S64, .f32⟩ : BufTy).Contents (Elt Ideal)) (x4 : (⟨S13x64, .f32⟩ : BufTy).Contents (Elt Ideal)) (x5 : (⟨S64x64, .f32⟩ : BufTy).Contents (Elt Ideal)) (x6 : (⟨S64, .f32⟩ : BufTy).Contents (Elt Ideal)) (x7 x8 : (⟨S64x64, .f32⟩ : BufTy).Contents (Elt Ideal)) (x9 : (⟨S64, .f32⟩ : BufTy).Contents (Elt Ideal)) (x10 : (⟨S64x64, .f32⟩ : BufTy).Contents (Elt Ideal))
    (p : Fin 50000) (q : Fin 64) :
    Read.val_main_v81 (F := Ideal) x0 x1 x2 x3 x4 x5 x6 x7 x8 x9 x10 (ix2 p q)
      = Cert.Sage.relu ((∑ k : Fin 64, Read.val_main_v74 (F := Ideal) x0 x1 x2 x3 x4 x5 x6 x7 (ix2 p k) * x8 (ix2 k q) + x9 (ix1 q))
          + ∑ k : Fin 64, (Read.val_main_v55 (F := Ideal) x0 x1 x2 x3 x4 x5 x6 x7) (ix2 p k) * x10 (ix2 k q)) := by
  have el : ∀ k : Fin 64, Read.lidx_main_v75 (ix2 p q) k = ix2 p k := fun k =>
    funext fun a => Fin.ext (by match a with | ⟨0, _⟩ => rfl | ⟨1, _⟩ => rfl)
  have er : ∀ k : Fin 64, Read.ridx_main_v75 (ix2 p q) k = ix2 k q := fun k =>
    funext fun a => Fin.ext (by match a with | ⟨0, _⟩ => rfl | ⟨1, _⟩ => rfl)
  have el' : ∀ k : Fin 64, Read.lidx_main_v79 (ix2 p q) k = ix2 p k := fun k =>
    funext fun a => Fin.ext (by match a with | ⟨0, _⟩ => rfl | ⟨1, _⟩ => rfl)
  have er' : ∀ k : Fin 64, Read.ridx_main_v79 (ix2 p q) k = ix2 k q := fun k =>
    funext fun a => Fin.ext (by match a with | ⟨0, _⟩ => rfl | ⟨1, _⟩ => rfl)
  have eb : Read.idx_main_v76 (Read.idx_main_v77 (ix2 p q)) = ix1 q :=
    funext fun a => Fin.ext (by match a with | ⟨0, _⟩ => rfl)
  rw [Read.val_main_v81_apply, Read.val_main_v80_apply, Read.val_main_v78_apply, Read.val_main_v75_apply,
    Read.val_main_v79_apply, Read.val_main_v77_apply, Read.val_main_v76_apply, Read.val_main_call2_v0_apply,
    Read.val_main_call2_cst_apply]
  simp only [el, er, el', er', eb, Ideal.maximumf_def, Ideal.addf_def, Ideal.ofBits_def]
  rfl

/-- The reference's third layer is the layer of the previous layer's result, its neighbour sums and the in-degrees. -/
theorem layer2 (x0 : (⟨S50000x13, .f32⟩ : BufTy).Contents (Elt Ideal)) (x1 : (⟨S2x800000, .i32⟩ : BufTy).Contents (Elt Ideal)) (x2 : (⟨S13x64, .f32⟩ : BufTy).Contents (Elt Ideal)) (x3 : (⟨S64, .f32⟩ : BufTy).Contents (Elt Ideal)) (x4 : (⟨S13x64, .f32⟩ : BufTy).Contents (Elt Ideal)) (x5 : (⟨S64x64, .f32⟩ : BufTy).Contents (Elt Ideal)) (x6 : (⟨S64, .f32⟩ : BufTy).Contents (Elt Ideal)) (x7 x8 : (⟨S64x64, .f32⟩ : BufTy).Contents (Elt Ideal)) (x9 : (⟨S64, .f32⟩ : BufTy).Contents (Elt Ideal)) (x10 : (⟨S64x64, .f32⟩ : BufTy).Contents (Elt Ideal)) :
    Read.val_main_v81 (F := Ideal) x0 x1 x2 x3 x4 x5 x6 x7 x8 x9 x10
      = Cert.Sage.layer Cert.Sage.relu (Read.val_main_v65 (F := Ideal) x0 x1 x2 x3 x4 x5 x6 x7) (Read.val_main_v55 (F := Ideal) x0 x1 x2 x3 x4 x5 x6 x7) (Read.val_main_v69 (F := Ideal) x1) x8 x10 x9 :=
  Cert.Sage.divided_eq_layer Cert.Sage.relu (Read.val_main_v74 (F := Ideal) x0 x1 x2 x3 x4 x5 x6 x7) (Read.val_main_v65 (F := Ideal) x0 x1 x2 x3 x4 x5 x6 x7) (Read.val_main_v55 (F := Ideal) x0 x1 x2 x3 x4 x5 x6 x7)
    (Read.val_main_v69 (F := Ideal) x1) x8 x10 x9 (Read.val_main_v81 (F := Ideal) x0 x1 x2 x3 x4 x5 x6 x7 x8 x9 x10)
    (mean2 x0 x1 x2 x3 x4 x5 x6 x7) (out2 x0 x1 x2 x3 x4 x5 x6 x7 x8 x9 x10)

end Cert.ReferenceIdeal.RefValue

end
-- ==== Proof.RefLayer3.lean ====
/-
  The reference's fourth layer, index by index.

  From the previous layer's result `H`, the neighbour sums `S` (a scatter-add, kept as the opaque stage it is) and the
  in-degrees `cnt` (a scatter-add of ones, opaque too), the reference computes

      mean p k = S p k / max (cnt p) 1            (the in-degree broadcast along the row)
      out  p q = max ( (Σ_k mean p k · Wl k q + b q) + Σ_k H p k · Wr k q ) 0.

  Both facts are read off the stages one element at a time; the layer's algebra (division by `max cnt 1` is the product
  with its inverse, the bias moved past the second sum) is `Cert.Sage.divided_eq_layer`.
-/
import proofs.«143321_j22462678958404_1_alg».proof.Proof.Gen.ReferenceIdeal.Read
import proofs.«143321_j22462678958404_1_alg».proof.Proof.Layer
import Idealize.ShloMosaic.Lib.ValueIdx
import Idealize.ShloMosaic.Lib.Pipeline.Value
import Idealize.ShloMosaic.PureOps.Ideal.Laws

noncomputable section

namespace Cert.ReferenceIdeal.RefValue

open Cert.ReferenceIdeal Idealize.ShloMosaic Idealize.ShloMosaic.ValueIdx

/-- The divided stage at node `p`, feature `k`: the neighbour sum over `max (cnt p) 1`. -/
theorem mean3 (x0 : (⟨S50000x13, .f32⟩ : BufTy).Contents (Elt Ideal)) (x1 : (⟨S2x800000, .i32⟩ : BufTy).Contents (Elt Ideal)) (x2 : (⟨S13x64, .f32⟩ : BufTy).Contents (Elt Ideal)) (x3 : (⟨S64, .f32⟩ : BufTy).Contents (Elt Ideal)) (x4 : (⟨S13x64, .f32⟩ : BufTy).Contents (Elt Ideal)) (x5 : (⟨S64x64, .f32⟩ : BufTy).Contents (Elt Ideal)) (x6 : (⟨S64, .f32⟩ : BufTy).Contents (Elt Ideal)) (x7 x8 : (⟨S64x64, .f32⟩ : BufTy).Contents (Elt Ideal)) (x9 : (⟨S64, .f32⟩ : BufTy).Contents (Elt Ideal)) (x10 : (⟨S64x64, .f32⟩ : BufTy).Contents (Elt Ideal))
    (p : Fin 50000) (k : Fin 64) :
    Read.val_main_v100 (F := Ideal) x0 x1 x2 x3 x4 x5 x6 x7 x8 x9 x10 (ix2 p k)
      = Ideal.div (Read.val_main_v91 (F := Ideal) x0 x1 x2 x3 x4 x5 x6 x7 x8 x9 x10 (ix2 p k)) (max (Read.val_main_v95 (F := Ideal) x1 (ix1 p)) Cert.Sage.one) := by
  have e : Read.idx_main_v98 (Read.idx_main_v99 (ix2 p k)) = ix1 p :=
    funext fun a => Fin.ext (by match a with | ⟨0, _⟩ => rfl)
  rw [Read.val_main_v100_apply, Read.val_main_v99_apply, Read.val_main_v98_apply, Read.val_main_v97_apply,
    Read.val_main_v96_apply, Read.val_main_cst_21_apply, e]
  rfl

/-- The result stage at node `p`, feature `q`. -/
theorem out3 (x0 : (⟨S50000x13, .f32⟩ : BufTy).Contents (Elt Ideal)) (x1 : (⟨S2x800000, .i32⟩ : BufTy).Contents (Elt Ideal)) (x2 : (⟨S13x64, .f32⟩ : BufTy).Contents (Elt Ideal)) (x3 : (⟨S64, .f32⟩ : BufTy).Contents (Elt Ideal)) (x4 : (⟨S13x64, .f32⟩ : BufTy).Contents (Elt Ideal)) (x5 : (⟨S64x64, .f32⟩ : BufTy).Contents (Elt Ideal)) (x6 : (⟨S64, .f32⟩ : BufTy).Contents (Elt Ideal)) (x7 x8 : (⟨S64x64, .f32⟩ : BufTy).Contents (Elt Ideal)) (x9 : (⟨S64, .f32⟩ : BufTy).Contents (Elt Ideal)) (x10 x11 : (⟨S64x64, .f32⟩ : BufTy).Contents (Elt Ideal)) (x12 : (⟨S64, .f32⟩ : BufTy).Contents (Elt Ideal)) (x13 : (⟨S64x64, .f32⟩ : BufTy).Contents (Elt Ideal))
    (p : Fin 50000) (q : Fin 64) :
    Read.val_main_v107 (F := Ideal) x0 x1 x2 x3 x4 x5 x6 x7 x8 x9 x10 x11 x12 x13 (ix2 p q)
      = Cert.Sage.relu ((∑ k : Fin 64, Read.val_main_v100 (F := Ideal) x0 x1 x2 x3 x4 x5 x6 x7 x8 x9 x10 (ix2 p k) * x11 (ix2 k q) + x12 (ix1 q))
          + ∑ k : Fin 64, (Read.val_main_v81 (F := Ideal) x0 x1 x2 x3 x4 x5 x6 x7 x8 x9 x10) (ix2 p k) * x13 (ix2 k q)) := by
  have el : ∀ k : Fin 64, Read.lidx_main_v101 (ix2 p q) k = ix2 p k := fun k =>
    funext fun a => Fin.ext (by match a with | ⟨0, _⟩ => rfl | ⟨1, _⟩ => rfl)
  have er : ∀ k : Fin 64, Read.ridx_main_v101 (ix2 p q) k = ix2 k q := fun k =>
    funext fun a => Fin.ext (by match a with | ⟨0, _⟩ => rfl | ⟨1, _⟩ => rfl)
  have el' : ∀ k : Fin 64, Read.lidx_main_v105 (ix2 p q) k = ix2 p k := fun k =>
    funext fun a => Fin.ext (by match a with | ⟨0, _⟩ => rfl | ⟨1, _⟩ => rfl)
  have er' : ∀ k : Fin 64, Read.ridx_main_v105 (ix2 p q) k = ix2 k q := fun k =>
    funext fun a => Fin.ext (by match a with | ⟨0, _⟩ => rfl | ⟨1, _⟩ => rfl)
  have eb : Read.idx_main_v102 (Read.idx_main_v103 (ix2 p q)) = ix1 q :=
    funext fun a => Fin.ext (by match a with | ⟨0, _⟩ => rfl)
  rw [Read.val_main_v107_apply, Read.val_main_v106_apply, Read.val_main_v104_apply, Read.val_main_v101_apply,
    Read.val_main_v105_apply, Read.val_main_v103_apply, Read.val_main_v102_apply, Read.val_main_call3_v0_apply,
    Read.val_main_call3_cst_apply]
  simp only [el, er, el', er', eb, Ideal.maximumf_def, Ideal.addf_def, Ideal.ofBits_def]
  rfl

/-- The reference's fourth layer is the layer of the previous layer's result, its neighbour sums and the in-degrees. -/
theorem layer3 (x0 : (⟨S50000x13, .f32⟩ : BufTy).Contents (Elt Ideal)) (x1 : (⟨S2x800000, .i32⟩ : BufTy).Contents (Elt Ideal)) (x2 : (⟨S13x64, .f32⟩ : BufTy).Contents (Elt Ideal)) (x3 : (⟨S64, .f32⟩ : BufTy).Contents (Elt Ideal)) (x4 : (⟨S13x64, .f32⟩ : BufTy).Contents (Elt Ideal)) (x5 : (⟨S64x64, .f32⟩ : BufTy).Contents (Elt Ideal)) (x6 : (⟨S64, .f32⟩ : BufTy).Contents (Elt Ideal)) (x7 x8 : (⟨S64x64, .f32⟩ : BufTy).Contents (Elt Ideal)) (x9 : (⟨S64, .f32⟩ : BufTy).Contents (Elt Ideal)) (x10 x11 : (⟨S64x64, .f32⟩ : BufTy).Contents (Elt Ideal)) (x12 : (⟨S64, .f32⟩ : BufTy).Contents (Elt Ideal)) (x13 : (⟨S64x64, .f32⟩ : BufTy).Contents (Elt Ideal)) :
    Read.val_main_v107 (F := Ideal) x0 x1 x2 x3 x4 x5 x6 x7 x8 x9 x10 x11 x12 x13
      = Cert.Sage.layer Cert.Sage.relu (Read.val_main_v91 (F := Ideal) x0 x1 x2 x3 x4 x5 x6 x7 x8 x9 x10) (Read.val_main_v81 (F := Ideal) x0 x1 x2 x3 x4 x5 x6 x7 x8 x9 x10) (Read.val_main_v95 (F := Ideal) x1) x11 x13 x12 :=
  Cert.Sage.divided_eq_layer Cert.Sage.relu (Read.val_main_v100 (F := Ideal) x0 x1 x2 x3 x4 x5 x6 x7 x8 x9 x10) (Read.val_main_v91 (F := Ideal) x0 x1 x2 x3 x4 x5 x6 x7 x8 x9 x10) (Read.val_main_v81 (F := Ideal) x0 x1 x2 x3 x4 x5 x6 x7 x8 x9 x10)
    (Read.val_main_v95 (F := Ideal) x1) x11 x13 x12 (Read.val_main_v107 (F := Ideal) x0 x1 x2 x3 x4 x5 x6 x7 x8 x9 x10 x11 x12 x13)
    (mean3 x0 x1 x2 x3 x4 x5 x6 x7 x8 x9 x10) (out3 x0 x1 x2 x3 x4 x5 x6 x7 x8 x9 x10 x11 x12 x13)

end Cert.ReferenceIdeal.RefValue

end
-- ==== Proof.RefLayer4.lean ====
/-
  The reference's last layer, index by index.

  From the previous layer's result `H`, the neighbour sums `S` (a scatter-add, kept as the opaque stage it is) and the
  in-degrees `cnt` (a scatter-add of ones, opaque too), the reference computes, for the single output feature `q`,

      mean p k = S p k / max (cnt p) 1            (the in-degree broadcast along the row)
      z    p q = (Σ_k mean p k · Wl k q + b q) + Σ_k H p k · Wr k q
      out  p q = 1 / (1 + e^(-z p q)),

  the logistic function written out as negation, exponential, sum and quotient (`Cert.Sage.sigm_eq`). The layer's
  algebra (division by `max cnt 1` is the product with its inverse, the bias moved past the second sum) is
  `Cert.Sage.divided_eq_layer`.
-/
import proofs.«143321_j22462678958404_1_alg».proof.Proof.Gen.ReferenceIdeal.Read
import proofs.«143321_j22462678958404_1_alg».proof.Proof.Layer
import Idealize.ShloMosaic.Lib.ValueIdx
import Idealize.ShloMosaic.Lib.Pipeline.Value
import Idealize.ShloMosaic.PureOps.Ideal.Laws

noncomputable section

namespace Cert.ReferenceIdeal.RefValue

open Cert.ReferenceIdeal Idealize.ShloMosaic Idealize.ShloMosaic.ValueIdx

/-- The divided stage at node `p`, feature `k`: the neighbour sum over `max (cnt p) 1`. -/
theorem mean4 (x0 : (⟨S50000x13, .f32⟩ : BufTy).Contents (Elt Ideal)) (x1 : (⟨S2x800000, .i32⟩ : BufTy).Contents (Elt Ideal)) (x2 : (⟨S13x64, .f32⟩ : BufTy).Contents (Elt Ideal)) (x3 : (⟨S64, .f32⟩ : BufTy).Contents (Elt Ideal)) (x4 : (⟨S13x64, .f32⟩ : BufTy).Contents (Elt Ideal)) (x5 : (⟨S64x64, .f32⟩ : BufTy).Contents (Elt Ideal)) (x6 : (⟨S64, .f32⟩ : BufTy).Contents (Elt Ideal)) (x7 x8 : (⟨S64x64, .f32⟩ : BufTy).Contents (Elt Ideal)) (x9 : (⟨S64, .f32⟩ : BufTy).Contents (Elt Ideal)) (x10 x11 : (⟨S64x64, .f32⟩ : BufTy).Contents (Elt Ideal)) (x12 : (⟨S64, .f32⟩ : BufTy).Contents (Elt Ideal)) (x13 : (⟨S64x64, .f32⟩ : BufTy).Contents (Elt Ideal))
    (p : Fin 50000) (k : Fin 64) :
    Read.val_main_v126 (F := Ideal) x0 x1 x2 x3 x4 x5 x6 x7 x8 x9 x10 x11 x12 x13 (ix2 p k)
      = Ideal.div (Read.val_main_v117 (F := Ideal) x0 x1 x2 x3 x4 x5 x6 x7 x8 x9 x10 x11 x12 x13 (ix2 p k)) (max (Read.val_main_v121 (F := Ideal) x1 (ix1 p)) Cert.Sage.one) := by
  have e : Read.idx_main_v124 (Read.idx_main_v125 (ix2 p k)) = ix1 p :=
    funext fun a => Fin.ext (by match a with | ⟨0, _⟩ => rfl)
  rw [Read.val_main_v126_apply, Read.val_main_v125_apply, Read.val_main_v124_apply, Read.val_main_v123_apply,
    Read.val_main_v122_apply, Read.val_main_cst_27_apply, e]
  rfl

/-- The result stage at node `p`, at the one output feature `q`. -/
theorem out4 (x0 : (⟨S50000x13, .f32⟩ : BufTy).Contents (Elt Ideal)) (x1 : (⟨S2x800000, .i32⟩ : BufTy).Contents (Elt Ideal)) (x2 : (⟨S13x64, .f32⟩ : BufTy).Contents (Elt Ideal)) (x3 : (⟨S64, .f32⟩ : BufTy).Contents (Elt Ideal)) (x4 : (⟨S13x64, .f32⟩ : BufTy).Contents (Elt Ideal)) (x5 : (⟨S64x64, .f32⟩ : BufTy).Contents (Elt Ideal)) (x6 : (⟨S64, .f32⟩ : BufTy).Contents (Elt Ideal)) (x7 x8 : (⟨S64x64, .f32⟩ : BufTy).Contents (Elt Ideal)) (x9 : (⟨S64, .f32⟩ : BufTy).Contents (Elt Ideal)) (x10 x11 : (⟨S64x64, .f32⟩ : BufTy).Contents (Elt Ideal)) (x12 : (⟨S64, .f32⟩ : BufTy).Contents (Elt Ideal)) (x13 : (⟨S64x64, .f32⟩ : BufTy).Contents (Elt Ideal)) (x14 : (⟨S64x1, .f32⟩ : BufTy).Contents (Elt Ideal)) (x15 : (⟨S1, .f32⟩ : BufTy).Contents (Elt Ideal)) (x16 : (⟨S64x1, .f32⟩ : BufTy).Contents (Elt Ideal))
    (p : Fin 50000) (q : Fin 1) :
    Read.val_main_v138 (F := Ideal) x0 x1 x2 x3 x4 x5 x6 x7 x8 x9 x10 x11 x12 x13 x14 x15 x16 (ix2 p q)
      = Cert.Sage.sigm ((∑ k : Fin 64, Read.val_main_v126 (F := Ideal) x0 x1 x2 x3 x4 x5 x6 x7 x8 x9 x10 x11 x12 x13 (ix2 p k) * x14 (ix2 k q) + x15 (ix1 q))
          + ∑ k : Fin 64, (Read.val_main_v107 (F := Ideal) x0 x1 x2 x3 x4 x5 x6 x7 x8 x9 x10 x11 x12 x13) (ix2 p k) * x16 (ix2 k q)) := by
  have el : ∀ k : Fin 64, Read.lidx_main_v127 (ix2 p q) k = ix2 p k := fun k =>
    funext fun a => Fin.ext (by match a with | ⟨0, _⟩ => rfl | ⟨1, _⟩ => rfl)
  have er : ∀ k : Fin 64, Read.ridx_main_v127 (ix2 p q) k = ix2 k q := fun k =>
    funext fun a => Fin.ext (by match a with | ⟨0, _⟩ => rfl | ⟨1, _⟩ => rfl)
  have el' : ∀ k : Fin 64, Read.lidx_main_v131 (ix2 p q) k = ix2 p k := fun k =>
    funext fun a => Fin.ext (by match a with | ⟨0, _⟩ => rfl | ⟨1, _⟩ => rfl)
  have er' : ∀ k : Fin 64, Read.ridx_main_v131 (ix2 p q) k = ix2 k q := fun k =>
    funext fun a => Fin.ext (by match a with | ⟨0, _⟩ => rfl | ⟨1, _⟩ => rfl)
  have eb : Read.idx_main_v128 (Read.idx_main_v129 (ix2 p q)) = ix1 q :=
    funext fun a => Fin.ext (by match a with | ⟨0, _⟩ => show (0 : Nat) = q.val; omega)
  rw [Read.val_main_v138_apply, Read.val_main_v137_apply, Read.val_main_cst_29_apply, Read.val_main_v136_apply,
    Read.val_main_v135_apply, Read.val_main_cst_28_apply, Read.val_main_v134_apply, Read.val_main_v133_apply,
    Read.val_main_v132_apply, Read.val_main_v130_apply, Read.val_main_v127_apply, Read.val_main_v131_apply,
    Read.val_main_v129_apply, Read.val_main_v128_apply]
  simp only [el, er, el', er', eb, Ideal.hostDivf_def, Ideal.addf_def, Ideal.hostUnary_exp_def, Ideal.hostNegf_def,
    Ideal.negf_def, Ideal.ofBits_def]
  exact Cert.Sage.sigm_eq _

/-- The reference's last layer is the layer, under the logistic function, of the previous layer's result, its
    neighbour sums and the in-degrees. -/
theorem layer4 (x0 : (⟨S50000x13, .f32⟩ : BufTy).Contents (Elt Ideal)) (x1 : (⟨S2x800000, .i32⟩ : BufTy).Contents (Elt Ideal)) (x2 : (⟨S13x64, .f32⟩ : BufTy).Contents (Elt Ideal)) (x3 : (⟨S64, .f32⟩ : BufTy).Contents (Elt Ideal)) (x4 : (⟨S13x64, .f32⟩ : BufTy).Contents (Elt Ideal)) (x5 : (⟨S64x64, .f32⟩ : BufTy).Contents (Elt Ideal)) (x6 : (⟨S64, .f32⟩ : BufTy).Contents (Elt Ideal)) (x7 x8 : (⟨S64x64, .f32⟩ : BufTy).Contents (Elt Ideal)) (x9 : (⟨S64, .f32⟩ : BufTy).Contents (Elt Ideal)) (x10 x11 : (⟨S64x64, .f32⟩ : BufTy).Contents (Elt Ideal)) (x12 : (⟨S64, .f32⟩ : BufTy).Contents (Elt Ideal)) (x13 : (⟨S64x64, .f32⟩ : BufTy).Contents (Elt Ideal)) (x14 : (⟨S64x1, .f32⟩ : BufTy).Contents (Elt Ideal)) (x15 : (⟨S1, .f32⟩ : BufTy).Contents (Elt Ideal)) (x16 : (⟨S64x1, .f32⟩ : BufTy).Contents (Elt Ideal)) :
    Read.val_main_v138 (F := Ideal) x0 x1 x2 x3 x4 x5 x6 x7 x8 x9 x10 x11 x12 x13 x14 x15 x16
      = Cert.Sage.layer Cert.Sage.sigm (Read.val_main_v117 (F := Ideal) x0 x1 x2 x3 x4 x5 x6 x7 x8 x9 x10 x11 x12 x13) (Read.val_main_v107 (F := Ideal) x0 x1 x2 x3 x4 x5 x6 x7 x8 x9 x10 x11 x12 x13) (Read.val_main_v121 (F := Ideal) x1) x14 x16 x15 :=
  Cert.Sage.divided_eq_layer Cert.Sage.sigm (Read.val_main_v126 (F := Ideal) x0 x1 x2 x3 x4 x5 x6 x7 x8 x9 x10 x11 x12 x13) (Read.val_main_v117 (F := Ideal) x0 x1 x2 x3 x4 x5 x6 x7 x8 x9 x10 x11 x12 x13) (Read.val_main_v107 (F := Ideal) x0 x1 x2 x3 x4 x5 x6 x7 x8 x9 x10 x11 x12 x13)
    (Read.val_main_v121 (F := Ideal) x1) x14 x16 x15 (Read.val_main_v138 (F := Ideal) x0 x1 x2 x3 x4 x5 x6 x7 x8 x9 x10 x11 x12 x13 x14 x15 x16)
    (mean4 x0 x1 x2 x3 x4 x5 x6 x7 x8 x9 x10 x11 x12 x13) (out4 x0 x1 x2 x3 x4 x5 x6 x7 x8 x9 x10 x11 x12 x13 x14 x15 x16)

end Cert.ReferenceIdeal.RefValue

end
-- ==== Proof.lean ====
/-
  The proof of the certificate's claim for a five-layer graph network (mean aggregation over incoming edges, two
  weight matrices and a bias per layer, the rectifier after the first four layers and the logistic function after the
  last).

  Both programs compute, layer by layer, from the node features `H`:

      out p q = act ( Σ_k (S p k · (max (cnt p) 1)⁻¹) · Wl k q  +  Σ_k H p k · Wr k q  +  b q ),

  where row `p` of `S` sums the rows of `H` over the edges arriving at node `p` and `cnt p` counts them. The kernel
  program computes the reciprocal `1 / max cnt 1` once and multiplies, runs the two matrix products and the activation
  in a dense stage over ten row blocks, and adds the bias last; the reference divides by `max cnt 1`, adds the bias
  after the first product, and spells the logistic function as `1 / (1 + e^(-x))`. On the extended reals these agree at
  every entry, whatever the entries are: `max cnt 1` is never `0`, so dividing by it and multiplying by its reciprocal
  are both the product with its inverse; addition is commutative and associative; a block product into zeros is the
  plain sum; and the narrowing of the operands before a product is the identity. The gather of source rows and the
  scatter-add at destination nodes are the same operations in both programs and are never opened.

  The kernel's run with its result named is `RunValue.run_result` joined to the frame (`θ_run_both`); its result, the
  end of the fold of the buffers' contents, is the fifth layer of the launch memory (`Fold.result_value`). The
  reference's result term is the same fifth layer (`ref_result`: each of its layers is the layer of its own stages,
  and its scatter stages are the kernel's pieces). The word-level kernel needs only its frame.
-/
import proofs.«143321_j22462678958404_1_alg».proof.Defs
import proofs.«143321_j22462678958404_1_alg».proof.Proof.Gen.Kernel
import proofs.«143321_j22462678958404_1_alg».proof.Proof.Gen.Kernel.Skeleton
import proofs.«143321_j22462678958404_1_alg».proof.Proof.Gen.Kernel.Launch
import proofs.«143321_j22462678958404_1_alg».proof.Proof.Gen.Kernel.Points
import proofs.«143321_j22462678958404_1_alg».proof.Proof.Gen.Kernel.Frame
import proofs.«143321_j22462678958404_1_alg».proof.Proof.Gen.KernelIdeal
import proofs.«143321_j22462678958404_1_alg».proof.Proof.Gen.KernelIdeal.Skeleton
import proofs.«143321_j22462678958404_1_alg».proof.Proof.Gen.KernelIdeal.Launch
import proofs.«143321_j22462678958404_1_alg».proof.Proof.Gen.KernelIdeal.Points
import proofs.«143321_j22462678958404_1_alg».proof.Proof.Gen.KernelIdeal.Frame
import proofs.«143321_j22462678958404_1_alg».proof.Proof.Gen.ReferenceIdeal
import proofs.«143321_j22462678958404_1_alg».proof.Proof.Gen.ReferenceIdeal.Run
import proofs.«143321_j22462678958404_1_alg».proof.Proof.Gen.ReferenceIdeal.Read
import proofs.«143321_j22462678958404_1_alg».proof.Proof.Gen.Pre_finite_inputs
import proofs.«143321_j22462678958404_1_alg».proof.Proof.LibRunBoth
import proofs.«143321_j22462678958404_1_alg».proof.Proof.KernelRun
import proofs.«143321_j22462678958404_1_alg».proof.Proof.FoldValue
import proofs.«143321_j22462678958404_1_alg».proof.Proof.StageBridge
import proofs.«143321_j22462678958404_1_alg».proof.Proof.RefLayer0
import proofs.«143321_j22462678958404_1_alg».proof.Proof.RefLayer1
import proofs.«143321_j22462678958404_1_alg».proof.Proof.RefLayer2
import proofs.«143321_j22462678958404_1_alg».proof.Proof.RefLayer3
import proofs.«143321_j22462678958404_1_alg».proof.Proof.RefLayer4
import Idealize.ShloMosaic.Adequacy
import Idealize.ShloMosaic.Init

set_option maxRecDepth 16384

noncomputable section

namespace Cert.Proof

open Idealize.ShloMosaic Idealize.ShloMosaic.TcCoe Idealize.SL.Sem

/-! ## The reference's result is the kernel's fifth layer -/

open Cert.ReferenceIdeal.RefValue in
/-- The reference's result term, of the kernel's launch arrays, is the fifth layer of the kernel's launch memory: each
    reference layer is the layer of its own stages; its neighbour sums and in-degrees are the kernel's pieces. -/
theorem ref_result (m : (ℓ : Loc Cert.KernelIdeal.nD Cert.KernelIdeal.τ Cert.KernelIdeal.sig) → Buf (Elt Ideal) ℓ)
    (c : Dev Cert.KernelIdeal.nD) :
    Cert.ReferenceIdeal.Read.val_main_v138 (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
        (m ((c.tc : Thread Cert.KernelIdeal.nD Cert.KernelIdeal.τ).loc Cert.KernelIdeal.main_arg6))
        (m ((c.tc : Thread Cert.KernelIdeal.nD Cert.KernelIdeal.τ).loc Cert.KernelIdeal.main_arg7))
        (m ((c.tc : Thread Cert.KernelIdeal.nD Cert.KernelIdeal.τ).loc Cert.KernelIdeal.main_arg8))
        (m ((c.tc : Thread Cert.KernelIdeal.nD Cert.KernelIdeal.τ).loc Cert.KernelIdeal.main_arg9))
        (m ((c.tc : Thread Cert.KernelIdeal.nD Cert.KernelIdeal.τ).loc Cert.KernelIdeal.main_arg10))
        (m ((c.tc : Thread Cert.KernelIdeal.nD Cert.KernelIdeal.τ).loc Cert.KernelIdeal.main_arg11))
        (m ((c.tc : Thread Cert.KernelIdeal.nD Cert.KernelIdeal.τ).loc Cert.KernelIdeal.main_arg12))
        (m ((c.tc : Thread Cert.KernelIdeal.nD Cert.KernelIdeal.τ).loc Cert.KernelIdeal.main_arg13))
        (m ((c.tc : Thread Cert.KernelIdeal.nD Cert.KernelIdeal.τ).loc Cert.KernelIdeal.main_arg14))
        (m ((c.tc : Thread Cert.KernelIdeal.nD Cert.KernelIdeal.τ).loc Cert.KernelIdeal.main_arg15))
        (m ((c.tc : Thread Cert.KernelIdeal.nD Cert.KernelIdeal.τ).loc Cert.KernelIdeal.main_arg16))
      = Cert.KernelIdeal.Fold.out5 m c := by
  rw [layer4, sums4, deg4, layer3, sums3, deg3, layer2, sums2, deg2, layer1, sums1, deg1, layer0, sums0, deg0]
  rfl

/-! ## The claims -/

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories agreeing on the arguments both programs end with the fifth layer of the launch memory. -/
theorem algebraic : Cert.algebraic_KernelIdeal_ReferenceIdeal := by
  intro m ρ m' ρ' _ hagree
  refine ⟨fun c => Cert.KernelIdeal.Fold.out5 m c, ?_, ?_⟩
  · exact (θ_run Cert.KernelIdeal.defs _ _).mono
      (fun r h c => ⟨(h.1 c).trans (Cert.KernelIdeal.Fold.result_value m ρ c), h.2 c⟩)
      (θ_run_both _ _ _ _ _ (Cert.KernelIdeal.RunValue.run_result (F := Ideal) m ρ) (Cert.KernelIdeal.Gen.frame (F := Ideal) m ρ))
  · refine (θ_run Cert.ReferenceIdeal.defs _ _).mono (fun _ h c => ⟨(h c).1.trans ?_, (h c).2⟩)
      (Cert.ReferenceIdeal.Value.run (F := Ideal) m' ρ')
    obtain ⟨h0, h1, h2, h3, h4, h5, h6, h7, h8, h9, h10, h11, h12, h13, h14, h15, h16⟩ := hagree c
    rw [Cert.ReferenceIdeal.Read.val_main_v138_eq, h0, h1, h2, h3, h4, h5, h6, h7, h8, h9, h10, h11, h12, h13, h14, h15, h16]
    exact ref_result m c

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
